-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v237)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v237) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x336 : Shape := ⟨2, ![524288, 336]⟩
abbrev S2x1310720 : Shape := ⟨2, ![2, 1310720]⟩
abbrev S2x393216 : Shape := ⟨2, ![2, 393216]⟩
abbrev S524288 : Shape := ⟨1, ![524288]⟩
abbrev S196608 : Shape := ⟨1, ![196608]⟩
abbrev S336x100 : Shape := ⟨2, ![336, 100]⟩
abbrev S100 : Shape := ⟨1, ![100]⟩
abbrev S100x100 : Shape := ⟨2, ![100, 100]⟩
abbrev S100x29 : Shape := ⟨2, ![100, 29]⟩
abbrev S29 : Shape := ⟨1, ![29]⟩
abbrev S_ : Shape := ⟨0, ![]⟩

class Facts : Prop where
  bcast_S_S524288x336 : S_.BroadcastsInDim S524288x336 (![] : Fin 0 → Fin S524288x336.rank)
  reducesTo_S524288x336_S_d0_1 : S524288x336.ReducesTo [0, 1] S_
  h_S_ : 0 < S_.numel
  bcast_S_S336x100 : S_.BroadcastsInDim S336x100 (![] : Fin 0 → Fin S336x100.rank)
  reducesTo_S336x100_S_d0_1 : S336x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x29 : S_.BroadcastsInDim S100x29 (![] : Fin 0 → Fin S100x29.rank)
  reducesTo_S100x29_S_d0_1 : S100x29.ReducesTo [0, 1] S_
  bcast_S_S29 : S_.BroadcastsInDim S29 (![] : Fin 0 → Fin S29.rank)
  reducesTo_S29_S_d0 : S29.ReducesTo [0] S_

variable [Facts]

def fn_part4 {F : FTy → Type} [FloatOps F] (main_arg18 : FVec F S100 .f32) (main_arg19 : FVec F S100x29 .f32) (main_arg20 : FVec F S29 .f32) (main_v63 : IVec S_ 1) (main_v67 : IVec S_ 1) : IVec S_ 1 :=
  let main_v68 : IVec S_ 1 := andi main_v63 main_v67
  let main_v69 : FVec F S100 .f32 := Host.absf main_arg18
  let main_cst_26 : FVec F S_ .f32 := constant S_ .f32 0x7F800000#32
  let main_v70 : FVec F S100 .f32 := broadcastInDim S100 ![] bcast_S_S100 main_cst_26
  let main_v71 : IVec S100 1 := cmpf .olt main_v69 main_v70
  let main_c_27 : IVec S_ 1 := constantI S_ 1 1#1
  let main_v72 : IVec S_ 1 := (fun x v => Host.reduce IntOp.andi x v reducesTo_S100_S_d0 h_S_) main_v71 main_c_27
  let main_v73 : IVec S_ 1 := andi main_v68 main_v72
  let main_v74 : FVec F S100x29 .f32 := Host.absf main_arg19
  let main_cst_28 : FVec F S_ .f32 := constant S_ .f32 0x7F800000#32
  let main_v75 : FVec F S100x29 .f32 := broadcastInDim S100x29 ![] bcast_S_S100x29 main_cst_28
  let main_v76 : IVec S100x29 1 := cmpf .olt main_v74 main_v75
  let main_c_29 : IVec S_ 1 := constantI S_ 1 1#1
  let main_v77 : IVec S_ 1 := (fun x v => Host.reduce IntOp.andi x v reducesTo_S100x29_S_d0_1 h_S_) main_v76 main_c_29
  let main_v78 : IVec S_ 1 := andi main_v73 main_v77
  let main_v79 : FVec F S29 .f32 := Host.absf main_arg20
  let main_cst_30 : FVec F S_ .f32 := constant S_ .f32 0x7F800000#32
  let main_v80 : FVec F S29 .f32 := broadcastInDim S29 ![] bcast_S_S29 main_cst_30
  let main_v81 : IVec S29 1 := cmpf .olt main_v79 main_v80
  let main_c_31 : IVec S_ 1 := constantI S_ 1 1#1
  let main_v82 : IVec S_ 1 := (fun x v => Host.reduce IntOp.andi x v reducesTo_S29_S_d0 h_S_) main_v81 main_c_31
  let main_v83 : IVec S_ 1 := andi main_v78 main_v82
  main_v83

def fn_part3 {F : FTy → Type} [FloatOps F] (main_arg15 : FVec F S100x100 .f32) (main_arg16 : FVec F S100 .f32) (main_arg17 : FVec F S100x100 .f32) (main_arg18 : FVec F S100 .f32) (main_arg19 : FVec F S100x29 .f32) (main_arg20 : FVec F S29 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S100x100 .f32 := Host.absf main_arg15
  let main_cst_20 : FVec F S_ .f32 := constant S_ .f32 0x7F800000#32
  let main_v55 : FVec F S100x100 .f32 := broadcastInDim S100x100 ![] bcast_S_S100x100 main_cst_20
  let main_v56 : IVec S100x100 1 := cmpf .olt main_v54 main_v55
  let main_c_21 : IVec S_ 1 := constantI S_ 1 1#1
  let main_v57 : IVec S_ 1 := (fun x v => Host.reduce IntOp.andi x v reducesTo_S100x100_S_d0_1 h_S_) main_v56 main_c_21
  let main_v58 : IVec S_ 1 := andi main_v53 main_v57
  let main_v59 : FVec F S100 .f32 := Host.absf main_arg16
  let main_cst_22 : FVec F S_ .f32 := constant S_ .f32 0x7F800000#32
  let main_v60 : FVec F S100 .f32 := broadcastInDim S100 ![] bcast_S_S100 main_cst_22
  let main_v61 : IVec S100 1 := cmpf .olt main_v59 main_v60
  let main_c_23 : IVec S_ 1 := constantI S_ 1 1#1
  let main_v62 : IVec S_ 1 := (fun x v => Host.reduce IntOp.andi x v reducesTo_S100_S_d0 h_S_) main_v61 main_c_23
  let main_v63 : IVec S_ 1 := andi main_v58 main_v62
  let main_v64 : FVec F S100x100 .f32 := Host.absf main_arg17
  let main_cst_24 : FVec F S_ .f32 := constant S_ .f32 0x7F800000#32
  let main_v65 : FVec F S100x100 .f32 := broadcastInDim S100x100 ![] bcast_S_S100x100 main_cst_24
  let main_v66 : IVec S100x100 1 := cmpf .olt main_v64 main_v65
  let main_c_25 : IVec S_ 1 := constantI S_ 1 1#1
  let main_v67 : IVec S_ 1 := (fun x v => Host.reduce IntOp.andi x v reducesTo_S100x100_S_d0_1 h_S_) main_v66 main_c_25
  fn_part4 (F := F) main_arg18 main_arg19 main_arg20 main_v63 main_v67

def fn_part2 {F : FTy → Type} [FloatOps F] (main_arg11 : FVec F S100x100 .f32) (main_arg12 : FVec F S100 .f32) (main_arg13 : FVec F S100x100 .f32) (main_arg14 : FVec F S100 .f32) (main_arg15 : FVec F S100x100 .f32) (main_arg16 : FVec F S100 .f32) (main_arg17 : FVec F S100x100 .f32) (main_arg18 : FVec F S100 .f32) (main_arg19 : FVec F S100x29 .f32) (main_arg20 : FVec F S29 .f32) (main_v33 : IVec S_ 1) : IVec S_ 1 :=
  let main_v34 : FVec F S100x100 .f32 := Host.absf main_arg11
  let main_cst_12 : FVec F S_ .f32 := constant S_ .f32 0x7F800000#32
  let main_v35 : FVec F S100x100 .f32 := broadcastInDim S100x100 ![] bcast_S_S100x100 main_cst_12
  let main_v36 : IVec S100x100 1 := cmpf .olt main_v34 main_v35
  let main_c_13 : IVec S_ 1 := constantI S_ 1 1#1
  let main_v37 : IVec S_ 1 := (fun x v => Host.reduce IntOp.andi x v reducesTo_S100x100_S_d0_1 h_S_) main_v36 main_c_13
  let main_v38 : IVec S_ 1 := andi main_v33 main_v37
  let main_v39 : FVec F S100 .f32 := Host.absf main_arg12
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100x100 .f32 := Host.absf main_arg13
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100 .f32 := Host.absf main_arg14
  let main_cst_18 : FVec F S_ .f32 := constant S_ .f32 0x7F800000#32
  let main_v50 : FVec F S100 .f32 := broadcastInDim S100 ![] bcast_S_S100 main_cst_18
  fn_part3 (F := F) main_arg15 main_arg16 main_arg17 main_arg18 main_arg19 main_arg20 main_v48 main_v49 main_v50

def fn_part1 {F : FTy → Type} [FloatOps F] (main_arg8 : FVec F S100 .f32) (main_arg9 : FVec F S100x100 .f32) (main_arg10 : FVec F S100 .f32) (main_arg11 : FVec F S100x100 .f32) (main_arg12 : FVec F S100 .f32) (main_arg13 : FVec F S100x100 .f32) (main_arg14 : FVec F S100 .f32) (main_arg15 : FVec F S100x100 .f32) (main_arg16 : FVec F S100 .f32) (main_arg17 : FVec F S100x100 .f32) (main_arg18 : FVec F S100 .f32) (main_arg19 : FVec F S100x29 .f32) (main_arg20 : FVec F S29 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg8
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg9
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100 .f32 := Host.absf main_arg10
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S524288x336 .f32) (main_arg1 : IVec S2x1310720 32) (main_arg2 : IVec S2x393216 32) (main_arg3 : IVec S524288 32) (main_arg4 : IVec S196608 32) (main_arg5 : FVec F S336x100 .f32) (main_arg6 : FVec F S100 .f32) (main_arg7 : FVec F S100x100 .f32) (main_arg8 : FVec F S100 .f32) (main_arg9 : FVec F S100x100 .f32) (main_arg10 : FVec F S100 .f32) (main_arg11 : FVec F S100x100 .f32) (main_arg12 : FVec F S100 .f32) (main_arg13 : FVec F S100x100 .f32) (main_arg14 : FVec F S100 .f32) (main_arg15 : FVec F S100x100 .f32) (main_arg16 : FVec F S100 .f32) (main_arg17 : FVec F S100x100 .f32) (main_arg18 : FVec F S100 .f32) (main_arg19 : FVec F S100x29 .f32) (main_arg20 : FVec F S29 .f32) : IVec S_ 1 :=
  let main_v0 : FVec F S524288x336 .f32 := Host.absf main_arg0
  let main_cst : FVec F S_ .f32 := constant S_ .f32 0x7F800000#32
  let main_v1 : FVec F S524288x336 .f32 := broadcastInDim S524288x336 ![] bcast_S_S524288x336 main_cst
  let main_v2 : IVec S524288x336 1 := cmpf .olt main_v0 main_v1
  let main_c : IVec S_ 1 := constantI S_ 1 1#1
  let main_v3 : IVec S_ 1 := (fun x v => Host.reduce IntOp.andi x v reducesTo_S524288x336_S_d0_1 h_S_) main_v2 main_c
  let main_v4 : FVec F S336x100 .f32 := Host.absf main_arg5
  let main_cst_0 : FVec F S_ .f32 := constant S_ .f32 0x7F800000#32
  let main_v5 : FVec F S336x100 .f32 := broadcastInDim S336x100 ![] bcast_S_S336x100 main_cst_0
  let main_v6 : IVec S336x100 1 := cmpf .olt main_v4 main_v5
  let main_c_1 : IVec S_ 1 := constantI S_ 1 1#1
  let main_v7 : IVec S_ 1 := (fun x v => Host.reduce IntOp.andi x v reducesTo_S336x100_S_d0_1 h_S_) main_v6 main_c_1
  let main_v8 : IVec S_ 1 := andi main_v3 main_v7
  let main_v9 : FVec F S100 .f32 := Host.absf main_arg6
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg7
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S524288x336 : Shape := ⟨2, ![524288, 336]⟩
abbrev S2x1310720 : Shape := ⟨2, ![2, 1310720]⟩
abbrev S2x393216 : Shape := ⟨2, ![2, 393216]⟩
abbrev S524288 : Shape := ⟨1, ![524288]⟩
abbrev S196608 : Shape := ⟨1, ![196608]⟩
abbrev S336x100 : Shape := ⟨2, ![336, 100]⟩
abbrev S100 : Shape := ⟨1, ![100]⟩
abbrev S100x100 : Shape := ⟨2, ![100, 100]⟩
abbrev S100x29 : Shape := ⟨2, ![100, 29]⟩
abbrev S29 : Shape := ⟨1, ![29]⟩
abbrev S_ : Shape := ⟨0, ![]⟩
abbrev S524288x100 : Shape := ⟨2, ![524288, 100]⟩
abbrev S4096x336 : Shape := ⟨2, ![4096, 336]⟩
abbrev S4096x100 : Shape := ⟨2, ![4096, 100]⟩
abbrev S1x100 : Shape := ⟨2, ![1, 100]⟩
abbrev S1x1310720 : Shape := ⟨2, ![1, 1310720]⟩
abbrev S1310720 : Shape := ⟨1, ![1310720]⟩
abbrev S1835008 : Shape := ⟨1, ![1835008]⟩
abbrev S1835008x1 : Shape := ⟨2, ![1835008, 1]⟩
abbrev S1835008x100 : Shape := ⟨2, ![1835008, 100]⟩
abbrev S8192x100 : Shape := ⟨2, ![8192, 100]⟩
abbrev S524288x1 : Shape := ⟨2, ![524288, 1]⟩
abbrev S196608x100 : Shape := ⟨2, ![196608, 100]⟩
abbrev S196608x1 : Shape := ⟨2, ![196608, 1]⟩
abbrev S1x393216 : Shape := ⟨2, ![1, 393216]⟩
abbrev S393216 : Shape := ⟨1, ![393216]⟩
abbrev S589824 : Shape := ⟨1, ![589824]⟩
abbrev S589824x1 : Shape := ⟨2, ![589824, 1]⟩
abbrev S589824x100 : Shape := ⟨2, ![589824, 100]⟩
abbrev S65536 : Shape := ⟨1, ![65536]⟩
abbrev S65536x100 : Shape := ⟨2, ![65536, 100]⟩
abbrev S65536x1 : Shape := ⟨2, ![65536, 1]⟩
abbrev S65536x29 : Shape := ⟨2, ![65536, 29]⟩
abbrev S8192x29 : Shape := ⟨2, ![8192, 29]⟩
abbrev S1x29 : Shape := ⟨2, ![1, 29]⟩

abbrev nBuf : Space → Nat
  | .hbm => 315
  | .vmem => 73
  | .smem => 0
  | _ => 0

abbrev hbmTy0_0 (i : Nat) : BufTy := match i % 128 with
  | 0 => ⟨S524288x336, .f32⟩
  | 1 => ⟨S2x1310720, .i32⟩
  | 2 => ⟨S2x393216, .i32⟩
  | 3 => ⟨S524288, .i32⟩
  | 4 => ⟨S196608, .i32⟩
  | 5 => ⟨S336x100, .f32⟩
  | 6 => ⟨S100, .f32⟩
  | 7 => ⟨S100x100, .f32⟩
  | 8 => ⟨S100, .f32⟩
  | 9 => ⟨S100x100, .f32⟩
  | 10 => ⟨S100, .f32⟩
  | 11 => ⟨S100x100, .f32⟩
  | 12 => ⟨S100, .f32⟩
  | 13 => ⟨S100x100, .f32⟩
  | 14 => ⟨S100, .f32⟩
  | 15 => ⟨S100x100, .f32⟩
  | 16 => ⟨S100, .f32⟩
  | 17 => ⟨S100x100, .f32⟩
  | 18 => ⟨S100, .f32⟩
  | 19 => ⟨S100x29, .f32⟩
  | 20 => ⟨S29, .f32⟩
  | 21 => ⟨S_, .f32⟩
  | 22 => ⟨S100, .f32⟩
  | 23 => ⟨S524288x100, .f32⟩
  | 24 => ⟨S524288, .i32⟩
  | 25 => ⟨S1x1310720, .i32⟩
  | 26 => ⟨S1310720, .i32⟩
  | 27 => ⟨S1835008, .i32⟩
  | 28 => ⟨S1x1310720, .i32⟩
  | 29 => ⟨S1310720, .i32⟩
  | 30 => ⟨S1835008, .i32⟩
  | 31 => ⟨S_, .f32⟩
  | 32 => ⟨S1835008, .f32⟩
  | 33 => ⟨S_, .f32⟩
  | 34 => ⟨S524288, .f32⟩
  | 35 => ⟨S1835008x1, .i32⟩
  | 36 => ⟨S524288, .f32⟩
  | 37 => ⟨S524288, .f32⟩
  | 38 => ⟨S_, .i32⟩
  | 39 => ⟨S1835008, .i32⟩
  | 40 => ⟨S1835008, .i1⟩
  | 41 => ⟨S_, .i32⟩
  | 42 => ⟨S1835008, .i32⟩
  | 43 => ⟨S1835008, .i32⟩
  | 44 => ⟨S1835008, .i32⟩
  | 45 => ⟨S1835008x1, .i32⟩
  | 46 => ⟨S1835008, .f32⟩
  | 47 => ⟨S_, .i32⟩
  | 48 => ⟨S1835008, .i32⟩
  | 49 => ⟨S1835008, .i1⟩
  | 50 => ⟨S_, .i32⟩
  | 51 => ⟨S1835008, .i32⟩
  | 52 => ⟨S1835008, .i32⟩
  | 53 => ⟨S1835008, .i32⟩
  | 54 => ⟨S1835008x1, .i32⟩
  | 55 => ⟨S1835008, .f32⟩
  | 56 => ⟨S1835008, .f32⟩
  | 57 => ⟨S_, .i32⟩
  | 58 => ⟨S1835008, .i32⟩
  | 59 => ⟨S1835008, .i1⟩
  | 60 => ⟨S_, .i32⟩
  | 61 => ⟨S1835008, .i32⟩
  | 62 => ⟨S1835008, .i32⟩
  | 63 => ⟨S1835008, .i32⟩
  | 64 => ⟨S1835008x1, .i32⟩
  | 65 => ⟨S1835008x100, .f32⟩
  | 66 => ⟨S1835008x1, .f32⟩
  | 67 => ⟨S1835008x100, .f32⟩
  | 68 => ⟨S1835008x100, .f32⟩
  | 69 => ⟨S_, .f32⟩
  | 70 => ⟨S524288x100, .f32⟩
  | 71 => ⟨S1835008x1, .i32⟩
  | 72 => ⟨S524288x100, .f32⟩
  | 73 => ⟨S524288x100, .f32⟩
  | 74 => ⟨S_, .f32⟩
  | 75 => ⟨S100, .f32⟩
  | 76 => ⟨S524288x100, .f32⟩
  | 77 => ⟨S524288, .i32⟩
  | 78 => ⟨S1x1310720, .i32⟩
  | 79 => ⟨S1310720, .i32⟩
  | 80 => ⟨S1835008, .i32⟩
  | 81 => ⟨S1x1310720, .i32⟩
  | 82 => ⟨S1310720, .i32⟩
  | 83 => ⟨S1835008, .i32⟩
  | 84 => ⟨S_, .f32⟩
  | 85 => ⟨S1835008, .f32⟩
  | 86 => ⟨S_, .f32⟩
  | 87 => ⟨S524288, .f32⟩
  | 88 => ⟨S1835008x1, .i32⟩
  | 89 => ⟨S524288, .f32⟩
  | 90 => ⟨S524288, .f32⟩
  | 91 => ⟨S_, .i32⟩
  | 92 => ⟨S1835008, .i32⟩
  | 93 => ⟨S1835008, .i1⟩
  | 94 => ⟨S_, .i32⟩
  | 95 => ⟨S1835008, .i32⟩
  | 96 => ⟨S1835008, .i32⟩
  | 97 => ⟨S1835008, .i32⟩
  | 98 => ⟨S1835008x1, .i32⟩
  | 99 => ⟨S1835008, .f32⟩
  | 100 => ⟨S_, .i32⟩
  | 101 => ⟨S1835008, .i32⟩
  | 102 => ⟨S1835008, .i1⟩
  | 103 => ⟨S_, .i32⟩
  | 104 => ⟨S1835008, .i32⟩
  | 105 => ⟨S1835008, .i32⟩
  | 106 => ⟨S1835008, .i32⟩
  | 107 => ⟨S1835008x1, .i32⟩
  | 108 => ⟨S1835008, .f32⟩
  | 109 => ⟨S1835008, .f32⟩
  | 110 => ⟨S_, .i32⟩
  | 111 => ⟨S1835008, .i32⟩
  | 112 => ⟨S1835008, .i1⟩
  | 113 => ⟨S_, .i32⟩
  | 114 => ⟨S1835008, .i32⟩
  | 115 => ⟨S1835008, .i32⟩
  | 116 => ⟨S1835008, .i32⟩
  | 117 => ⟨S1835008x1, .i32⟩
  | 118 => ⟨S1835008x100, .f32⟩
  | 119 => ⟨S1835008x1, .f32⟩
  | 120 => ⟨S1835008x100, .f32⟩
  | 121 => ⟨S1835008x100, .f32⟩
  | 122 => ⟨S_, .f32⟩
  | 123 => ⟨S524288x100, .f32⟩
  | 124 => ⟨S1835008x1, .i32⟩
  | 125 => ⟨S524288x100, .f32⟩
  | 126 => ⟨S524288x100, .f32⟩
  | 127 => ⟨S_, .f32⟩
  | _ => ⟨S524288x336, .f32⟩

abbrev hbmTy0_1 (i : Nat) : BufTy := match i % 128 with
  | 0 => ⟨S100, .f32⟩
  | 1 => ⟨S524288x100, .f32⟩
  | 2 => ⟨S524288, .i32⟩
  | 3 => ⟨S1x1310720, .i32⟩
  | 4 => ⟨S1310720, .i32⟩
  | 5 => ⟨S1835008, .i32⟩
  | 6 => ⟨S1x1310720, .i32⟩
  | 7 => ⟨S1310720, .i32⟩
  | 8 => ⟨S1835008, .i32⟩
  | 9 => ⟨S_, .f32⟩
  | 10 => ⟨S1835008, .f32⟩
  | 11 => ⟨S_, .f32⟩
  | 12 => ⟨S524288, .f32⟩
  | 13 => ⟨S1835008x1, .i32⟩
  | 14 => ⟨S524288, .f32⟩
  | 15 => ⟨S524288, .f32⟩
  | 16 => ⟨S_, .i32⟩
  | 17 => ⟨S1835008, .i32⟩
  | 18 => ⟨S1835008, .i1⟩
  | 19 => ⟨S_, .i32⟩
  | 20 => ⟨S1835008, .i32⟩
  | 21 => ⟨S1835008, .i32⟩
  | 22 => ⟨S1835008, .i32⟩
  | 23 => ⟨S1835008x1, .i32⟩
  | 24 => ⟨S1835008, .f32⟩
  | 25 => ⟨S_, .i32⟩
  | 26 => ⟨S1835008, .i32⟩
  | 27 => ⟨S1835008, .i1⟩
  | 28 => ⟨S_, .i32⟩
  | 29 => ⟨S1835008, .i32⟩
  | 30 => ⟨S1835008, .i32⟩
  | 31 => ⟨S1835008, .i32⟩
  | 32 => ⟨S1835008x1, .i32⟩
  | 33 => ⟨S1835008, .f32⟩
  | 34 => ⟨S1835008, .f32⟩
  | 35 => ⟨S_, .i32⟩
  | 36 => ⟨S1835008, .i32⟩
  | 37 => ⟨S1835008, .i1⟩
  | 38 => ⟨S_, .i32⟩
  | 39 => ⟨S1835008, .i32⟩
  | 40 => ⟨S1835008, .i32⟩
  | 41 => ⟨S1835008, .i32⟩
  | 42 => ⟨S1835008x1, .i32⟩
  | 43 => ⟨S1835008x100, .f32⟩
  | 44 => ⟨S1835008x1, .f32⟩
  | 45 => ⟨S1835008x100, .f32⟩
  | 46 => ⟨S1835008x100, .f32⟩
  | 47 => ⟨S_, .f32⟩
  | 48 => ⟨S524288x100, .f32⟩
  | 49 => ⟨S1835008x1, .i32⟩
  | 50 => ⟨S524288x100, .f32⟩
  | 51 => ⟨S524288x100, .f32⟩
  | 52 => ⟨S_, .f32⟩
  | 53 => ⟨S524288, .f32⟩
  | 54 => ⟨S_, .f32⟩
  | 55 => ⟨S196608, .f32⟩
  | 56 => ⟨S524288x1, .i32⟩
  | 57 => ⟨S196608, .f32⟩
  | 58 => ⟨S_, .f32⟩
  | 59 => ⟨S196608x100, .f32⟩
  | 60 => ⟨S524288x1, .i32⟩
  | 61 => ⟨S196608x100, .f32⟩
  | 62 => ⟨S196608x1, .f32⟩
  | 63 => ⟨S196608x100, .f32⟩
  | 64 => ⟨S196608x100, .f32⟩
  | 65 => ⟨S_, .f32⟩
  | 66 => ⟨S100, .f32⟩
  | 67 => ⟨S196608x100, .f32⟩
  | 68 => ⟨S196608, .i32⟩
  | 69 => ⟨S1x393216, .i32⟩
  | 70 => ⟨S393216, .i32⟩
  | 71 => ⟨S589824, .i32⟩
  | 72 => ⟨S1x393216, .i32⟩
  | 73 => ⟨S393216, .i32⟩
  | 74 => ⟨S589824, .i32⟩
  | 75 => ⟨S_, .f32⟩
  | 76 => ⟨S589824, .f32⟩
  | 77 => ⟨S_, .f32⟩
  | 78 => ⟨S196608, .f32⟩
  | 79 => ⟨S589824x1, .i32⟩
  | 80 => ⟨S196608, .f32⟩
  | 81 => ⟨S196608, .f32⟩
  | 82 => ⟨S_, .i32⟩
  | 83 => ⟨S589824, .i32⟩
  | 84 => ⟨S589824, .i1⟩
  | 85 => ⟨S_, .i32⟩
  | 86 => ⟨S589824, .i32⟩
  | 87 => ⟨S589824, .i32⟩
  | 88 => ⟨S589824, .i32⟩
  | 89 => ⟨S589824x1, .i32⟩
  | 90 => ⟨S589824, .f32⟩
  | 91 => ⟨S_, .i32⟩
  | 92 => ⟨S589824, .i32⟩
  | 93 => ⟨S589824, .i1⟩
  | 94 => ⟨S_, .i32⟩
  | 95 => ⟨S589824, .i32⟩
  | 96 => ⟨S589824, .i32⟩
  | 97 => ⟨S589824, .i32⟩
  | 98 => ⟨S589824x1, .i32⟩
  | 99 => ⟨S589824, .f32⟩
  | 100 => ⟨S589824, .f32⟩
  | 101 => ⟨S_, .i32⟩
  | 102 => ⟨S589824, .i32⟩
  | 103 => ⟨S589824, .i1⟩
  | 104 => ⟨S_, .i32⟩
  | 105 => ⟨S589824, .i32⟩
  | 106 => ⟨S589824, .i32⟩
  | 107 => ⟨S589824, .i32⟩
  | 108 => ⟨S589824x1, .i32⟩
  | 109 => ⟨S589824x100, .f32⟩
  | 110 => ⟨S589824x1, .f32⟩
  | 111 => ⟨S589824x100, .f32⟩
  | 112 => ⟨S589824x100, .f32⟩
  | 113 => ⟨S_, .f32⟩
  | 114 => ⟨S196608x100, .f32⟩
  | 115 => ⟨S589824x1, .i32⟩
  | 116 => ⟨S196608x100, .f32⟩
  | 117 => ⟨S196608x100, .f32⟩
  | 118 => ⟨S_, .f32⟩
  | 119 => ⟨S100, .f32⟩
  | 120 => ⟨S196608x100, .f32⟩
  | 121 => ⟨S196608, .i32⟩
  | 122 => ⟨S1x393216, .i32⟩
  | 123 => ⟨S393216, .i32⟩
  | 124 => ⟨S589824, .i32⟩
  | 125 => ⟨S1x393216, .i32⟩
  | 126 => ⟨S393216, .i32⟩
  | 127 => ⟨S589824, .i32⟩
  | _ => ⟨S524288x336, .f32⟩

abbrev hbmTy0_2 (i : Nat) : BufTy := match i % 128 with
  | 0 => ⟨S_, .f32⟩
  | 1 => ⟨S589824, .f32⟩
  | 2 => ⟨S_, .f32⟩
  | 3 => ⟨S196608, .f32⟩
  | 4 => ⟨S589824x1, .i32⟩
  | 5 => ⟨S196608, .f32⟩
  | 6 => ⟨S196608, .f32⟩
  | 7 => ⟨S_, .i32⟩
  | 8 => ⟨S589824, .i32⟩
  | 9 => ⟨S589824, .i1⟩
  | 10 => ⟨S_, .i32⟩
  | 11 => ⟨S589824, .i32⟩
  | 12 => ⟨S589824, .i32⟩
  | 13 => ⟨S589824, .i32⟩
  | 14 => ⟨S589824x1, .i32⟩
  | 15 => ⟨S589824, .f32⟩
  | 16 => ⟨S_, .i32⟩
  | 17 => ⟨S589824, .i32⟩
  | 18 => ⟨S589824, .i1⟩
  | 19 => ⟨S_, .i32⟩
  | 20 => ⟨S589824, .i32⟩
  | 21 => ⟨S589824, .i32⟩
  | 22 => ⟨S589824, .i32⟩
  | 23 => ⟨S589824x1, .i32⟩
  | 24 => ⟨S589824, .f32⟩
  | 25 => ⟨S589824, .f32⟩
  | 26 => ⟨S_, .i32⟩
  | 27 => ⟨S589824, .i32⟩
  | 28 => ⟨S589824, .i1⟩
  | 29 => ⟨S_, .i32⟩
  | 30 => ⟨S589824, .i32⟩
  | 31 => ⟨S589824, .i32⟩
  | 32 => ⟨S589824, .i32⟩
  | 33 => ⟨S589824x1, .i32⟩
  | 34 => ⟨S589824x100, .f32⟩
  | 35 => ⟨S589824x1, .f32⟩
  | 36 => ⟨S589824x100, .f32⟩
  | 37 => ⟨S589824x100, .f32⟩
  | 38 => ⟨S_, .f32⟩
  | 39 => ⟨S196608x100, .f32⟩
  | 40 => ⟨S589824x1, .i32⟩
  | 41 => ⟨S196608x100, .f32⟩
  | 42 => ⟨S196608x100, .f32⟩
  | 43 => ⟨S_, .f32⟩
  | 44 => ⟨S196608, .f32⟩
  | 45 => ⟨S_, .f32⟩
  | 46 => ⟨S65536, .f32⟩
  | 47 => ⟨S196608x1, .i32⟩
  | 48 => ⟨S65536, .f32⟩
  | 49 => ⟨S_, .f32⟩
  | 50 => ⟨S65536x100, .f32⟩
  | 51 => ⟨S196608x1, .i32⟩
  | 52 => ⟨S65536x100, .f32⟩
  | 53 => ⟨S65536x1, .f32⟩
  | 54 => ⟨S65536x100, .f32⟩
  | 55 => ⟨S65536x100, .f32⟩
  | 56 => ⟨S65536x100, .f32⟩
  | 57 => ⟨S65536x100, .f32⟩
  | 58 => ⟨S65536x29, .f32⟩
  | _ => ⟨S524288x336, .f32⟩

abbrev hbmTy (i : Nat) : BufTy := match i / 128 with
  | 0 => hbmTy0_0 i
  | 1 => hbmTy0_1 i
  | 2 => hbmTy0_2 i
  | _ => ⟨S524288x336, .f32⟩

abbrev bufTy : (tb : Table) → Fin (tcTables nBuf tb) → BufTy
  | .hbm, ⟨i, _⟩ => hbmTy i
  | .local _ .vmem, ⟨0, _⟩ => ⟨S4096x336, .f32⟩
  | .local _ .vmem, ⟨1, _⟩ => ⟨S4096x336, .f32⟩
  | .local _ .vmem, ⟨2, _⟩ => ⟨S336x100, .f32⟩
  | .local _ .vmem, ⟨3, _⟩ => ⟨S100, .f32⟩
  | .local _ .vmem, ⟨4, _⟩ => ⟨S4096x100, .f32⟩
  | .local _ .vmem, ⟨5, _⟩ => ⟨S4096x100, .f32⟩
  | .local _ .vmem, ⟨6, _⟩ => ⟨S4096x100, .f32⟩
  | .local _ .vmem, ⟨7, _⟩ => ⟨S4096x100, .f32⟩
  | .local _ .vmem, ⟨8, _⟩ => ⟨S100, .f32⟩
  | .local _ .vmem, ⟨9, _⟩ => ⟨S4096x100, .f32⟩
  | .local _ .vmem, ⟨10, _⟩ => ⟨S4096x100, .f32⟩
  | .local _ .vmem, ⟨11, _⟩ => ⟨S8192x100, .f32⟩
  | .local _ .vmem, ⟨12, _⟩ => ⟨S8192x100, .f32⟩
  | .local _ .vmem, ⟨13, _⟩ => ⟨S100x100, .f32⟩
  | .local _ .vmem, ⟨14, _⟩ => ⟨S100, .f32⟩
  | .local _ .vmem, ⟨15, _⟩ => ⟨S8192x100, .f32⟩
  | .local _ .vmem, ⟨16, _⟩ => ⟨S8192x100, .f32⟩
  | .local _ .vmem, ⟨17, _⟩ => ⟨S8192x100, .f32⟩
  | .local _ .vmem, ⟨18, _⟩ => ⟨S8192x100, .f32⟩
  | .local _ .vmem, ⟨19, _⟩ => ⟨S100, .f32⟩
  | .local _ .vmem, ⟨20, _⟩ => ⟨S8192x100, .f32⟩
  | .local _ .vmem, ⟨21, _⟩ => ⟨S8192x100, .f32⟩
  | .local _ .vmem, ⟨22, _⟩ => ⟨S8192x100, .f32⟩
  | .local _ .vmem, ⟨23, _⟩ => ⟨S8192x100, .f32⟩
  | .local _ .vmem, ⟨24, _⟩ => ⟨S100x100, .f32⟩
  | .local _ .vmem, ⟨25, _⟩ => ⟨S100, .f32⟩
  | .local _ .vmem, ⟨26, _⟩ => ⟨S8192x100, .f32⟩
  | .local _ .vmem, ⟨27, _⟩ => ⟨S8192x100, .f32⟩
  | .local _ .vmem, ⟨28, _⟩ => ⟨S8192x100, .f32⟩
  | .local _ .vmem, ⟨29, _⟩ => ⟨S8192x100, .f32⟩
  | .local _ .vmem, ⟨30, _⟩ => ⟨S100, .f32⟩
  | .local _ .vmem, ⟨31, _⟩ => ⟨S8192x100, .f32⟩
  | .local _ .vmem, ⟨32, _⟩ => ⟨S8192x100, .f32⟩
  | .local _ .vmem, ⟨33, _⟩ => ⟨S8192x100, .f32⟩
  | .local _ .vmem, ⟨34, _⟩ => ⟨S8192x100, .f32⟩
  | .local _ .vmem, ⟨35, _⟩ => ⟨S100x100, .f32⟩
  | .local _ .vmem, ⟨36, _⟩ => ⟨S100, .f32⟩
  | .local _ .vmem, ⟨37, _⟩ => ⟨S8192x100, .f32⟩
  | .local _ .vmem, ⟨38, _⟩ => ⟨S8192x100, .f32⟩
  | .local _ .vmem, ⟨39, _⟩ => ⟨S8192x100, .f32⟩
  | .local _ .vmem, ⟨40, _⟩ => ⟨S8192x100, .f32⟩
  | .local _ .vmem, ⟨41, _⟩ => ⟨S100, .f32⟩
  | .local _ .vmem, ⟨42, _⟩ => ⟨S8192x100, .f32⟩
  | .local _ .vmem, ⟨43, _⟩ => ⟨S8192x100, .f32⟩
  | .local _ .vmem, ⟨44, _⟩ => ⟨S8192x100, .f32⟩
  | .local _ .vmem, ⟨45, _⟩ => ⟨S8192x100, .f32⟩
  | .local _ .vmem, ⟨46, _⟩ => ⟨S100x100, .f32⟩
  | .local _ .vmem, ⟨47, _⟩ => ⟨S100, .f32⟩
  | .local _ .vmem, ⟨48, _⟩ => ⟨S8192x100, .f32⟩
  | .local _ .vmem, ⟨49, _⟩ => ⟨S8192x100, .f32⟩
  | .local _ .vmem, ⟨50, _⟩ => ⟨S8192x100, .f32⟩
  | .local _ .vmem, ⟨51, _⟩ => ⟨S8192x100, .f32⟩
  | .local _ .vmem, ⟨52, _⟩ => ⟨S100, .f32⟩
  | .local _ .vmem, ⟨53, _⟩ => ⟨S8192x100, .f32⟩
  | .local _ .vmem, ⟨54, _⟩ => ⟨S8192x100, .f32⟩
  | .local _ .vmem, ⟨55, _⟩ => ⟨S8192x100, .f32⟩
  | .local _ .vmem, ⟨56, _⟩ => ⟨S8192x100, .f32⟩
  | .local _ .vmem, ⟨57, _⟩ => ⟨S100x100, .f32⟩
  | .local _ .vmem, ⟨58, _⟩ => ⟨S100, .f32⟩
  | .local _ .vmem, ⟨59, _⟩ => ⟨S8192x100, .f32⟩
  | .local _ .vmem, ⟨60, _⟩ => ⟨S8192x100, .f32⟩
  | .local _ .vmem, ⟨61, _⟩ => ⟨S8192x100, .f32⟩
  | .local _ .vmem, ⟨62, _⟩ => ⟨S8192x100, .f32⟩
  | .local _ .vmem, ⟨63, _⟩ => ⟨S100x100, .f32⟩
  | .local _ .vmem, ⟨64, _⟩ => ⟨S100, .f32⟩
  | .local _ .vmem, ⟨65, _⟩ => ⟨S8192x100, .f32⟩
  | .local _ .vmem, ⟨66, _⟩ => ⟨S8192x100, .f32⟩
  | .local _ .vmem, ⟨67, _⟩ => ⟨S8192x100, .f32⟩
  | .local _ .vmem, ⟨68, _⟩ => ⟨S8192x100, .f32⟩
  | .local _ .vmem, ⟨69, _⟩ => ⟨S100x29, .f32⟩
  | .local _ .vmem, ⟨70, _⟩ => ⟨S29, .f32⟩
  | .local _ .vmem, ⟨71, _⟩ => ⟨S8192x29, .f32⟩
  | .local _ .vmem, ⟨72, _⟩ => ⟨S8192x29, .f32⟩
  | _, _ => ⟨S524288x336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_5 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_15 : Ref sig .tc := ⟨.hbm, 110, rfl⟩
abbrev main_v72 : Ref sig .tc := ⟨.hbm, 111, rfl⟩
abbrev main_v73 : Ref sig .tc := ⟨.hbm, 112, rfl⟩
abbrev main_c_16 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_21 : Ref sig .tc := ⟨.hbm, 144, rfl⟩
abbrev main_v100 : Ref sig .tc := ⟨.hbm, 145, rfl⟩
abbrev main_v101 : Ref sig .tc := ⟨.hbm, 146, rfl⟩
abbrev main_c_22 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c_23 : Ref sig .tc := ⟨.hbm, 153, rfl⟩
abbrev main_v107 : Ref sig .tc := ⟨.hbm, 154, rfl⟩
abbrev main_v108 : Ref sig .tc := ⟨.hbm, 155, rfl⟩
abbrev main_c_24 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_25 : Ref sig .tc := ⟨.hbm, 163, rfl⟩
abbrev main_v115 : Ref sig .tc := ⟨.hbm, 164, rfl⟩
abbrev main_v116 : Ref sig .tc := ⟨.hbm, 165, rfl⟩
abbrev main_c_26 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_27 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_28 : Ref sig .tc := ⟨.hbm, 180, rfl⟩
abbrev main_v129 : Ref sig .tc := ⟨.hbm, 181, rfl⟩
abbrev main_cst_29 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_30 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_31 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_cst_32 : Ref sig .tc := ⟨.hbm, 203, rfl⟩
abbrev main_v148 : Ref sig .tc := ⟨.hbm, 204, rfl⟩
abbrev main_cst_33 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_c_34 : Ref sig .tc := ⟨.hbm, 210, rfl⟩
abbrev main_v153 : Ref sig .tc := ⟨.hbm, 211, rfl⟩
abbrev main_v154 : Ref sig .tc := ⟨.hbm, 212, rfl⟩
abbrev main_c_35 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_c_36 : Ref sig .tc := ⟨.hbm, 219, rfl⟩
abbrev main_v160 : Ref sig .tc := ⟨.hbm, 220, rfl⟩
abbrev main_v161 : Ref sig .tc := ⟨.hbm, 221, rfl⟩
abbrev main_c_37 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_c_38 : Ref sig .tc := ⟨.hbm, 229, rfl⟩
abbrev main_v168 : Ref sig .tc := ⟨.hbm, 230, rfl⟩
abbrev main_v169 : Ref sig .tc := ⟨.hbm, 231, rfl⟩
abbrev main_c_39 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_40 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_41 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_cst_42 : Ref sig .tc := ⟨.hbm, 256, rfl⟩
abbrev main_v191 : Ref sig .tc := ⟨.hbm, 257, rfl⟩
abbrev main_cst_43 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_c_44 : Ref sig .tc := ⟨.hbm, 263, rfl⟩
abbrev main_v196 : Ref sig .tc := ⟨.hbm, 264, rfl⟩
abbrev main_v197 : Ref sig .tc := ⟨.hbm, 265, rfl⟩
abbrev main_c_45 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_c_46 : Ref sig .tc := ⟨.hbm, 272, rfl⟩
abbrev main_v203 : Ref sig .tc := ⟨.hbm, 273, rfl⟩
abbrev main_v204 : Ref sig .tc := ⟨.hbm, 274, rfl⟩
abbrev main_c_47 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_c_48 : Ref sig .tc := ⟨.hbm, 282, rfl⟩
abbrev main_v211 : Ref sig .tc := ⟨.hbm, 283, rfl⟩
abbrev main_v212 : Ref sig .tc := ⟨.hbm, 284, rfl⟩
abbrev main_c_49 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_cst_50 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_cst_51 : Ref sig .tc := ⟨.hbm, 299, rfl⟩
abbrev main_v225 : Ref sig .tc := ⟨.hbm, 300, rfl⟩
abbrev main_cst_52 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_cst_53 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg3_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg2_1 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc10_stg2_0 : Ref sig .tc := ⟨.vmem, 58, rfl⟩
abbrev cc10_stg3_0 : Ref sig .tc := ⟨.vmem, 59, rfl⟩
abbrev cc10_stg3_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg2_0 : Ref sig .tc := ⟨.vmem, 64, rfl⟩
abbrev cc11_stg3_0 : Ref sig .tc := ⟨.vmem, 65, rfl⟩
abbrev cc11_stg3_1 : Ref sig .tc := ⟨.vmem, 66, rfl⟩
abbrev cc12_stg0_0 : Ref sig .tc := ⟨.vmem, 67, rfl⟩
abbrev cc12_stg0_1 : Ref sig .tc := ⟨.vmem, 68, rfl⟩
abbrev cc12_stg1_0 : Ref sig .tc := ⟨.vmem, 69, rfl⟩
abbrev cc12_stg2_0 : Ref sig .tc := ⟨.vmem, 70, rfl⟩
abbrev cc12_stg3_0 : Ref sig .tc := ⟨.vmem, 71, rfl⟩
abbrev cc12_stg3_1 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem3_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem2_1 : DmaSem sig := 54
abbrev cc10_sem0_0 : DmaSem sig := 55
abbrev cc10_sem0_1 : DmaSem sig := 56
abbrev cc10_sem1_0 : DmaSem sig := 57
abbrev cc10_sem2_0 : DmaSem sig := 58
abbrev cc10_sem3_0 : DmaSem sig := 59
abbrev cc10_sem3_1 : DmaSem sig := 60
abbrev cc11_sem0_0 : DmaSem sig := 61
abbrev cc11_sem0_1 : DmaSem sig := 62
abbrev cc11_sem1_0 : DmaSem sig := 63
abbrev cc11_sem2_0 : DmaSem sig := 64
abbrev cc11_sem3_0 : DmaSem sig := 65
abbrev cc11_sem3_1 : DmaSem sig := 66
abbrev cc12_sem0_0 : DmaSem sig := 67
abbrev cc12_sem0_1 : DmaSem sig := 68
abbrev cc12_sem1_0 : DmaSem sig := 69
abbrev cc12_sem2_0 : DmaSem sig := 70
abbrev cc12_sem3_0 : DmaSem sig := 71
abbrev cc12_sem3_1 : DmaSem sig := 72

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S336x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S100x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x100 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x100 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S100x100 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S100 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8192x100 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x100 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S100 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8192x100 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![24], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x100 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S100x100 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S100 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8192x100 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![24], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x100 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S100 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S8192x100 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![24], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x100 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S100x100 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S100 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S8192x100 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![24], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x100 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S100 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S8192x100 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8192x100 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S100x100 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S100 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S8192x100 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x100 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S100x100 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S100 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S8192x100 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8192x100 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S100x29 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S29 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S8192x29 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  bcast_S_S100 : S_.BroadcastsInDim S100 (![] : Fin 0 → Fin S100.rank)
  inb_S4096x336_S4096x336_0_0 : ∀ a, (![0, 0] : Fin 2 → Nat) a + S4096x336.size a ≤ S4096x336.size a
  h_S4096x336 : 0 < S4096x336.numel
  bitsLt_bf16_f32 : FTy.bits .bf16 < FTy.bits .f32
  inb_S336x100_S336x100_0_0 : ∀ a, (![0, 0] : Fin 2 → Nat) a + S336x100.size a ≤ S336x100.size a
  h_S336x100 : 0 < S336x100.numel
  inb_S100_S100_0 : ∀ a, (![0] : Fin 1 → Nat) a + S100.size a ≤ S100.size a
  h_S100 : 0 < S100.numel
  shapeCasts_S100_S100 : S100.ShapeCasts S100
  shapeCasts_S100_S1x100 : S100.ShapeCasts S1x100
  broadcasts_S1x100_S4096x100 : S1x100.Broadcasts S4096x100
  inb_S4096x100_S4096x100_0_0 : ∀ a, (![0, 0] : Fin 2 → Nat) a + S4096x100.size a ≤ S4096x100.size a
  h_S4096x100 : 0 < S4096x100.numel
  slices_S2x1310720_S1x1310720_0_0 : S2x1310720.Slices ![0, 0] S1x1310720
  shapeCasts_S1x1310720_S1310720 : S1x1310720.ShapeCasts S1310720
  concatenates_S1310720_S524288_S1835008_d0 : Shape.Concatenates [S1310720, S524288] S1835008 0
  slices_S2x1310720_S1x1310720_1_0 : S2x1310720.Slices ![1, 0] S1x1310720
  bcast_S_S1835008 : S_.BroadcastsInDim S1835008 (![] : Fin 0 → Fin S1835008.rank)
  bcast_S_S524288 : S_.BroadcastsInDim S524288 (![] : Fin 0 → Fin S524288.rank)
  bcast_S1835008_S1835008x1_0 : S1835008.BroadcastsInDim S1835008x1 (![0] : Fin 1 → Fin S1835008x1.rank)
  bcast_S1835008x1_S1835008x100_0_1 : S1835008x1.BroadcastsInDim S1835008x100 (![0, 1] : Fin 2 → Fin S1835008x100.rank)
  bcast_S_S524288x100 : S_.BroadcastsInDim S524288x100 (![] : Fin 0 → Fin S524288x100.rank)
  shapeCasts_S4096x100_S4096x100 : S4096x100.ShapeCasts S4096x100
  inb_S8192x100_S8192x100_0_0 : ∀ a, (![0, 0] : Fin 2 → Nat) a + S8192x100.size a ≤ S8192x100.size a
  h_S8192x100 : 0 < S8192x100.numel
  shapeCasts_S8192x100_S8192x100 : S8192x100.ShapeCasts S8192x100
  inb_S100x100_S100x100_0_0 : ∀ a, (![0, 0] : Fin 2 → Nat) a + S100x100.size a ≤ S100x100.size a
  h_S100x100 : 0 < S100x100.numel
  broadcasts_S1x100_S8192x100 : S1x100.Broadcasts S8192x100
  bcast_S_S196608 : S_.BroadcastsInDim S196608 (![] : Fin 0 → Fin S196608.rank)
  bcast_S524288_S524288x1_0 : S524288.BroadcastsInDim S524288x1 (![0] : Fin 1 → Fin S524288x1.rank)
  bcast_S_S196608x100 : S_.BroadcastsInDim S196608x100 (![] : Fin 0 → Fin S196608x100.rank)
  bcast_S196608_S196608x1_0 : S196608.BroadcastsInDim S196608x1 (![0] : Fin 1 → Fin S196608x1.rank)
  bcast_S196608x1_S196608x100_0_1 : S196608x1.BroadcastsInDim S196608x100 (![0, 1] : Fin 2 → Fin S196608x100.rank)
  slices_S2x393216_S1x393216_0_0 : S2x393216.Slices ![0, 0] S1x393216
  shapeCasts_S1x393216_S393216 : S1x393216.ShapeCasts S393216
  concatenates_S393216_S196608_S589824_d0 : Shape.Concatenates [S393216, S196608] S589824 0
  slices_S2x393216_S1x393216_1_0 : S2x393216.Slices ![1, 0] S1x393216
  bcast_S_S589824 : S_.BroadcastsInDim S589824 (![] : Fin 0 → Fin S589824.rank)
  bcast_S589824_S589824x1_0 : S589824.BroadcastsInDim S589824x1 (![0] : Fin 1 → Fin S589824x1.rank)
  bcast_S589824x1_S589824x100_0_1 : S589824x1.BroadcastsInDim S589824x100 (![0, 1] : Fin 2 → Fin S589824x100.rank)
  bcast_S_S65536 : S_.BroadcastsInDim S65536 (![] : Fin 0 → Fin S65536.rank)
  bcast_S_S65536x100 : S_.BroadcastsInDim S65536x100 (![] : Fin 0 → Fin S65536x100.rank)
  bcast_S65536_S65536x1_0 : S65536.BroadcastsInDim S65536x1 (![0] : Fin 1 → Fin S65536x1.rank)
  bcast_S65536x1_S65536x100_0_1 : S65536x1.BroadcastsInDim S65536x100 (![0, 1] : Fin 2 → Fin S65536x100.rank)
  inb_S100x29_S100x29_0_0 : ∀ a, (![0, 0] : Fin 2 → Nat) a + S100x29.size a ≤ S100x29.size a
  h_S100x29 : 0 < S100x29.numel
  inb_S29_S29_0 : ∀ a, (![0] : Fin 1 → Nat) a + S29.size a ≤ S29.size a
  h_S29 : 0 < S29.numel
  shapeCasts_S29_S1x29 : S29.ShapeCasts S1x29
  broadcasts_S1x29_S8192x29 : S1x29.Broadcasts S8192x29
  inb_S8192x29_S8192x29_0_0 : ∀ a, (![0, 0] : Fin 2 → Nat) a + S8192x29.size a ≤ S8192x29.size a
  h_S8192x29 : 0 < S8192x29.numel
  dot_S4096x336_S336x100_S4096x100_1_0_0_1_n_n_wf : DotDims.WF S4096x336 S336x100 S4096x100 [1] [0] [0] [1] [] []
  scatter_S524288_S1835008x1_S1835008_n_0_0_1_wf : ScatterDims.WF S524288 S1835008x1 S1835008 [] [0] [0] 1
  gather_S524288_S1835008x1_S1835008_n_0_n_n_0_1_1_wf : GatherDims.WF S524288 S1835008x1 S1835008 [] [0] [] [0] [] 1 ![1]
  gather_S524288x100_S1835008x1_S1835008x100_1_0_n_n_0_1_1100_wf : GatherDims.WF S524288x100 S1835008x1 S1835008x100 [1] [0] [] [0] [] 1 ![1, 100]
  scatter_S524288x100_S1835008x1_S1835008x100_1_0_0_1_wf : ScatterDims.WF S524288x100 S1835008x1 S1835008x100 [1] [0] [0] 1
  dot_S8192x100_S100x100_S8192x100_1_0_0_1_n_n_wf : DotDims.WF S8192x100 S100x100 S8192x100 [1] [0] [0] [1] [] []
  scatter_S196608_S524288x1_S524288_n_0_0_1_wf : ScatterDims.WF S196608 S524288x1 S524288 [] [0] [0] 1
  scatter_S196608x100_S524288x1_S524288x100_1_0_0_1_wf : ScatterDims.WF S196608x100 S524288x1 S524288x100 [1] [0] [0] 1
  scatter_S196608_S589824x1_S589824_n_0_0_1_wf : ScatterDims.WF S196608 S589824x1 S589824 [] [0] [0] 1
  gather_S196608_S589824x1_S589824_n_0_n_n_0_1_1_wf : GatherDims.WF S196608 S589824x1 S589824 [] [0] [] [0] [] 1 ![1]
  gather_S196608x100_S589824x1_S589824x100_1_0_n_n_0_1_1100_wf : GatherDims.WF S196608x100 S589824x1 S589824x100 [1] [0] [] [0] [] 1 ![1, 100]
  scatter_S196608x100_S589824x1_S589824x100_1_0_0_1_wf : ScatterDims.WF S196608x100 S589824x1 S589824x100 [1] [0] [0] 1
  scatter_S65536_S196608x1_S196608_n_0_0_1_wf : ScatterDims.WF S65536 S196608x1 S196608 [] [0] [0] 1
  scatter_S65536x100_S196608x1_S196608x100_1_0_0_1_wf : ScatterDims.WF S65536x100 S196608x1 S196608x100 [1] [0] [0] 1
  dot_S8192x100_S100x29_S8192x29_1_0_0_1_n_n_wf : DotDims.WF S8192x100 S100x29 S8192x29 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x336.size a ≤ S524288x336.size a
  hwx0_0 : ∀ i : grid0.Coords, EltTy.bits .f32 = 32 ∨ (Rect.block (s := S524288x336) S4096x336.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S336x100.size a ≤ S336x100.size a
  hwx0_1 : ∀ i : grid0.Coords, EltTy.bits .f32 = 32 ∨ (Rect.block (s := S336x100) S336x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100.size a ≤ S100.size a
  hwx0_2 : ∀ i : grid0.Coords, EltTy.bits .f32 = 32 ∨ (Rect.block (s := S100) S100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x100.size a ≤ S524288x100.size a
  hwx0_3 : ∀ i : grid0.Coords, EltTy.bits .f32 = 32 ∨ (Rect.block (s := S524288x100) S4096x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x100.size a ≤ S524288x100.size a
  hwx1_0 : ∀ i : grid1.Coords, EltTy.bits .f32 = 32 ∨ (Rect.block (s := S524288x100) S4096x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100.size a ≤ S100.size a
  hwx1_1 : ∀ i : grid1.Coords, EltTy.bits .f32 = 32 ∨ (Rect.block (s := S100) S100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x100.size a ≤ S524288x100.size a
  hwx1_2 : ∀ i : grid1.Coords, EltTy.bits .f32 = 32 ∨ (Rect.block (s := S524288x100) S4096x100.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x100.size a ≤ S524288x100.size a
  hwx2_0 : ∀ i : grid2.Coords, EltTy.bits .f32 = 32 ∨ (Rect.block (s := S524288x100) S8192x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x100.size a ≤ S100x100.size a
  hwx2_1 : ∀ i : grid2.Coords, EltTy.bits .f32 = 32 ∨ (Rect.block (s := S100x100) S100x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100.size a ≤ S100.size a
  hwx2_2 : ∀ i : grid2.Coords, EltTy.bits .f32 = 32 ∨ (Rect.block (s := S100) S100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x100.size a ≤ S524288x100.size a
  hwx2_3 : ∀ i : grid2.Coords, EltTy.bits .f32 = 32 ∨ (Rect.block (s := S524288x100) S8192x100.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x100.size a ≤ S524288x100.size a
  hwx3_0 : ∀ i : grid3.Coords, EltTy.bits .f32 = 32 ∨ (Rect.block (s := S524288x100) S8192x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100.size a ≤ S100.size a
  hwx3_1 : ∀ i : grid3.Coords, EltTy.bits .f32 = 32 ∨ (Rect.block (s := S100) S100.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x100.size a ≤ S524288x100.size a
  hwx3_2 : ∀ i : grid3.Coords, EltTy.bits .f32 = 32 ∨ (Rect.block (s := S524288x100) S8192x100.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x100.size a ≤ S524288x100.size a
  hwx4_0 : ∀ i : grid4.Coords, EltTy.bits .f32 = 32 ∨ (Rect.block (s := S524288x100) S8192x100.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S100x100.size a ≤ S100x100.size a
  hwx4_1 : ∀ i : grid4.Coords, EltTy.bits .f32 = 32 ∨ (Rect.block (s := S100x100) S100x100.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S100.size a ≤ S100.size a
  hwx4_2 : ∀ i : grid4.Coords, EltTy.bits .f32 = 32 ∨ (Rect.block (s := S100) S100.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x100.size a ≤ S524288x100.size a
  hwx4_3 : ∀ i : grid4.Coords, EltTy.bits .f32 = 32 ∨ (Rect.block (s := S524288x100) S8192x100.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x100.size a ≤ S524288x100.size a
  hwx5_0 : ∀ i : grid5.Coords, EltTy.bits .f32 = 32 ∨ (Rect.block (s := S524288x100) S8192x100.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S100.size a ≤ S100.size a
  hwx5_1 : ∀ i : grid5.Coords, EltTy.bits .f32 = 32 ∨ (Rect.block (s := S100) S100.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x100.size a ≤ S524288x100.size a
  hwx5_2 : ∀ i : grid5.Coords, EltTy.bits .f32 = 32 ∨ (Rect.block (s := S524288x100) S8192x100.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x100.size a ≤ S196608x100.size a
  hwx6_0 : ∀ i : grid6.Coords, EltTy.bits .f32 = 32 ∨ (Rect.block (s := S196608x100) S8192x100.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S100x100.size a ≤ S100x100.size a
  hwx6_1 : ∀ i : grid6.Coords, EltTy.bits .f32 = 32 ∨ (Rect.block (s := S100x100) S100x100.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S100.size a ≤ S100.size a
  hwx6_2 : ∀ i : grid6.Coords, EltTy.bits .f32 = 32 ∨ (Rect.block (s := S100) S100.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8192x100.size a ≤ S196608x100.size a
  hwx6_3 : ∀ i : grid6.Coords, EltTy.bits .f32 = 32 ∨ (Rect.block (s := S196608x100) S8192x100.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x100.size a ≤ S196608x100.size a
  hwx7_0 : ∀ i : grid7.Coords, EltTy.bits .f32 = 32 ∨ (Rect.block (s := S196608x100) S8192x100.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S100.size a ≤ S100.size a
  hwx7_1 : ∀ i : grid7.Coords, EltTy.bits .f32 = 32 ∨ (Rect.block (s := S100) S100.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8192x100.size a ≤ S196608x100.size a
  hwx7_2 : ∀ i : grid7.Coords, EltTy.bits .f32 = 32 ∨ (Rect.block (s := S196608x100) S8192x100.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x100.size a ≤ S196608x100.size a
  hwx8_0 : ∀ i : grid8.Coords, EltTy.bits .f32 = 32 ∨ (Rect.block (s := S196608x100) S8192x100.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S100x100.size a ≤ S100x100.size a
  hwx8_1 : ∀ i : grid8.Coords, EltTy.bits .f32 = 32 ∨ (Rect.block (s := S100x100) S100x100.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S100.size a ≤ S100.size a
  hwx8_2 : ∀ i : grid8.Coords, EltTy.bits .f32 = 32 ∨ (Rect.block (s := S100) S100.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8192x100.size a ≤ S196608x100.size a
  hwx8_3 : ∀ i : grid8.Coords, EltTy.bits .f32 = 32 ∨ (Rect.block (s := S196608x100) S8192x100.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x100.size a ≤ S196608x100.size a
  hwx9_0 : ∀ i : grid9.Coords, EltTy.bits .f32 = 32 ∨ (Rect.block (s := S196608x100) S8192x100.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S100.size a ≤ S100.size a
  hwx9_1 : ∀ i : grid9.Coords, EltTy.bits .f32 = 32 ∨ (Rect.block (s := S100) S100.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8192x100.size a ≤ S196608x100.size a
  hwx9_2 : ∀ i : grid9.Coords, EltTy.bits .f32 = 32 ∨ (Rect.block (s := S196608x100) S8192x100.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8192x100.size a ≤ S65536x100.size a
  hwx10_0 : ∀ i : grid10.Coords, EltTy.bits .f32 = 32 ∨ (Rect.block (s := S65536x100) S8192x100.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S100x100.size a ≤ S100x100.size a
  hwx10_1 : ∀ i : grid10.Coords, EltTy.bits .f32 = 32 ∨ (Rect.block (s := S100x100) S100x100.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S100.size a ≤ S100.size a
  hwx10_2 : ∀ i : grid10.Coords, EltTy.bits .f32 = 32 ∨ (Rect.block (s := S100) S100.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S8192x100.size a ≤ S65536x100.size a
  hwx10_3 : ∀ i : grid10.Coords, EltTy.bits .f32 = 32 ∨ (Rect.block (s := S65536x100) S8192x100.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8192x100.size a ≤ S65536x100.size a
  hwx11_0 : ∀ i : grid11.Coords, EltTy.bits .f32 = 32 ∨ (Rect.block (s := S65536x100) S8192x100.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S100x100.size a ≤ S100x100.size a
  hwx11_1 : ∀ i : grid11.Coords, EltTy.bits .f32 = 32 ∨ (Rect.block (s := S100x100) S100x100.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S100.size a ≤ S100.size a
  hwx11_2 : ∀ i : grid11.Coords, EltTy.bits .f32 = 32 ∨ (Rect.block (s := S100) S100.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S8192x100.size a ≤ S65536x100.size a
  hwx11_3 : ∀ i : grid11.Coords, EltTy.bits .f32 = 32 ∨ (Rect.block (s := S65536x100) S8192x100.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8192x100.size a ≤ S65536x100.size a
  hwx12_0 : ∀ i : grid12.Coords, EltTy.bits .f32 = 32 ∨ (Rect.block (s := S65536x100) S8192x100.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S100x29.size a ≤ S100x29.size a
  hwx12_1 : ∀ i : grid12.Coords, EltTy.bits .f32 = 32 ∨ (Rect.block (s := S100x29) S100x29.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S29.size a ≤ S29.size a
  hwx12_2 : ∀ i : grid12.Coords, EltTy.bits .f32 = 32 ∨ (Rect.block (s := S29) S29.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S8192x29.size a ≤ S65536x29.size a
  hwx12_3 : ∀ i : grid12.Coords, EltTy.bits .f32 = 32 ∨ (Rect.block (s := S65536x29) S8192x29.size (cc12_transform_3 i) (hinb12_3 i)).WholeWords (EltTy.packing .f32)

variable [Facts₀]

def dot_S4096x336_S336x100_S4096x100_1_0_0_1_n_n : DotDims S4096x336 S336x100 S4096x100 where
  lhsContracting := [1]
  rhsContracting := [0]
  lhsNonContracting := [0]
  rhsNonContracting := [1]
  lhsBatch := []
  rhsBatch := []
  wf := dot_S4096x336_S336x100_S4096x100_1_0_0_1_n_n_wf
def scatter_S524288_S1835008x1_S1835008_n_0_0_1 : ScatterDims S524288 S1835008x1 S1835008 where
  updateWindowDims := []
  insertedWindowDims := [0]
  scatterDimsToOperandDims := [0]
  indexVectorDim := 1
  wf := scatter_S524288_S1835008x1_S1835008_n_0_0_1_wf
def gather_S524288_S1835008x1_S1835008_n_0_n_n_0_1_1 : GatherDims S524288 S1835008x1 S1835008 where
  offsetDims := []
  collapsedSliceDims := [0]
  operandBatchingDims := []
  startIndicesBatchingDims := []
  startIndexMap := [0]
  indexVectorDim := 1
  sliceSizes := ![1]
  wf := gather_S524288_S1835008x1_S1835008_n_0_n_n_0_1_1_wf
def gather_S524288x100_S1835008x1_S1835008x100_1_0_n_n_0_1_1100 : GatherDims S524288x100 S1835008x1 S1835008x100 where
  offsetDims := [1]
  collapsedSliceDims := [0]
  operandBatchingDims := []
  startIndicesBatchingDims := []
  startIndexMap := [0]
  indexVectorDim := 1
  sliceSizes := ![1, 100]
  wf := gather_S524288x100_S1835008x1_S1835008x100_1_0_n_n_0_1_1100_wf
def scatter_S524288x100_S1835008x1_S1835008x100_1_0_0_1 : ScatterDims S524288x100 S1835008x1 S1835008x100 where
  updateWindowDims := [1]
  insertedWindowDims := [0]
  scatterDimsToOperandDims := [0]
  indexVectorDim := 1
  wf := scatter_S524288x100_S1835008x1_S1835008x100_1_0_0_1_wf
def dot_S8192x100_S100x100_S8192x100_1_0_0_1_n_n : DotDims S8192x100 S100x100 S8192x100 where
  lhsContracting := [1]
  rhsContracting := [0]
  lhsNonContracting := [0]
  rhsNonContracting := [1]
  lhsBatch := []
  rhsBatch := []
  wf := dot_S8192x100_S100x100_S8192x100_1_0_0_1_n_n_wf
def scatter_S196608_S524288x1_S524288_n_0_0_1 : ScatterDims S196608 S524288x1 S524288 where
  updateWindowDims := []
  insertedWindowDims := [0]
  scatterDimsToOperandDims := [0]
  indexVectorDim := 1
  wf := scatter_S196608_S524288x1_S524288_n_0_0_1_wf
def scatter_S196608x100_S524288x1_S524288x100_1_0_0_1 : ScatterDims S196608x100 S524288x1 S524288x100 where
  updateWindowDims := [1]
  insertedWindowDims := [0]
  scatterDimsToOperandDims := [0]
  indexVectorDim := 1
  wf := scatter_S196608x100_S524288x1_S524288x100_1_0_0_1_wf
def scatter_S196608_S589824x1_S589824_n_0_0_1 : ScatterDims S196608 S589824x1 S589824 where
  updateWindowDims := []
  insertedWindowDims := [0]
  scatterDimsToOperandDims := [0]
  indexVectorDim := 1
  wf := scatter_S196608_S589824x1_S589824_n_0_0_1_wf
def gather_S196608_S589824x1_S589824_n_0_n_n_0_1_1 : GatherDims S196608 S589824x1 S589824 where
  offsetDims := []
  collapsedSliceDims := [0]
  operandBatchingDims := []
  startIndicesBatchingDims := []
  startIndexMap := [0]
  indexVectorDim := 1
  sliceSizes := ![1]
  wf := gather_S196608_S589824x1_S589824_n_0_n_n_0_1_1_wf
def gather_S196608x100_S589824x1_S589824x100_1_0_n_n_0_1_1100 : GatherDims S196608x100 S589824x1 S589824x100 where
  offsetDims := [1]
  collapsedSliceDims := [0]
  operandBatchingDims := []
  startIndicesBatchingDims := []
  startIndexMap := [0]
  indexVectorDim := 1
  sliceSizes := ![1, 100]
  wf := gather_S196608x100_S589824x1_S589824x100_1_0_n_n_0_1_1100_wf
def scatter_S196608x100_S589824x1_S589824x100_1_0_0_1 : ScatterDims S196608x100 S589824x1 S589824x100 where
  updateWindowDims := [1]
  insertedWindowDims := [0]
  scatterDimsToOperandDims := [0]
  indexVectorDim := 1
  wf := scatter_S196608x100_S589824x1_S589824x100_1_0_0_1_wf
def scatter_S65536_S196608x1_S196608_n_0_0_1 : ScatterDims S65536 S196608x1 S196608 where
  updateWindowDims := []
  insertedWindowDims := [0]
  scatterDimsToOperandDims := [0]
  indexVectorDim := 1
  wf := scatter_S65536_S196608x1_S196608_n_0_0_1_wf
def scatter_S65536x100_S196608x1_S196608x100_1_0_0_1 : ScatterDims S65536x100 S196608x1 S196608x100 where
  updateWindowDims := [1]
  insertedWindowDims := [0]
  scatterDimsToOperandDims := [0]
  indexVectorDim := 1
  wf := scatter_S65536x100_S196608x1_S196608x100_1_0_0_1_wf
def dot_S8192x100_S100x29_S8192x29_1_0_0_1_n_n : DotDims S8192x100 S100x29 S8192x29 where
  lhsContracting := [1]
  rhsContracting := [0]
  lhsNonContracting := [0]
  rhsNonContracting := [1]
  lhsBatch := []
  rhsBatch := []
  wf := dot_S8192x100_S100x29_S8192x29_1_0_0_1_n_n_wf

abbrev win0_0 : Pipeline.Window sig grid0 :=
  Pipeline.Window.ofSpec (Memref.whole main_arg0) S4096x336.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S336x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S4096x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4096x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S8192x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S100x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S8192x100.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v84) S8192x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S100.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S8192x100.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v85) S8192x100.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S100x100.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S100.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S8192x100.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v127) S8192x100.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S100.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v128) S8192x100.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v138) S8192x100.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S100x100.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v139) S100.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v140) S8192x100.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v180) S8192x100.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S100.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v181) S8192x100.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v181) S8192x100.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg13) S100x100.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v182) S100.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v183) S8192x100.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v223) S8192x100.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S100.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v224) S8192x100.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v234) S8192x100.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg15) S100x100.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg16) S100.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v235) S8192x100.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v235) S8192x100.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg17) S100x100.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg18) S100.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v236) S8192x100.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v236) S8192x100.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg19) S100x29.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_arg20) S29.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v237) S8192x29.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S524288x336 : Shape := ⟨2, ![524288, 336]⟩
abbrev S2x1310720 : Shape := ⟨2, ![2, 1310720]⟩
abbrev S2x393216 : Shape := ⟨2, ![2, 393216]⟩
abbrev S524288 : Shape := ⟨1, ![524288]⟩
abbrev S196608 : Shape := ⟨1, ![196608]⟩
abbrev S336x100 : Shape := ⟨2, ![336, 100]⟩
abbrev S100 : Shape := ⟨1, ![100]⟩
abbrev S100x100 : Shape := ⟨2, ![100, 100]⟩
abbrev S100x29 : Shape := ⟨2, ![100, 29]⟩
abbrev S29 : Shape := ⟨1, ![29]⟩
abbrev S524288x100 : Shape := ⟨2, ![524288, 100]⟩
abbrev S1x1310720 : Shape := ⟨2, ![1, 1310720]⟩
abbrev S1310720 : Shape := ⟨1, ![1310720]⟩
abbrev S1835008 : Shape := ⟨1, ![1835008]⟩
abbrev S_ : Shape := ⟨0, ![]⟩
abbrev S1835008x1 : Shape := ⟨2, ![1835008, 1]⟩
abbrev S1835008x100 : Shape := ⟨2, ![1835008, 100]⟩
abbrev S1x100 : Shape := ⟨2, ![1, 100]⟩
abbrev S524288x1 : Shape := ⟨2, ![524288, 1]⟩
abbrev S196608x100 : Shape := ⟨2, ![196608, 100]⟩
abbrev S196608x1 : Shape := ⟨2, ![196608, 1]⟩
abbrev S1x393216 : Shape := ⟨2, ![1, 393216]⟩
abbrev S393216 : Shape := ⟨1, ![393216]⟩
abbrev S589824 : Shape := ⟨1, ![589824]⟩
abbrev S589824x1 : Shape := ⟨2, ![589824, 1]⟩
abbrev S589824x100 : Shape := ⟨2, ![589824, 100]⟩
abbrev S65536 : Shape := ⟨1, ![65536]⟩
abbrev S65536x100 : Shape := ⟨2, ![65536, 100]⟩
abbrev S65536x1 : Shape := ⟨2, ![65536, 1]⟩
abbrev S65536x29 : Shape := ⟨2, ![65536, 29]⟩
abbrev S1x29 : Shape := ⟨2, ![1, 29]⟩

abbrev nBuf : Space → Nat
  | .hbm => 345
  | .vmem => 0
  | .smem => 0
  | _ => 0

abbrev hbmTy0_0 (i : Nat) : BufTy := match i % 128 with
  | 0 => ⟨S524288x336, .f32⟩
  | 1 => ⟨S2x1310720, .i32⟩
  | 2 => ⟨S2x393216, .i32⟩
  | 3 => ⟨S524288, .i32⟩
  | 4 => ⟨S196608, .i32⟩
  | 5 => ⟨S336x100, .f32⟩
  | 6 => ⟨S100, .f32⟩
  | 7 => ⟨S100x100, .f32⟩
  | 8 => ⟨S100, .f32⟩
  | 9 => ⟨S100x100, .f32⟩
  | 10 => ⟨S100, .f32⟩
  | 11 => ⟨S100x100, .f32⟩
  | 12 => ⟨S100, .f32⟩
  | 13 => ⟨S100x100, .f32⟩
  | 14 => ⟨S100, .f32⟩
  | 15 => ⟨S100x100, .f32⟩
  | 16 => ⟨S100, .f32⟩
  | 17 => ⟨S100x100, .f32⟩
  | 18 => ⟨S100, .f32⟩
  | 19 => ⟨S100x29, .f32⟩
  | 20 => ⟨S29, .f32⟩
  | 21 => ⟨S524288x100, .f32⟩
  | 22 => ⟨S524288, .i32⟩
  | 23 => ⟨S1x1310720, .i32⟩
  | 24 => ⟨S1310720, .i32⟩
  | 25 => ⟨S1835008, .i32⟩
  | 26 => ⟨S1x1310720, .i32⟩
  | 27 => ⟨S1310720, .i32⟩
  | 28 => ⟨S1835008, .i32⟩
  | 29 => ⟨S_, .f32⟩
  | 30 => ⟨S1835008, .f32⟩
  | 31 => ⟨S_, .f32⟩
  | 32 => ⟨S524288, .f32⟩
  | 33 => ⟨S1835008x1, .i32⟩
  | 34 => ⟨S524288, .f32⟩
  | 35 => ⟨S524288, .f32⟩
  | 36 => ⟨S_, .i32⟩
  | 37 => ⟨S1835008, .i32⟩
  | 38 => ⟨S1835008, .i1⟩
  | 39 => ⟨S_, .i32⟩
  | 40 => ⟨S1835008, .i32⟩
  | 41 => ⟨S1835008, .i32⟩
  | 42 => ⟨S1835008, .i32⟩
  | 43 => ⟨S1835008x1, .i32⟩
  | 44 => ⟨S1835008, .f32⟩
  | 45 => ⟨S_, .i32⟩
  | 46 => ⟨S1835008, .i32⟩
  | 47 => ⟨S1835008, .i1⟩
  | 48 => ⟨S_, .i32⟩
  | 49 => ⟨S1835008, .i32⟩
  | 50 => ⟨S1835008, .i32⟩
  | 51 => ⟨S1835008, .i32⟩
  | 52 => ⟨S1835008x1, .i32⟩
  | 53 => ⟨S1835008, .f32⟩
  | 54 => ⟨S1835008, .f32⟩
  | 55 => ⟨S_, .i32⟩
  | 56 => ⟨S1835008, .i32⟩
  | 57 => ⟨S1835008, .i1⟩
  | 58 => ⟨S_, .i32⟩
  | 59 => ⟨S1835008, .i32⟩
  | 60 => ⟨S1835008, .i32⟩
  | 61 => ⟨S1835008, .i32⟩
  | 62 => ⟨S1835008x1, .i32⟩
  | 63 => ⟨S1835008x100, .f32⟩
  | 64 => ⟨S1835008x1, .f32⟩
  | 65 => ⟨S1835008x100, .f32⟩
  | 66 => ⟨S1835008x100, .f32⟩
  | 67 => ⟨S_, .f32⟩
  | 68 => ⟨S524288x100, .f32⟩
  | 69 => ⟨S1835008x1, .i32⟩
  | 70 => ⟨S524288x100, .f32⟩
  | 71 => ⟨S1x100, .f32⟩
  | 72 => ⟨S524288x100, .f32⟩
  | 73 => ⟨S524288x100, .f32⟩
  | 74 => ⟨S_, .f32⟩
  | 75 => ⟨S524288x100, .f32⟩
  | 76 => ⟨S524288x100, .f32⟩
  | 77 => ⟨S524288x100, .f32⟩
  | 78 => ⟨S524288, .i32⟩
  | 79 => ⟨S1x1310720, .i32⟩
  | 80 => ⟨S1310720, .i32⟩
  | 81 => ⟨S1835008, .i32⟩
  | 82 => ⟨S1x1310720, .i32⟩
  | 83 => ⟨S1310720, .i32⟩
  | 84 => ⟨S1835008, .i32⟩
  | 85 => ⟨S_, .f32⟩
  | 86 => ⟨S1835008, .f32⟩
  | 87 => ⟨S_, .f32⟩
  | 88 => ⟨S524288, .f32⟩
  | 89 => ⟨S1835008x1, .i32⟩
  | 90 => ⟨S524288, .f32⟩
  | 91 => ⟨S524288, .f32⟩
  | 92 => ⟨S_, .i32⟩
  | 93 => ⟨S1835008, .i32⟩
  | 94 => ⟨S1835008, .i1⟩
  | 95 => ⟨S_, .i32⟩
  | 96 => ⟨S1835008, .i32⟩
  | 97 => ⟨S1835008, .i32⟩
  | 98 => ⟨S1835008, .i32⟩
  | 99 => ⟨S1835008x1, .i32⟩
  | 100 => ⟨S1835008, .f32⟩
  | 101 => ⟨S_, .i32⟩
  | 102 => ⟨S1835008, .i32⟩
  | 103 => ⟨S1835008, .i1⟩
  | 104 => ⟨S_, .i32⟩
  | 105 => ⟨S1835008, .i32⟩
  | 106 => ⟨S1835008, .i32⟩
  | 107 => ⟨S1835008, .i32⟩
  | 108 => ⟨S1835008x1, .i32⟩
  | 109 => ⟨S1835008, .f32⟩
  | 110 => ⟨S1835008, .f32⟩
  | 111 => ⟨S_, .i32⟩
  | 112 => ⟨S1835008, .i32⟩
  | 113 => ⟨S1835008, .i1⟩
  | 114 => ⟨S_, .i32⟩
  | 115 => ⟨S1835008, .i32⟩
  | 116 => ⟨S1835008, .i32⟩
  | 117 => ⟨S1835008, .i32⟩
  | 118 => ⟨S1835008x1, .i32⟩
  | 119 => ⟨S1835008x100, .f32⟩
  | 120 => ⟨S1835008x1, .f32⟩
  | 121 => ⟨S1835008x100, .f32⟩
  | 122 => ⟨S1835008x100, .f32⟩
  | 123 => ⟨S_, .f32⟩
  | 124 => ⟨S524288x100, .f32⟩
  | 125 => ⟨S1835008x1, .i32⟩
  | 126 => ⟨S524288x100, .f32⟩
  | 127 => ⟨S1x100, .f32⟩
  | _ => ⟨S524288x336, .f32⟩

abbrev hbmTy0_1 (i : Nat) : BufTy := match i % 128 with
  | 0 => ⟨S524288x100, .f32⟩
  | 1 => ⟨S524288x100, .f32⟩
  | 2 => ⟨S_, .f32⟩
  | 3 => ⟨S524288x100, .f32⟩
  | 4 => ⟨S524288x100, .f32⟩
  | 5 => ⟨S524288x100, .f32⟩
  | 6 => ⟨S524288, .i32⟩
  | 7 => ⟨S1x1310720, .i32⟩
  | 8 => ⟨S1310720, .i32⟩
  | 9 => ⟨S1835008, .i32⟩
  | 10 => ⟨S1x1310720, .i32⟩
  | 11 => ⟨S1310720, .i32⟩
  | 12 => ⟨S1835008, .i32⟩
  | 13 => ⟨S_, .f32⟩
  | 14 => ⟨S1835008, .f32⟩
  | 15 => ⟨S_, .f32⟩
  | 16 => ⟨S524288, .f32⟩
  | 17 => ⟨S1835008x1, .i32⟩
  | 18 => ⟨S524288, .f32⟩
  | 19 => ⟨S524288, .f32⟩
  | 20 => ⟨S_, .i32⟩
  | 21 => ⟨S1835008, .i32⟩
  | 22 => ⟨S1835008, .i1⟩
  | 23 => ⟨S_, .i32⟩
  | 24 => ⟨S1835008, .i32⟩
  | 25 => ⟨S1835008, .i32⟩
  | 26 => ⟨S1835008, .i32⟩
  | 27 => ⟨S1835008x1, .i32⟩
  | 28 => ⟨S1835008, .f32⟩
  | 29 => ⟨S_, .i32⟩
  | 30 => ⟨S1835008, .i32⟩
  | 31 => ⟨S1835008, .i1⟩
  | 32 => ⟨S_, .i32⟩
  | 33 => ⟨S1835008, .i32⟩
  | 34 => ⟨S1835008, .i32⟩
  | 35 => ⟨S1835008, .i32⟩
  | 36 => ⟨S1835008x1, .i32⟩
  | 37 => ⟨S1835008, .f32⟩
  | 38 => ⟨S1835008, .f32⟩
  | 39 => ⟨S_, .i32⟩
  | 40 => ⟨S1835008, .i32⟩
  | 41 => ⟨S1835008, .i1⟩
  | 42 => ⟨S_, .i32⟩
  | 43 => ⟨S1835008, .i32⟩
  | 44 => ⟨S1835008, .i32⟩
  | 45 => ⟨S1835008, .i32⟩
  | 46 => ⟨S1835008x1, .i32⟩
  | 47 => ⟨S1835008x100, .f32⟩
  | 48 => ⟨S1835008x1, .f32⟩
  | 49 => ⟨S1835008x100, .f32⟩
  | 50 => ⟨S1835008x100, .f32⟩
  | 51 => ⟨S_, .f32⟩
  | 52 => ⟨S524288x100, .f32⟩
  | 53 => ⟨S1835008x1, .i32⟩
  | 54 => ⟨S524288x100, .f32⟩
  | 55 => ⟨S1x100, .f32⟩
  | 56 => ⟨S524288x100, .f32⟩
  | 57 => ⟨S524288x100, .f32⟩
  | 58 => ⟨S_, .f32⟩
  | 59 => ⟨S524288x100, .f32⟩
  | 60 => ⟨S524288x100, .f32⟩
  | 61 => ⟨S_, .f32⟩
  | 62 => ⟨S524288, .f32⟩
  | 63 => ⟨S_, .f32⟩
  | 64 => ⟨S196608, .f32⟩
  | 65 => ⟨S524288x1, .i32⟩
  | 66 => ⟨S196608, .f32⟩
  | 67 => ⟨S_, .f32⟩
  | 68 => ⟨S196608x100, .f32⟩
  | 69 => ⟨S524288x1, .i32⟩
  | 70 => ⟨S196608x100, .f32⟩
  | 71 => ⟨S196608x1, .f32⟩
  | 72 => ⟨S196608x100, .f32⟩
  | 73 => ⟨S196608x100, .f32⟩
  | 74 => ⟨S196608x100, .f32⟩
  | 75 => ⟨S196608, .i32⟩
  | 76 => ⟨S1x393216, .i32⟩
  | 77 => ⟨S393216, .i32⟩
  | 78 => ⟨S589824, .i32⟩
  | 79 => ⟨S1x393216, .i32⟩
  | 80 => ⟨S393216, .i32⟩
  | 81 => ⟨S589824, .i32⟩
  | 82 => ⟨S_, .f32⟩
  | 83 => ⟨S589824, .f32⟩
  | 84 => ⟨S_, .f32⟩
  | 85 => ⟨S196608, .f32⟩
  | 86 => ⟨S589824x1, .i32⟩
  | 87 => ⟨S196608, .f32⟩
  | 88 => ⟨S196608, .f32⟩
  | 89 => ⟨S_, .i32⟩
  | 90 => ⟨S589824, .i32⟩
  | 91 => ⟨S589824, .i1⟩
  | 92 => ⟨S_, .i32⟩
  | 93 => ⟨S589824, .i32⟩
  | 94 => ⟨S589824, .i32⟩
  | 95 => ⟨S589824, .i32⟩
  | 96 => ⟨S589824x1, .i32⟩
  | 97 => ⟨S589824, .f32⟩
  | 98 => ⟨S_, .i32⟩
  | 99 => ⟨S589824, .i32⟩
  | 100 => ⟨S589824, .i1⟩
  | 101 => ⟨S_, .i32⟩
  | 102 => ⟨S589824, .i32⟩
  | 103 => ⟨S589824, .i32⟩
  | 104 => ⟨S589824, .i32⟩
  | 105 => ⟨S589824x1, .i32⟩
  | 106 => ⟨S589824, .f32⟩
  | 107 => ⟨S589824, .f32⟩
  | 108 => ⟨S_, .i32⟩
  | 109 => ⟨S589824, .i32⟩
  | 110 => ⟨S589824, .i1⟩
  | 111 => ⟨S_, .i32⟩
  | 112 => ⟨S589824, .i32⟩
  | 113 => ⟨S589824, .i32⟩
  | 114 => ⟨S589824, .i32⟩
  | 115 => ⟨S589824x1, .i32⟩
  | 116 => ⟨S589824x100, .f32⟩
  | 117 => ⟨S589824x1, .f32⟩
  | 118 => ⟨S589824x100, .f32⟩
  | 119 => ⟨S589824x100, .f32⟩
  | 120 => ⟨S_, .f32⟩
  | 121 => ⟨S196608x100, .f32⟩
  | 122 => ⟨S589824x1, .i32⟩
  | 123 => ⟨S196608x100, .f32⟩
  | 124 => ⟨S1x100, .f32⟩
  | 125 => ⟨S196608x100, .f32⟩
  | 126 => ⟨S196608x100, .f32⟩
  | 127 => ⟨S_, .f32⟩
  | _ => ⟨S524288x336, .f32⟩

abbrev hbmTy0_2 (i : Nat) : BufTy := match i % 128 with
  | 0 => ⟨S196608x100, .f32⟩
  | 1 => ⟨S196608x100, .f32⟩
  | 2 => ⟨S196608x100, .f32⟩
  | 3 => ⟨S196608, .i32⟩
  | 4 => ⟨S1x393216, .i32⟩
  | 5 => ⟨S393216, .i32⟩
  | 6 => ⟨S589824, .i32⟩
  | 7 => ⟨S1x393216, .i32⟩
  | 8 => ⟨S393216, .i32⟩
  | 9 => ⟨S589824, .i32⟩
  | 10 => ⟨S_, .f32⟩
  | 11 => ⟨S589824, .f32⟩
  | 12 => ⟨S_, .f32⟩
  | 13 => ⟨S196608, .f32⟩
  | 14 => ⟨S589824x1, .i32⟩
  | 15 => ⟨S196608, .f32⟩
  | 16 => ⟨S196608, .f32⟩
  | 17 => ⟨S_, .i32⟩
  | 18 => ⟨S589824, .i32⟩
  | 19 => ⟨S589824, .i1⟩
  | 20 => ⟨S_, .i32⟩
  | 21 => ⟨S589824, .i32⟩
  | 22 => ⟨S589824, .i32⟩
  | 23 => ⟨S589824, .i32⟩
  | 24 => ⟨S589824x1, .i32⟩
  | 25 => ⟨S589824, .f32⟩
  | 26 => ⟨S_, .i32⟩
  | 27 => ⟨S589824, .i32⟩
  | 28 => ⟨S589824, .i1⟩
  | 29 => ⟨S_, .i32⟩
  | 30 => ⟨S589824, .i32⟩
  | 31 => ⟨S589824, .i32⟩
  | 32 => ⟨S589824, .i32⟩
  | 33 => ⟨S589824x1, .i32⟩
  | 34 => ⟨S589824, .f32⟩
  | 35 => ⟨S589824, .f32⟩
  | 36 => ⟨S_, .i32⟩
  | 37 => ⟨S589824, .i32⟩
  | 38 => ⟨S589824, .i1⟩
  | 39 => ⟨S_, .i32⟩
  | 40 => ⟨S589824, .i32⟩
  | 41 => ⟨S589824, .i32⟩
  | 42 => ⟨S589824, .i32⟩
  | 43 => ⟨S589824x1, .i32⟩
  | 44 => ⟨S589824x100, .f32⟩
  | 45 => ⟨S589824x1, .f32⟩
  | 46 => ⟨S589824x100, .f32⟩
  | 47 => ⟨S589824x100, .f32⟩
  | 48 => ⟨S_, .f32⟩
  | 49 => ⟨S196608x100, .f32⟩
  | 50 => ⟨S589824x1, .i32⟩
  | 51 => ⟨S196608x100, .f32⟩
  | 52 => ⟨S1x100, .f32⟩
  | 53 => ⟨S196608x100, .f32⟩
  | 54 => ⟨S196608x100, .f32⟩
  | 55 => ⟨S_, .f32⟩
  | 56 => ⟨S196608x100, .f32⟩
  | 57 => ⟨S196608x100, .f32⟩
  | 58 => ⟨S_, .f32⟩
  | 59 => ⟨S196608, .f32⟩
  | 60 => ⟨S_, .f32⟩
  | 61 => ⟨S65536, .f32⟩
  | 62 => ⟨S196608x1, .i32⟩
  | 63 => ⟨S65536, .f32⟩
  | 64 => ⟨S_, .f32⟩
  | 65 => ⟨S65536x100, .f32⟩
  | 66 => ⟨S196608x1, .i32⟩
  | 67 => ⟨S65536x100, .f32⟩
  | 68 => ⟨S65536x1, .f32⟩
  | 69 => ⟨S65536x100, .f32⟩
  | 70 => ⟨S65536x100, .f32⟩
  | 71 => ⟨S65536x100, .f32⟩
  | 72 => ⟨S1x100, .f32⟩
  | 73 => ⟨S65536x100, .f32⟩
  | 74 => ⟨S65536x100, .f32⟩
  | 75 => ⟨S_, .f32⟩
  | 76 => ⟨S65536x100, .f32⟩
  | 77 => ⟨S65536x100, .f32⟩
  | 78 => ⟨S65536x100, .f32⟩
  | 79 => ⟨S1x100, .f32⟩
  | 80 => ⟨S65536x100, .f32⟩
  | 81 => ⟨S65536x100, .f32⟩
  | 82 => ⟨S_, .f32⟩
  | 83 => ⟨S65536x100, .f32⟩
  | 84 => ⟨S65536x100, .f32⟩
  | 85 => ⟨S65536x29, .f32⟩
  | 86 => ⟨S1x29, .f32⟩
  | 87 => ⟨S65536x29, .f32⟩
  | 88 => ⟨S65536x29, .f32⟩
  | _ => ⟨S524288x336, .f32⟩

abbrev hbmTy (i : Nat) : BufTy := match i / 128 with
  | 0 => hbmTy0_0 i
  | 1 => hbmTy0_1 i
  | 2 => hbmTy0_2 i
  | _ => ⟨S524288x336, .f32⟩

abbrev bufTy : (tb : Table) → Fin (tcTables nBuf tb) → BufTy
  | .hbm, ⟨i, _⟩ => hbmTy i
  | _, _ => ⟨S524288x336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call0_cst : Ref sig .tc := ⟨.hbm, 74, rfl⟩
abbrev main_call0_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_cst_8 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_9 : Ref sig .tc := ⟨.hbm, 92, rfl⟩
abbrev main_v58 : Ref sig .tc := ⟨.hbm, 93, rfl⟩
abbrev main_v59 : Ref sig .tc := ⟨.hbm, 94, rfl⟩
abbrev main_c_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_11 : Ref sig .tc := ⟨.hbm, 101, rfl⟩
abbrev main_v65 : Ref sig .tc := ⟨.hbm, 102, rfl⟩
abbrev main_v66 : Ref sig .tc := ⟨.hbm, 103, rfl⟩
abbrev main_c_12 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_13 : Ref sig .tc := ⟨.hbm, 111, rfl⟩
abbrev main_v73 : Ref sig .tc := ⟨.hbm, 112, rfl⟩
abbrev main_v74 : Ref sig .tc := ⟨.hbm, 113, rfl⟩
abbrev main_c_14 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_15 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_call1_cst : Ref sig .tc := ⟨.hbm, 130, rfl⟩
abbrev main_call1_v0 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_16 : Ref sig .tc := ⟨.hbm, 141, rfl⟩
abbrev main_v98 : Ref sig .tc := ⟨.hbm, 142, rfl⟩
abbrev main_cst_17 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_18 : Ref sig .tc := ⟨.hbm, 148, rfl⟩
abbrev main_v103 : Ref sig .tc := ⟨.hbm, 149, rfl⟩
abbrev main_v104 : Ref sig .tc := ⟨.hbm, 150, rfl⟩
abbrev main_c_19 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_20 : Ref sig .tc := ⟨.hbm, 157, rfl⟩
abbrev main_v110 : Ref sig .tc := ⟨.hbm, 158, rfl⟩
abbrev main_v111 : Ref sig .tc := ⟨.hbm, 159, rfl⟩
abbrev main_c_21 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_22 : Ref sig .tc := ⟨.hbm, 167, rfl⟩
abbrev main_v118 : Ref sig .tc := ⟨.hbm, 168, rfl⟩
abbrev main_v119 : Ref sig .tc := ⟨.hbm, 169, rfl⟩
abbrev main_c_23 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_24 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_call2_cst : Ref sig .tc := ⟨.hbm, 186, rfl⟩
abbrev main_call2_v0 : Ref sig .tc := ⟨.hbm, 187, rfl⟩
abbrev main_v134 : Ref sig .tc := ⟨.hbm, 188, rfl⟩
abbrev main_cst_25 : Ref sig .tc := ⟨.hbm, 189, rfl⟩
abbrev main_v135 : Ref sig .tc := ⟨.hbm, 190, rfl⟩
abbrev main_cst_26 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_27 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_28 : Ref sig .tc := ⟨.hbm, 210, rfl⟩
abbrev main_v153 : Ref sig .tc := ⟨.hbm, 211, rfl⟩
abbrev main_cst_29 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_c_30 : Ref sig .tc := ⟨.hbm, 217, rfl⟩
abbrev main_v158 : Ref sig .tc := ⟨.hbm, 218, rfl⟩
abbrev main_v159 : Ref sig .tc := ⟨.hbm, 219, rfl⟩
abbrev main_c_31 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_c_32 : Ref sig .tc := ⟨.hbm, 226, rfl⟩
abbrev main_v165 : Ref sig .tc := ⟨.hbm, 227, rfl⟩
abbrev main_v166 : Ref sig .tc := ⟨.hbm, 228, rfl⟩
abbrev main_c_33 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_c_34 : Ref sig .tc := ⟨.hbm, 236, rfl⟩
abbrev main_v173 : Ref sig .tc := ⟨.hbm, 237, rfl⟩
abbrev main_v174 : Ref sig .tc := ⟨.hbm, 238, rfl⟩
abbrev main_c_35 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_cst_36 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call3_cst : Ref sig .tc := ⟨.hbm, 255, rfl⟩
abbrev main_call3_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_cst_37 : Ref sig .tc := ⟨.hbm, 266, rfl⟩
abbrev main_v198 : Ref sig .tc := ⟨.hbm, 267, rfl⟩
abbrev main_cst_38 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_c_39 : Ref sig .tc := ⟨.hbm, 273, rfl⟩
abbrev main_v203 : Ref sig .tc := ⟨.hbm, 274, rfl⟩
abbrev main_v204 : Ref sig .tc := ⟨.hbm, 275, rfl⟩
abbrev main_c_40 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_c_41 : Ref sig .tc := ⟨.hbm, 282, rfl⟩
abbrev main_v210 : Ref sig .tc := ⟨.hbm, 283, rfl⟩
abbrev main_v211 : Ref sig .tc := ⟨.hbm, 284, rfl⟩
abbrev main_c_42 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_c_43 : Ref sig .tc := ⟨.hbm, 292, rfl⟩
abbrev main_v218 : Ref sig .tc := ⟨.hbm, 293, rfl⟩
abbrev main_v219 : Ref sig .tc := ⟨.hbm, 294, rfl⟩
abbrev main_c_44 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_cst_45 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_call4_cst : Ref sig .tc := ⟨.hbm, 311, rfl⟩
abbrev main_call4_v0 : Ref sig .tc := ⟨.hbm, 312, rfl⟩
abbrev main_v234 : Ref sig .tc := ⟨.hbm, 313, rfl⟩
abbrev main_cst_46 : Ref sig .tc := ⟨.hbm, 314, rfl⟩
abbrev main_v235 : Ref sig .tc := ⟨.hbm, 315, rfl⟩
abbrev main_cst_47 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_cst_48 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_call5_cst : Ref sig .tc := ⟨.hbm, 331, rfl⟩
abbrev main_call5_v0 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_call6_cst : Ref sig .tc := ⟨.hbm, 338, rfl⟩
abbrev main_call6_v0 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩

abbrev nD : Nat := 1
abbrev τ : Topo := Topo.v7x

variable {F : FTy → Type} [FloatOps F]

class Facts₀ : Prop where
  slices_S2x1310720_S1x1310720_0_0 : S2x1310720.Slices ![0, 0] S1x1310720
  shapeCasts_S1x1310720_S1310720 : S1x1310720.ShapeCasts S1310720
  concatenates_S1310720_S524288_S1835008_d0 : Shape.Concatenates [S1310720, S524288] S1835008 0
  slices_S2x1310720_S1x1310720_1_0 : S2x1310720.Slices ![1, 0] S1x1310720
  bcast_S_S1835008 : S_.BroadcastsInDim S1835008 (![] : Fin 0 → Fin S1835008.rank)
  bcast_S_S524288 : S_.BroadcastsInDim S524288 (![] : Fin 0 → Fin S524288.rank)
  bcast_S1835008_S1835008x1_0 : S1835008.BroadcastsInDim S1835008x1 (![0] : Fin 1 → Fin S1835008x1.rank)
  bcast_S1835008x1_S1835008x100_0_1 : S1835008x1.BroadcastsInDim S1835008x100 (![0, 1] : Fin 2 → Fin S1835008x100.rank)
  bcast_S_S524288x100 : S_.BroadcastsInDim S524288x100 (![] : Fin 0 → Fin S524288x100.rank)
  bcast_S100_S1x100_1 : S100.BroadcastsInDim S1x100 (![1] : Fin 1 → Fin S1x100.rank)
  bcast_S1x100_S524288x100_0_1 : S1x100.BroadcastsInDim S524288x100 (![0, 1] : Fin 2 → Fin S524288x100.rank)
  bcast_S_S196608 : S_.BroadcastsInDim S196608 (![] : Fin 0 → Fin S196608.rank)
  bcast_S524288_S524288x1_0 : S524288.BroadcastsInDim S524288x1 (![0] : Fin 1 → Fin S524288x1.rank)
  bcast_S_S196608x100 : S_.BroadcastsInDim S196608x100 (![] : Fin 0 → Fin S196608x100.rank)
  bcast_S196608_S196608x1_0 : S196608.BroadcastsInDim S196608x1 (![0] : Fin 1 → Fin S196608x1.rank)
  bcast_S196608x1_S196608x100_0_1 : S196608x1.BroadcastsInDim S196608x100 (![0, 1] : Fin 2 → Fin S196608x100.rank)
  slices_S2x393216_S1x393216_0_0 : S2x393216.Slices ![0, 0] S1x393216
  shapeCasts_S1x393216_S393216 : S1x393216.ShapeCasts S393216
  concatenates_S393216_S196608_S589824_d0 : Shape.Concatenates [S393216, S196608] S589824 0
  slices_S2x393216_S1x393216_1_0 : S2x393216.Slices ![1, 0] S1x393216
  bcast_S_S589824 : S_.BroadcastsInDim S589824 (![] : Fin 0 → Fin S589824.rank)
  bcast_S589824_S589824x1_0 : S589824.BroadcastsInDim S589824x1 (![0] : Fin 1 → Fin S589824x1.rank)
  bcast_S589824x1_S589824x100_0_1 : S589824x1.BroadcastsInDim S589824x100 (![0, 1] : Fin 2 → Fin S589824x100.rank)
  bcast_S1x100_S196608x100_0_1 : S1x100.BroadcastsInDim S196608x100 (![0, 1] : Fin 2 → Fin S196608x100.rank)
  bcast_S_S65536 : S_.BroadcastsInDim S65536 (![] : Fin 0 → Fin S65536.rank)
  bcast_S_S65536x100 : S_.BroadcastsInDim S65536x100 (![] : Fin 0 → Fin S65536x100.rank)
  bcast_S65536_S65536x1_0 : S65536.BroadcastsInDim S65536x1 (![0] : Fin 1 → Fin S65536x1.rank)
  bcast_S65536x1_S65536x100_0_1 : S65536x1.BroadcastsInDim S65536x100 (![0, 1] : Fin 2 → Fin S65536x100.rank)
  bcast_S1x100_S65536x100_0_1 : S1x100.BroadcastsInDim S65536x100 (![0, 1] : Fin 2 → Fin S65536x100.rank)
  bcast_S29_S1x29_1 : S29.BroadcastsInDim S1x29 (![1] : Fin 1 → Fin S1x29.rank)
  bcast_S1x29_S65536x29_0_1 : S1x29.BroadcastsInDim S65536x29 (![0, 1] : Fin 2 → Fin S65536x29.rank)
  dot_S524288x336_S336x100_S524288x100_1_0_0_1_n_n_wf : DotDims.WF S524288x336 S336x100 S524288x100 [1] [0] [0] [1] [] []
  scatter_S524288_S1835008x1_S1835008_n_0_0_1_wf : ScatterDims.WF S524288 S1835008x1 S1835008 [] [0] [0] 1
  gather_S524288_S1835008x1_S1835008_n_0_n_n_0_1_1_wf : GatherDims.WF S524288 S1835008x1 S1835008 [] [0] [] [0] [] 1 ![1]
  gather_S524288x100_S1835008x1_S1835008x100_1_0_n_n_0_1_1100_wf : GatherDims.WF S524288x100 S1835008x1 S1835008x100 [1] [0] [] [0] [] 1 ![1, 100]
  scatter_S524288x100_S1835008x1_S1835008x100_1_0_0_1_wf : ScatterDims.WF S524288x100 S1835008x1 S1835008x100 [1] [0] [0] 1
  dot_S524288x100_S100x100_S524288x100_1_0_0_1_n_n_wf : DotDims.WF S524288x100 S100x100 S524288x100 [1] [0] [0] [1] [] []
  scatter_S196608_S524288x1_S524288_n_0_0_1_wf : ScatterDims.WF S196608 S524288x1 S524288 [] [0] [0] 1
  scatter_S196608x100_S524288x1_S524288x100_1_0_0_1_wf : ScatterDims.WF S196608x100 S524288x1 S524288x100 [1] [0] [0] 1
  dot_S196608x100_S100x100_S196608x100_1_0_0_1_n_n_wf : DotDims.WF S196608x100 S100x100 S196608x100 [1] [0] [0] [1] [] []
  scatter_S196608_S589824x1_S589824_n_0_0_1_wf : ScatterDims.WF S196608 S589824x1 S589824 [] [0] [0] 1
  gather_S196608_S589824x1_S589824_n_0_n_n_0_1_1_wf : GatherDims.WF S196608 S589824x1 S589824 [] [0] [] [0] [] 1 ![1]
  gather_S196608x100_S589824x1_S589824x100_1_0_n_n_0_1_1100_wf : GatherDims.WF S196608x100 S589824x1 S589824x100 [1] [0] [] [0] [] 1 ![1, 100]
  scatter_S196608x100_S589824x1_S589824x100_1_0_0_1_wf : ScatterDims.WF S196608x100 S589824x1 S589824x100 [1] [0] [0] 1
  scatter_S65536_S196608x1_S196608_n_0_0_1_wf : ScatterDims.WF S65536 S196608x1 S196608 [] [0] [0] 1
  scatter_S65536x100_S196608x1_S196608x100_1_0_0_1_wf : ScatterDims.WF S65536x100 S196608x1 S196608x100 [1] [0] [0] 1
  dot_S65536x100_S100x100_S65536x100_1_0_0_1_n_n_wf : DotDims.WF S65536x100 S100x100 S65536x100 [1] [0] [0] [1] [] []
  dot_S65536x100_S100x29_S65536x29_1_0_0_1_n_n_wf : DotDims.WF S65536x100 S100x29 S65536x29 [1] [0] [0] [1] [] []

variable [Facts₀]

def dot_S524288x336_S336x100_S524288x100_1_0_0_1_n_n : DotDims S524288x336 S336x100 S524288x100 where
  lhsContracting := [1]
  rhsContracting := [0]
  lhsNonContracting := [0]
  rhsNonContracting := [1]
  lhsBatch := []
  rhsBatch := []
  wf := dot_S524288x336_S336x100_S524288x100_1_0_0_1_n_n_wf
def scatter_S524288_S1835008x1_S1835008_n_0_0_1 : ScatterDims S524288 S1835008x1 S1835008 where
  updateWindowDims := []
  insertedWindowDims := [0]
  scatterDimsToOperandDims := [0]
  indexVectorDim := 1
  wf := scatter_S524288_S1835008x1_S1835008_n_0_0_1_wf
def gather_S524288_S1835008x1_S1835008_n_0_n_n_0_1_1 : GatherDims S524288 S1835008x1 S1835008 where
  offsetDims := []
  collapsedSliceDims := [0]
  operandBatchingDims := []
  startIndicesBatchingDims := []
  startIndexMap := [0]
  indexVectorDim := 1
  sliceSizes := ![1]
  wf := gather_S524288_S1835008x1_S1835008_n_0_n_n_0_1_1_wf
def gather_S524288x100_S1835008x1_S1835008x100_1_0_n_n_0_1_1100 : GatherDims S524288x100 S1835008x1 S1835008x100 where
  offsetDims := [1]
  collapsedSliceDims := [0]
  operandBatchingDims := []
  startIndicesBatchingDims := []
  startIndexMap := [0]
  indexVectorDim := 1
  sliceSizes := ![1, 100]
  wf := gather_S524288x100_S1835008x1_S1835008x100_1_0_n_n_0_1_1100_wf
def scatter_S524288x100_S1835008x1_S1835008x100_1_0_0_1 : ScatterDims S524288x100 S1835008x1 S1835008x100 where
  updateWindowDims := [1]
  insertedWindowDims := [0]
  scatterDimsToOperandDims := [0]
  indexVectorDim := 1
  wf := scatter_S524288x100_S1835008x1_S1835008x100_1_0_0_1_wf
def dot_S524288x100_S100x100_S524288x100_1_0_0_1_n_n : DotDims S524288x100 S100x100 S524288x100 where
  lhsContracting := [1]
  rhsContracting := [0]
  lhsNonContracting := [0]
  rhsNonContracting := [1]
  lhsBatch := []
  rhsBatch := []
  wf := dot_S524288x100_S100x100_S524288x100_1_0_0_1_n_n_wf
def scatter_S196608_S524288x1_S524288_n_0_0_1 : ScatterDims S196608 S524288x1 S524288 where
  updateWindowDims := []
  insertedWindowDims := [0]
  scatterDimsToOperandDims := [0]
  indexVectorDim := 1
  wf := scatter_S196608_S524288x1_S524288_n_0_0_1_wf
def scatter_S196608x100_S524288x1_S524288x100_1_0_0_1 : ScatterDims S196608x100 S524288x1 S524288x100 where
  updateWindowDims := [1]
  insertedWindowDims := [0]
  scatterDimsToOperandDims := [0]
  indexVectorDim := 1
  wf := scatter_S196608x100_S524288x1_S524288x100_1_0_0_1_wf
def dot_S196608x100_S100x100_S196608x100_1_0_0_1_n_n : DotDims S196608x100 S100x100 S196608x100 where
  lhsContracting := [1]
  rhsContracting := [0]
  lhsNonContracting := [0]
  rhsNonContracting := [1]
  lhsBatch := []
  rhsBatch := []
  wf := dot_S196608x100_S100x100_S196608x100_1_0_0_1_n_n_wf
def scatter_S196608_S589824x1_S589824_n_0_0_1 : ScatterDims S196608 S589824x1 S589824 where
  updateWindowDims := []
  insertedWindowDims := [0]
  scatterDimsToOperandDims := [0]
  indexVectorDim := 1
  wf := scatter_S196608_S589824x1_S589824_n_0_0_1_wf
def gather_S196608_S589824x1_S589824_n_0_n_n_0_1_1 : GatherDims S196608 S589824x1 S589824 where
  offsetDims := []
  collapsedSliceDims := [0]
  operandBatchingDims := []
  startIndicesBatchingDims := []
  startIndexMap := [0]
  indexVectorDim := 1
  sliceSizes := ![1]
  wf := gather_S196608_S589824x1_S589824_n_0_n_n_0_1_1_wf
def gather_S196608x100_S589824x1_S589824x100_1_0_n_n_0_1_1100 : GatherDims S196608x100 S589824x1 S589824x100 where
  offsetDims := [1]
  collapsedSliceDims := [0]
  operandBatchingDims := []
  startIndicesBatchingDims := []
  startIndexMap := [0]
  indexVectorDim := 1
  sliceSizes := ![1, 100]
  wf := gather_S196608x100_S589824x1_S589824x100_1_0_n_n_0_1_1100_wf
def scatter_S196608x100_S589824x1_S589824x100_1_0_0_1 : ScatterDims S196608x100 S589824x1 S589824x100 where
  updateWindowDims := [1]
  insertedWindowDims := [0]
  scatterDimsToOperandDims := [0]
  indexVectorDim := 1
  wf := scatter_S196608x100_S589824x1_S589824x100_1_0_0_1_wf
def scatter_S65536_S196608x1_S196608_n_0_0_1 : ScatterDims S65536 S196608x1 S196608 where
  updateWindowDims := []
  insertedWindowDims := [0]
  scatterDimsToOperandDims := [0]
  indexVectorDim := 1
  wf := scatter_S65536_S196608x1_S196608_n_0_0_1_wf
def scatter_S65536x100_S196608x1_S196608x100_1_0_0_1 : ScatterDims S65536x100 S196608x1 S196608x100 where
  updateWindowDims := [1]
  insertedWindowDims := [0]
  scatterDimsToOperandDims := [0]
  indexVectorDim := 1
  wf := scatter_S65536x100_S196608x1_S196608x100_1_0_0_1_wf
def dot_S65536x100_S100x100_S65536x100_1_0_0_1_n_n : DotDims S65536x100 S100x100 S65536x100 where
  lhsContracting := [1]
  rhsContracting := [0]
  lhsNonContracting := [0]
  rhsNonContracting := [1]
  lhsBatch := []
  rhsBatch := []
  wf := dot_S65536x100_S100x100_S65536x100_1_0_0_1_n_n_wf
def dot_S65536x100_S100x29_S65536x29_1_0_0_1_n_n : DotDims S65536x100 S100x29 S65536x29 where
  lhsContracting := [1]
  rhsContracting := [0]
  lhsNonContracting := [0]
  rhsNonContracting := [1]
  lhsBatch := []
  rhsBatch := []
  wf := dot_S65536x100_S100x29_S65536x29_1_0_0_1_n_n_wf

class Facts : Prop extends Facts₀ where

variable [Facts]
-- ==== Proof.KRun.lean ====
/-
  The idealized kernel's run with its result named.

  Every weakly fair execution of the program terminates without a fault; at the end the argument arrays hold what they
  held at the launch, and the result array holds what the last region's write-backs leave in it: the contents the fold of
  the thirteen regions and the host stretches between them assigns to that buffer. The later modules read that fold back,
  one stage at a time, as a function of the arguments.
-/
import proofs.«123412_j7670811591308_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the fold's last contents, the arguments as launched. -/
theorem run_value : θ_run defs (onTc (τ := τ) (main (F := F))) ⟨m, fun _ => 0, ρ⟩ (fun r => ∀ c : Dev nD,
      r.2.mem ((c.tc : Thread nD τ).loc main_v237) = W24 m ρ c (Proc.devRef .tc main_v237)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v237 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c),
       (h c _ (mem_uc main_arg18 (by decide))).trans (W24_main_arg18 m ρ c),
       (h c _ (mem_uc main_arg19 (by decide))).trans (W24_main_arg19 m ρ c),
       (h c _ (mem_uc main_arg20 (by decide))).trans (W24_main_arg20 m ρ c)⟩)

end Cert.KernelIdeal.KRun

end
-- ==== Proof.FoldArgsA.lean ====
/-
  The argument arrays 1, 2, 3, 4 are never written: no host operation names one as its result and no region has one as an
  output window. So at every boundary of the program's fold (after each host stretch, after each region) such an array
  still holds its launch contents. Stated here one boundary at a time, up to the boundary where the array is read.
-/
import proofs.«123412_j7670811591308_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

theorem arg1_at0 (c : Dev nD) : W0 m ρ c (Proc.devRef .tc main_arg1) = m ((c : Thread nD τ).loc main_arg1) := rfl
theorem arg1_at1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg1_at0 m ρ c)
theorem arg1_at2 (c : Dev nD) : W2 m ρ c (Proc.devRef .tc main_arg1) = m ((c : Thread nD τ).loc main_arg1) :=
  (W2_of_ne m ρ c main_arg1 (by decide)).trans (arg1_at1 m ρ c)
theorem arg1_at3 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg1_at2 m ρ c)
theorem arg1_at4 (c : Dev nD) : W4 m ρ c (Proc.devRef .tc main_arg1) = m ((c : Thread nD τ).loc main_arg1) :=
  (W4_of_ne m ρ c main_arg1 (by decide)).trans (arg1_at3 m ρ c)
theorem arg1_at5 (c : Dev nD) : W5 m ρ c (Proc.devRef .tc main_arg1) = m ((c : Thread nD τ).loc main_arg1) :=
  (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg1_at4 m ρ c)
theorem arg1_at6 (c : Dev nD) : W6 m ρ c (Proc.devRef .tc main_arg1) = m ((c : Thread nD τ).loc main_arg1) :=
  (W6_of_ne m ρ c main_arg1 (by decide)).trans (arg1_at5 m ρ c)
theorem arg1_at7 (c : Dev nD) : W7 m ρ c (Proc.devRef .tc main_arg1) = m ((c : Thread nD τ).loc main_arg1) :=
  (StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg1_at6 m ρ c)
theorem arg1_at8 (c : Dev nD) : W8 m ρ c (Proc.devRef .tc main_arg1) = m ((c : Thread nD τ).loc main_arg1) :=
  (W8_of_ne m ρ c main_arg1 (by decide)).trans (arg1_at7 m ρ c)
theorem arg1_at9 (c : Dev nD) : W9 m ρ c (Proc.devRef .tc main_arg1) = m ((c : Thread nD τ).loc main_arg1) :=
  (StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg1_at8 m ρ c)
theorem arg1_at10 (c : Dev nD) : W10 m ρ c (Proc.devRef .tc main_arg1) = m ((c : Thread nD τ).loc main_arg1) :=
  (W10_of_ne m ρ c main_arg1 (by decide)).trans (arg1_at9 m ρ c)

theorem arg2_at0 (c : Dev nD) : W0 m ρ c (Proc.devRef .tc main_arg2) = m ((c : Thread nD τ).loc main_arg2) := rfl
theorem arg2_at1 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at0 m ρ c)
theorem arg2_at2 (c : Dev nD) : W2 m ρ c (Proc.devRef .tc main_arg2) = m ((c : Thread nD τ).loc main_arg2) :=
  (W2_of_ne m ρ c main_arg2 (by decide)).trans (arg2_at1 m ρ c)
theorem arg2_at3 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at2 m ρ c)
theorem arg2_at4 (c : Dev nD) : W4 m ρ c (Proc.devRef .tc main_arg2) = m ((c : Thread nD τ).loc main_arg2) :=
  (W4_of_ne m ρ c main_arg2 (by decide)).trans (arg2_at3 m ρ c)
theorem arg2_at5 (c : Dev nD) : W5 m ρ c (Proc.devRef .tc main_arg2) = m ((c : Thread nD τ).loc main_arg2) :=
  (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at4 m ρ c)
theorem arg2_at6 (c : Dev nD) : W6 m ρ c (Proc.devRef .tc main_arg2) = m ((c : Thread nD τ).loc main_arg2) :=
  (W6_of_ne m ρ c main_arg2 (by decide)).trans (arg2_at5 m ρ c)
theorem arg2_at7 (c : Dev nD) : W7 m ρ c (Proc.devRef .tc main_arg2) = m ((c : Thread nD τ).loc main_arg2) :=
  (StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at6 m ρ c)
theorem arg2_at8 (c : Dev nD) : W8 m ρ c (Proc.devRef .tc main_arg2) = m ((c : Thread nD τ).loc main_arg2) :=
  (W8_of_ne m ρ c main_arg2 (by decide)).trans (arg2_at7 m ρ c)
theorem arg2_at9 (c : Dev nD) : W9 m ρ c (Proc.devRef .tc main_arg2) = m ((c : Thread nD τ).loc main_arg2) :=
  (StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at8 m ρ c)
theorem arg2_at10 (c : Dev nD) : W10 m ρ c (Proc.devRef .tc main_arg2) = m ((c : Thread nD τ).loc main_arg2) :=
  (W10_of_ne m ρ c main_arg2 (by decide)).trans (arg2_at9 m ρ c)
theorem arg2_at11 (c : Dev nD) : W11 m ρ c (Proc.devRef .tc main_arg2) = m ((c : Thread nD τ).loc main_arg2) :=
  (StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at10 m ρ c)
theorem arg2_at12 (c : Dev nD) : W12 m ρ c (Proc.devRef .tc main_arg2) = m ((c : Thread nD τ).loc main_arg2) :=
  (W12_of_ne m ρ c main_arg2 (by decide)).trans (arg2_at11 m ρ c)
theorem arg2_at13 (c : Dev nD) : W13 m ρ c (Proc.devRef .tc main_arg2) = m ((c : Thread nD τ).loc main_arg2) :=
  (StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at12 m ρ c)
theorem arg2_at14 (c : Dev nD) : W14 m ρ c (Proc.devRef .tc main_arg2) = m ((c : Thread nD τ).loc main_arg2) :=
  (W14_of_ne m ρ c main_arg2 (by decide)).trans (arg2_at13 m ρ c)
theorem arg2_at15 (c : Dev nD) : W15 m ρ c (Proc.devRef .tc main_arg2) = m ((c : Thread nD τ).loc main_arg2) :=
  (StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at14 m ρ c)
theorem arg2_at16 (c : Dev nD) : W16 m ρ c (Proc.devRef .tc main_arg2) = m ((c : Thread nD τ).loc main_arg2) :=
  (W16_of_ne m ρ c main_arg2 (by decide)).trans (arg2_at15 m ρ c)
theorem arg2_at17 (c : Dev nD) : W17 m ρ c (Proc.devRef .tc main_arg2) = m ((c : Thread nD τ).loc main_arg2) :=
  (StableHlo.after_of_forall_not_mem (b := Proc.devRef .tc main_arg2) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg2_at16 m ρ c)
theorem arg2_at18 (c : Dev nD) : W18 m ρ c (Proc.devRef .tc main_arg2) = m ((c : Thread nD τ).loc main_arg2) :=
  (W18_of_ne m ρ c main_arg2 (by decide)).trans (arg2_at17 m ρ c)

theorem arg3_at0 (c : Dev nD) : W0 m ρ c (Proc.devRef .tc main_arg3) = m ((c : Thread nD τ).loc main_arg3) := rfl
theorem arg3_at1 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg3_at0 m ρ c)
theorem arg3_at2 (c : Dev nD) : W2 m ρ c (Proc.devRef .tc main_arg3) = m ((c : Thread nD τ).loc main_arg3) :=
  (W2_of_ne m ρ c main_arg3 (by decide)).trans (arg3_at1 m ρ c)
theorem arg3_at3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg3_at2 m ρ c)
theorem arg3_at4 (c : Dev nD) : W4 m ρ c (Proc.devRef .tc main_arg3) = m ((c : Thread nD τ).loc main_arg3) :=
  (W4_of_ne m ρ c main_arg3 (by decide)).trans (arg3_at3 m ρ c)
theorem arg3_at5 (c : Dev nD) : W5 m ρ c (Proc.devRef .tc main_arg3) = m ((c : Thread nD τ).loc main_arg3) :=
  (StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg3_at4 m ρ c)
theorem arg3_at6 (c : Dev nD) : W6 m ρ c (Proc.devRef .tc main_arg3) = m ((c : Thread nD τ).loc main_arg3) :=
  (W6_of_ne m ρ c main_arg3 (by decide)).trans (arg3_at5 m ρ c)
theorem arg3_at7 (c : Dev nD) : W7 m ρ c (Proc.devRef .tc main_arg3) = m ((c : Thread nD τ).loc main_arg3) :=
  (StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg3_at6 m ρ c)
theorem arg3_at8 (c : Dev nD) : W8 m ρ c (Proc.devRef .tc main_arg3) = m ((c : Thread nD τ).loc main_arg3) :=
  (W8_of_ne m ρ c main_arg3 (by decide)).trans (arg3_at7 m ρ c)
theorem arg3_at9 (c : Dev nD) : W9 m ρ c (Proc.devRef .tc main_arg3) = m ((c : Thread nD τ).loc main_arg3) :=
  (StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg3_at8 m ρ c)
theorem arg3_at10 (c : Dev nD) : W10 m ρ c (Proc.devRef .tc main_arg3) = m ((c : Thread nD τ).loc main_arg3) :=
  (W10_of_ne m ρ c main_arg3 (by decide)).trans (arg3_at9 m ρ c)
theorem arg3_at11 (c : Dev nD) : W11 m ρ c (Proc.devRef .tc main_arg3) = m ((c : Thread nD τ).loc main_arg3) :=
  (StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg3_at10 m ρ c)
theorem arg3_at12 (c : Dev nD) : W12 m ρ c (Proc.devRef .tc main_arg3) = m ((c : Thread nD τ).loc main_arg3) :=
  (W12_of_ne m ρ c main_arg3 (by decide)).trans (arg3_at11 m ρ c)

theorem arg4_at0 (c : Dev nD) : W0 m ρ c (Proc.devRef .tc main_arg4) = m ((c : Thread nD τ).loc main_arg4) := rfl
theorem arg4_at1 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at0 m ρ c)
theorem arg4_at2 (c : Dev nD) : W2 m ρ c (Proc.devRef .tc main_arg4) = m ((c : Thread nD τ).loc main_arg4) :=
  (W2_of_ne m ρ c main_arg4 (by decide)).trans (arg4_at1 m ρ c)
theorem arg4_at3 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at2 m ρ c)
theorem arg4_at4 (c : Dev nD) : W4 m ρ c (Proc.devRef .tc main_arg4) = m ((c : Thread nD τ).loc main_arg4) :=
  (W4_of_ne m ρ c main_arg4 (by decide)).trans (arg4_at3 m ρ c)
theorem arg4_at5 (c : Dev nD) : W5 m ρ c (Proc.devRef .tc main_arg4) = m ((c : Thread nD τ).loc main_arg4) :=
  (StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at4 m ρ c)
theorem arg4_at6 (c : Dev nD) : W6 m ρ c (Proc.devRef .tc main_arg4) = m ((c : Thread nD τ).loc main_arg4) :=
  (W6_of_ne m ρ c main_arg4 (by decide)).trans (arg4_at5 m ρ c)
theorem arg4_at7 (c : Dev nD) : W7 m ρ c (Proc.devRef .tc main_arg4) = m ((c : Thread nD τ).loc main_arg4) :=
  (StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at6 m ρ c)
theorem arg4_at8 (c : Dev nD) : W8 m ρ c (Proc.devRef .tc main_arg4) = m ((c : Thread nD τ).loc main_arg4) :=
  (W8_of_ne m ρ c main_arg4 (by decide)).trans (arg4_at7 m ρ c)
theorem arg4_at9 (c : Dev nD) : W9 m ρ c (Proc.devRef .tc main_arg4) = m ((c : Thread nD τ).loc main_arg4) :=
  (StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at8 m ρ c)
theorem arg4_at10 (c : Dev nD) : W10 m ρ c (Proc.devRef .tc main_arg4) = m ((c : Thread nD τ).loc main_arg4) :=
  (W10_of_ne m ρ c main_arg4 (by decide)).trans (arg4_at9 m ρ c)
theorem arg4_at11 (c : Dev nD) : W11 m ρ c (Proc.devRef .tc main_arg4) = m ((c : Thread nD τ).loc main_arg4) :=
  (StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at10 m ρ c)
theorem arg4_at12 (c : Dev nD) : W12 m ρ c (Proc.devRef .tc main_arg4) = m ((c : Thread nD τ).loc main_arg4) :=
  (W12_of_ne m ρ c main_arg4 (by decide)).trans (arg4_at11 m ρ c)
theorem arg4_at13 (c : Dev nD) : W13 m ρ c (Proc.devRef .tc main_arg4) = m ((c : Thread nD τ).loc main_arg4) :=
  (StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at12 m ρ c)
theorem arg4_at14 (c : Dev nD) : W14 m ρ c (Proc.devRef .tc main_arg4) = m ((c : Thread nD τ).loc main_arg4) :=
  (W14_of_ne m ρ c main_arg4 (by decide)).trans (arg4_at13 m ρ c)
theorem arg4_at15 (c : Dev nD) : W15 m ρ c (Proc.devRef .tc main_arg4) = m ((c : Thread nD τ).loc main_arg4) :=
  (StableHlo.after_of_forall_not_mem (b := Proc.devRef .tc main_arg4) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at14 m ρ c)
theorem arg4_at16 (c : Dev nD) : W16 m ρ c (Proc.devRef .tc main_arg4) = m ((c : Thread nD τ).loc main_arg4) :=
  (W16_of_ne m ρ c main_arg4 (by decide)).trans (arg4_at15 m ρ c)
theorem arg4_at17 (c : Dev nD) : W17 m ρ c (Proc.devRef .tc main_arg4) = m ((c : Thread nD τ).loc main_arg4) :=
  (StableHlo.after_of_forall_not_mem (b := Proc.devRef .tc main_arg4) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at16 m ρ c)
theorem arg4_at18 (c : Dev nD) : W18 m ρ c (Proc.devRef .tc main_arg4) = m ((c : Thread nD τ).loc main_arg4) :=
  (W18_of_ne m ρ c main_arg4 (by decide)).trans (arg4_at17 m ρ c)
theorem arg4_at19 (c : Dev nD) : W19 m ρ c (Proc.devRef .tc main_arg4) = m ((c : Thread nD τ).loc main_arg4) :=
  (StableHlo.after_of_forall_not_mem (b := Proc.devRef .tc main_arg4) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg4_at18 m ρ c)
theorem arg4_at20 (c : Dev nD) : W20 m ρ c (Proc.devRef .tc main_arg4) = m ((c : Thread nD τ).loc main_arg4) :=
  (W20_of_ne m ρ c main_arg4 (by decide)).trans (arg4_at19 m ρ c)

end Cert.KernelIdeal.Fold

end
-- ==== Proof.FoldArgsB.lean ====
/-
  The argument arrays 0, 5, 6, 7, 8, 9, 10, 11, 12 are never written: no host operation names one as its result and no region has one as an
  output window. So at every boundary of the program's fold (after each host stretch, after each region) such an array
  still holds its launch contents. Stated here one boundary at a time, up to the boundary where the array is read.
-/
import proofs.«123412_j7670811591308_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

theorem arg0_at0 (c : Dev nD) : W0 m ρ c (Proc.devRef .tc main_arg0) = m ((c : Thread nD τ).loc main_arg0) := rfl
theorem arg0_at1 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg0_at0 m ρ c)

theorem arg5_at0 (c : Dev nD) : W0 m ρ c (Proc.devRef .tc main_arg5) = m ((c : Thread nD τ).loc main_arg5) := rfl
theorem arg5_at1 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg5_at0 m ρ c)

theorem arg6_at0 (c : Dev nD) : W0 m ρ c (Proc.devRef .tc main_arg6) = m ((c : Thread nD τ).loc main_arg6) := rfl
theorem arg6_at1 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg6_at0 m ρ c)
theorem arg6_at2 (c : Dev nD) : W2 m ρ c (Proc.devRef .tc main_arg6) = m ((c : Thread nD τ).loc main_arg6) :=
  (W2_of_ne m ρ c main_arg6 (by decide)).trans (arg6_at1 m ρ c)
theorem arg6_at3 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg6_at2 m ρ c)

theorem arg7_at0 (c : Dev nD) : W0 m ρ c (Proc.devRef .tc main_arg7) = m ((c : Thread nD τ).loc main_arg7) := rfl
theorem arg7_at1 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg7_at0 m ρ c)
theorem arg7_at2 (c : Dev nD) : W2 m ρ c (Proc.devRef .tc main_arg7) = m ((c : Thread nD τ).loc main_arg7) :=
  (W2_of_ne m ρ c main_arg7 (by decide)).trans (arg7_at1 m ρ c)
theorem arg7_at3 (c : Dev nD) : W3 m ρ c (Proc.devRef .tc main_arg7) = m ((c : Thread nD τ).loc main_arg7) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg7_at2 m ρ c)
theorem arg7_at4 (c : Dev nD) : W4 m ρ c (Proc.devRef .tc main_arg7) = m ((c : Thread nD τ).loc main_arg7) :=
  (W4_of_ne m ρ c main_arg7 (by decide)).trans (arg7_at3 m ρ c)
theorem arg7_at5 (c : Dev nD) : W5 m ρ c (Proc.devRef .tc main_arg7) = m ((c : Thread nD τ).loc main_arg7) :=
  (StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg7_at4 m ρ c)

theorem arg8_at0 (c : Dev nD) : W0 m ρ c (Proc.devRef .tc main_arg8) = m ((c : Thread nD τ).loc main_arg8) := rfl
theorem arg8_at1 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg8_at0 m ρ c)
theorem arg8_at2 (c : Dev nD) : W2 m ρ c (Proc.devRef .tc main_arg8) = m ((c : Thread nD τ).loc main_arg8) :=
  (W2_of_ne m ρ c main_arg8 (by decide)).trans (arg8_at1 m ρ c)
theorem arg8_at3 (c : Dev nD) : W3 m ρ c (Proc.devRef .tc main_arg8) = m ((c : Thread nD τ).loc main_arg8) :=
  (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg8_at2 m ρ c)
theorem arg8_at4 (c : Dev nD) : W4 m ρ c (Proc.devRef .tc main_arg8) = m ((c : Thread nD τ).loc main_arg8) :=
  (W4_of_ne m ρ c main_arg8 (by decide)).trans (arg8_at3 m ρ c)
theorem arg8_at5 (c : Dev nD) : W5 m ρ c (Proc.devRef .tc main_arg8) = m ((c : Thread nD τ).loc main_arg8) :=
  (StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg8_at4 m ρ c)
theorem arg8_at6 (c : Dev nD) : W6 m ρ c (Proc.devRef .tc main_arg8) = m ((c : Thread nD τ).loc main_arg8) :=
  (W6_of_ne m ρ c main_arg8 (by decide)).trans (arg8_at5 m ρ c)
theorem arg8_at7 (c : Dev nD) : W7 m ρ c (Proc.devRef .tc main_arg8) = m ((c : Thread nD τ).loc main_arg8) :=
  (StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg8_at6 m ρ c)

theorem arg9_at0 (c : Dev nD) : W0 m ρ c (Proc.devRef .tc main_arg9) = m ((c : Thread nD τ).loc main_arg9) := rfl
theorem arg9_at1 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg9_at0 m ρ c)
theorem arg9_at2 (c : Dev nD) : W2 m ρ c (Proc.devRef .tc main_arg9) = m ((c : Thread nD τ).loc main_arg9) :=
  (W2_of_ne m ρ c main_arg9 (by decide)).trans (arg9_at1 m ρ c)
theorem arg9_at3 (c : Dev nD) : W3 m ρ c (Proc.devRef .tc main_arg9) = m ((c : Thread nD τ).loc main_arg9) :=
  (StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg9_at2 m ρ c)
theorem arg9_at4 (c : Dev nD) : W4 m ρ c (Proc.devRef .tc main_arg9) = m ((c : Thread nD τ).loc main_arg9) :=
  (W4_of_ne m ρ c main_arg9 (by decide)).trans (arg9_at3 m ρ c)
theorem arg9_at5 (c : Dev nD) : W5 m ρ c (Proc.devRef .tc main_arg9) = m ((c : Thread nD τ).loc main_arg9) :=
  (StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg9_at4 m ρ c)
theorem arg9_at6 (c : Dev nD) : W6 m ρ c (Proc.devRef .tc main_arg9) = m ((c : Thread nD τ).loc main_arg9) :=
  (W6_of_ne m ρ c main_arg9 (by decide)).trans (arg9_at5 m ρ c)
theorem arg9_at7 (c : Dev nD) : W7 m ρ c (Proc.devRef .tc main_arg9) = m ((c : Thread nD τ).loc main_arg9) :=
  (StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg9_at6 m ρ c)
theorem arg9_at8 (c : Dev nD) : W8 m ρ c (Proc.devRef .tc main_arg9) = m ((c : Thread nD τ).loc main_arg9) :=
  (W8_of_ne m ρ c main_arg9 (by decide)).trans (arg9_at7 m ρ c)
theorem arg9_at9 (c : Dev nD) : W9 m ρ c (Proc.devRef .tc main_arg9) = m ((c : Thread nD τ).loc main_arg9) :=
  (StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg9_at8 m ρ c)

theorem arg10_at0 (c : Dev nD) : W0 m ρ c (Proc.devRef .tc main_arg10) = m ((c : Thread nD τ).loc main_arg10) := rfl
theorem arg10_at1 (c : Dev nD) : W1 m ρ c (Proc.devRef .tc main_arg10) = m ((c : Thread nD τ).loc main_arg10) :=
  (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg10_at0 m ρ c)
theorem arg10_at2 (c : Dev nD) : W2 m ρ c (Proc.devRef .tc main_arg10) = m ((c : Thread nD τ).loc main_arg10) :=
  (W2_of_ne m ρ c main_arg10 (by decide)).trans (arg10_at1 m ρ c)
theorem arg10_at3 (c : Dev nD) : W3 m ρ c (Proc.devRef .tc main_arg10) = m ((c : Thread nD τ).loc main_arg10) :=
  (StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg10_at2 m ρ c)
theorem arg10_at4 (c : Dev nD) : W4 m ρ c (Proc.devRef .tc main_arg10) = m ((c : Thread nD τ).loc main_arg10) :=
  (W4_of_ne m ρ c main_arg10 (by decide)).trans (arg10_at3 m ρ c)
theorem arg10_at5 (c : Dev nD) : W5 m ρ c (Proc.devRef .tc main_arg10) = m ((c : Thread nD τ).loc main_arg10) :=
  (StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg10_at4 m ρ c)
theorem arg10_at6 (c : Dev nD) : W6 m ρ c (Proc.devRef .tc main_arg10) = m ((c : Thread nD τ).loc main_arg10) :=
  (W6_of_ne m ρ c main_arg10 (by decide)).trans (arg10_at5 m ρ c)
theorem arg10_at7 (c : Dev nD) : W7 m ρ c (Proc.devRef .tc main_arg10) = m ((c : Thread nD τ).loc main_arg10) :=
  (StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg10_at6 m ρ c)
theorem arg10_at8 (c : Dev nD) : W8 m ρ c (Proc.devRef .tc main_arg10) = m ((c : Thread nD τ).loc main_arg10) :=
  (W8_of_ne m ρ c main_arg10 (by decide)).trans (arg10_at7 m ρ c)
theorem arg10_at9 (c : Dev nD) : W9 m ρ c (Proc.devRef .tc main_arg10) = m ((c : Thread nD τ).loc main_arg10) :=
  (StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg10_at8 m ρ c)
theorem arg10_at10 (c : Dev nD) : W10 m ρ c (Proc.devRef .tc main_arg10) = m ((c : Thread nD τ).loc main_arg10) :=
  (W10_of_ne m ρ c main_arg10 (by decide)).trans (arg10_at9 m ρ c)
theorem arg10_at11 (c : Dev nD) : W11 m ρ c (Proc.devRef .tc main_arg10) = m ((c : Thread nD τ).loc main_arg10) :=
  (StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg10_at10 m ρ c)

theorem arg11_at0 (c : Dev nD) : W0 m ρ c (Proc.devRef .tc main_arg11) = m ((c : Thread nD τ).loc main_arg11) := rfl
theorem arg11_at1 (c : Dev nD) : W1 m ρ c (Proc.devRef .tc main_arg11) = m ((c : Thread nD τ).loc main_arg11) :=
  (StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg11_at0 m ρ c)
theorem arg11_at2 (c : Dev nD) : W2 m ρ c (Proc.devRef .tc main_arg11) = m ((c : Thread nD τ).loc main_arg11) :=
  (W2_of_ne m ρ c main_arg11 (by decide)).trans (arg11_at1 m ρ c)
theorem arg11_at3 (c : Dev nD) : W3 m ρ c (Proc.devRef .tc main_arg11) = m ((c : Thread nD τ).loc main_arg11) :=
  (StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg11_at2 m ρ c)
theorem arg11_at4 (c : Dev nD) : W4 m ρ c (Proc.devRef .tc main_arg11) = m ((c : Thread nD τ).loc main_arg11) :=
  (W4_of_ne m ρ c main_arg11 (by decide)).trans (arg11_at3 m ρ c)
theorem arg11_at5 (c : Dev nD) : W5 m ρ c (Proc.devRef .tc main_arg11) = m ((c : Thread nD τ).loc main_arg11) :=
  (StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg11_at4 m ρ c)
theorem arg11_at6 (c : Dev nD) : W6 m ρ c (Proc.devRef .tc main_arg11) = m ((c : Thread nD τ).loc main_arg11) :=
  (W6_of_ne m ρ c main_arg11 (by decide)).trans (arg11_at5 m ρ c)
theorem arg11_at7 (c : Dev nD) : W7 m ρ c (Proc.devRef .tc main_arg11) = m ((c : Thread nD τ).loc main_arg11) :=
  (StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg11_at6 m ρ c)
theorem arg11_at8 (c : Dev nD) : W8 m ρ c (Proc.devRef .tc main_arg11) = m ((c : Thread nD τ).loc main_arg11) :=
  (W8_of_ne m ρ c main_arg11 (by decide)).trans (arg11_at7 m ρ c)
theorem arg11_at9 (c : Dev nD) : W9 m ρ c (Proc.devRef .tc main_arg11) = m ((c : Thread nD τ).loc main_arg11) :=
  (StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg11_at8 m ρ c)
theorem arg11_at10 (c : Dev nD) : W10 m ρ c (Proc.devRef .tc main_arg11) = m ((c : Thread nD τ).loc main_arg11) :=
  (W10_of_ne m ρ c main_arg11 (by decide)).trans (arg11_at9 m ρ c)
theorem arg11_at11 (c : Dev nD) : W11 m ρ c (Proc.devRef .tc main_arg11) = m ((c : Thread nD τ).loc main_arg11) :=
  (StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg11_at10 m ρ c)
theorem arg11_at12 (c : Dev nD) : W12 m ρ c (Proc.devRef .tc main_arg11) = m ((c : Thread nD τ).loc main_arg11) :=
  (W12_of_ne m ρ c main_arg11 (by decide)).trans (arg11_at11 m ρ c)
theorem arg11_at13 (c : Dev nD) : W13 m ρ c (Proc.devRef .tc main_arg11) = m ((c : Thread nD τ).loc main_arg11) :=
  (StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg11_at12 m ρ c)

theorem arg12_at0 (c : Dev nD) : W0 m ρ c (Proc.devRef .tc main_arg12) = m ((c : Thread nD τ).loc main_arg12) := rfl
theorem arg12_at1 (c : Dev nD) : W1 m ρ c (Proc.devRef .tc main_arg12) = m ((c : Thread nD τ).loc main_arg12) :=
  (StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg12_at0 m ρ c)
theorem arg12_at2 (c : Dev nD) : W2 m ρ c (Proc.devRef .tc main_arg12) = m ((c : Thread nD τ).loc main_arg12) :=
  (W2_of_ne m ρ c main_arg12 (by decide)).trans (arg12_at1 m ρ c)
theorem arg12_at3 (c : Dev nD) : W3 m ρ c (Proc.devRef .tc main_arg12) = m ((c : Thread nD τ).loc main_arg12) :=
  (StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg12_at2 m ρ c)
theorem arg12_at4 (c : Dev nD) : W4 m ρ c (Proc.devRef .tc main_arg12) = m ((c : Thread nD τ).loc main_arg12) :=
  (W4_of_ne m ρ c main_arg12 (by decide)).trans (arg12_at3 m ρ c)
theorem arg12_at5 (c : Dev nD) : W5 m ρ c (Proc.devRef .tc main_arg12) = m ((c : Thread nD τ).loc main_arg12) :=
  (StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg12_at4 m ρ c)
theorem arg12_at6 (c : Dev nD) : W6 m ρ c (Proc.devRef .tc main_arg12) = m ((c : Thread nD τ).loc main_arg12) :=
  (W6_of_ne m ρ c main_arg12 (by decide)).trans (arg12_at5 m ρ c)
theorem arg12_at7 (c : Dev nD) : W7 m ρ c (Proc.devRef .tc main_arg12) = m ((c : Thread nD τ).loc main_arg12) :=
  (StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg12_at6 m ρ c)
theorem arg12_at8 (c : Dev nD) : W8 m ρ c (Proc.devRef .tc main_arg12) = m ((c : Thread nD τ).loc main_arg12) :=
  (W8_of_ne m ρ c main_arg12 (by decide)).trans (arg12_at7 m ρ c)
theorem arg12_at9 (c : Dev nD) : W9 m ρ c (Proc.devRef .tc main_arg12) = m ((c : Thread nD τ).loc main_arg12) :=
  (StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg12_at8 m ρ c)
theorem arg12_at10 (c : Dev nD) : W10 m ρ c (Proc.devRef .tc main_arg12) = m ((c : Thread nD τ).loc main_arg12) :=
  (W10_of_ne m ρ c main_arg12 (by decide)).trans (arg12_at9 m ρ c)
theorem arg12_at11 (c : Dev nD) : W11 m ρ c (Proc.devRef .tc main_arg12) = m ((c : Thread nD τ).loc main_arg12) :=
  (StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg12_at10 m ρ c)
theorem arg12_at12 (c : Dev nD) : W12 m ρ c (Proc.devRef .tc main_arg12) = m ((c : Thread nD τ).loc main_arg12) :=
  (W12_of_ne m ρ c main_arg12 (by decide)).trans (arg12_at11 m ρ c)
theorem arg12_at13 (c : Dev nD) : W13 m ρ c (Proc.devRef .tc main_arg12) = m ((c : Thread nD τ).loc main_arg12) :=
  (StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg12_at12 m ρ c)
theorem arg12_at14 (c : Dev nD) : W14 m ρ c (Proc.devRef .tc main_arg12) = m ((c : Thread nD τ).loc main_arg12) :=
  (W14_of_ne m ρ c main_arg12 (by decide)).trans (arg12_at13 m ρ c)
theorem arg12_at15 (c : Dev nD) : W15 m ρ c (Proc.devRef .tc main_arg12) = m ((c : Thread nD τ).loc main_arg12) :=
  (StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg12_at14 m ρ c)

end Cert.KernelIdeal.Fold

end
-- ==== Proof.FoldArgsC.lean ====
/-
  The argument arrays 13, 14, 15, 16 are never written: no host operation names one as its result and no region has one as an
  output window. So at every boundary of the program's fold (after each host stretch, after each region) such an array
  still holds its launch contents. Stated here one boundary at a time, up to the boundary where the array is read.
-/
import proofs.«123412_j7670811591308_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

theorem arg13_at0 (c : Dev nD) : W0 m ρ c (Proc.devRef .tc main_arg13) = m ((c : Thread nD τ).loc main_arg13) := rfl
theorem arg13_at1 (c : Dev nD) : W1 m ρ c (Proc.devRef .tc main_arg13) = m ((c : Thread nD τ).loc main_arg13) :=
  (StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at0 m ρ c)
theorem arg13_at2 (c : Dev nD) : W2 m ρ c (Proc.devRef .tc main_arg13) = m ((c : Thread nD τ).loc main_arg13) :=
  (W2_of_ne m ρ c main_arg13 (by decide)).trans (arg13_at1 m ρ c)
theorem arg13_at3 (c : Dev nD) : W3 m ρ c (Proc.devRef .tc main_arg13) = m ((c : Thread nD τ).loc main_arg13) :=
  (StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at2 m ρ c)
theorem arg13_at4 (c : Dev nD) : W4 m ρ c (Proc.devRef .tc main_arg13) = m ((c : Thread nD τ).loc main_arg13) :=
  (W4_of_ne m ρ c main_arg13 (by decide)).trans (arg13_at3 m ρ c)
theorem arg13_at5 (c : Dev nD) : W5 m ρ c (Proc.devRef .tc main_arg13) = m ((c : Thread nD τ).loc main_arg13) :=
  (StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at4 m ρ c)
theorem arg13_at6 (c : Dev nD) : W6 m ρ c (Proc.devRef .tc main_arg13) = m ((c : Thread nD τ).loc main_arg13) :=
  (W6_of_ne m ρ c main_arg13 (by decide)).trans (arg13_at5 m ρ c)
theorem arg13_at7 (c : Dev nD) : W7 m ρ c (Proc.devRef .tc main_arg13) = m ((c : Thread nD τ).loc main_arg13) :=
  (StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at6 m ρ c)
theorem arg13_at8 (c : Dev nD) : W8 m ρ c (Proc.devRef .tc main_arg13) = m ((c : Thread nD τ).loc main_arg13) :=
  (W8_of_ne m ρ c main_arg13 (by decide)).trans (arg13_at7 m ρ c)
theorem arg13_at9 (c : Dev nD) : W9 m ρ c (Proc.devRef .tc main_arg13) = m ((c : Thread nD τ).loc main_arg13) :=
  (StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at8 m ρ c)
theorem arg13_at10 (c : Dev nD) : W10 m ρ c (Proc.devRef .tc main_arg13) = m ((c : Thread nD τ).loc main_arg13) :=
  (W10_of_ne m ρ c main_arg13 (by decide)).trans (arg13_at9 m ρ c)
theorem arg13_at11 (c : Dev nD) : W11 m ρ c (Proc.devRef .tc main_arg13) = m ((c : Thread nD τ).loc main_arg13) :=
  (StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at10 m ρ c)
theorem arg13_at12 (c : Dev nD) : W12 m ρ c (Proc.devRef .tc main_arg13) = m ((c : Thread nD τ).loc main_arg13) :=
  (W12_of_ne m ρ c main_arg13 (by decide)).trans (arg13_at11 m ρ c)
theorem arg13_at13 (c : Dev nD) : W13 m ρ c (Proc.devRef .tc main_arg13) = m ((c : Thread nD τ).loc main_arg13) :=
  (StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at12 m ρ c)
theorem arg13_at14 (c : Dev nD) : W14 m ρ c (Proc.devRef .tc main_arg13) = m ((c : Thread nD τ).loc main_arg13) :=
  (W14_of_ne m ρ c main_arg13 (by decide)).trans (arg13_at13 m ρ c)
theorem arg13_at15 (c : Dev nD) : W15 m ρ c (Proc.devRef .tc main_arg13) = m ((c : Thread nD τ).loc main_arg13) :=
  (StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at14 m ρ c)
theorem arg13_at16 (c : Dev nD) : W16 m ρ c (Proc.devRef .tc main_arg13) = m ((c : Thread nD τ).loc main_arg13) :=
  (W16_of_ne m ρ c main_arg13 (by decide)).trans (arg13_at15 m ρ c)
theorem arg13_at17 (c : Dev nD) : W17 m ρ c (Proc.devRef .tc main_arg13) = m ((c : Thread nD τ).loc main_arg13) :=
  (StableHlo.after_of_forall_not_mem (b := Proc.devRef .tc main_arg13) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg13_at16 m ρ c)

theorem arg14_at0 (c : Dev nD) : W0 m ρ c (Proc.devRef .tc main_arg14) = m ((c : Thread nD τ).loc main_arg14) := rfl
theorem arg14_at1 (c : Dev nD) : W1 m ρ c (Proc.devRef .tc main_arg14) = m ((c : Thread nD τ).loc main_arg14) :=
  (StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at0 m ρ c)
theorem arg14_at2 (c : Dev nD) : W2 m ρ c (Proc.devRef .tc main_arg14) = m ((c : Thread nD τ).loc main_arg14) :=
  (W2_of_ne m ρ c main_arg14 (by decide)).trans (arg14_at1 m ρ c)
theorem arg14_at3 (c : Dev nD) : W3 m ρ c (Proc.devRef .tc main_arg14) = m ((c : Thread nD τ).loc main_arg14) :=
  (StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at2 m ρ c)
theorem arg14_at4 (c : Dev nD) : W4 m ρ c (Proc.devRef .tc main_arg14) = m ((c : Thread nD τ).loc main_arg14) :=
  (W4_of_ne m ρ c main_arg14 (by decide)).trans (arg14_at3 m ρ c)
theorem arg14_at5 (c : Dev nD) : W5 m ρ c (Proc.devRef .tc main_arg14) = m ((c : Thread nD τ).loc main_arg14) :=
  (StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at4 m ρ c)
theorem arg14_at6 (c : Dev nD) : W6 m ρ c (Proc.devRef .tc main_arg14) = m ((c : Thread nD τ).loc main_arg14) :=
  (W6_of_ne m ρ c main_arg14 (by decide)).trans (arg14_at5 m ρ c)
theorem arg14_at7 (c : Dev nD) : W7 m ρ c (Proc.devRef .tc main_arg14) = m ((c : Thread nD τ).loc main_arg14) :=
  (StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at6 m ρ c)
theorem arg14_at8 (c : Dev nD) : W8 m ρ c (Proc.devRef .tc main_arg14) = m ((c : Thread nD τ).loc main_arg14) :=
  (W8_of_ne m ρ c main_arg14 (by decide)).trans (arg14_at7 m ρ c)
theorem arg14_at9 (c : Dev nD) : W9 m ρ c (Proc.devRef .tc main_arg14) = m ((c : Thread nD τ).loc main_arg14) :=
  (StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at8 m ρ c)
theorem arg14_at10 (c : Dev nD) : W10 m ρ c (Proc.devRef .tc main_arg14) = m ((c : Thread nD τ).loc main_arg14) :=
  (W10_of_ne m ρ c main_arg14 (by decide)).trans (arg14_at9 m ρ c)
theorem arg14_at11 (c : Dev nD) : W11 m ρ c (Proc.devRef .tc main_arg14) = m ((c : Thread nD τ).loc main_arg14) :=
  (StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at10 m ρ c)
theorem arg14_at12 (c : Dev nD) : W12 m ρ c (Proc.devRef .tc main_arg14) = m ((c : Thread nD τ).loc main_arg14) :=
  (W12_of_ne m ρ c main_arg14 (by decide)).trans (arg14_at11 m ρ c)
theorem arg14_at13 (c : Dev nD) : W13 m ρ c (Proc.devRef .tc main_arg14) = m ((c : Thread nD τ).loc main_arg14) :=
  (StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at12 m ρ c)
theorem arg14_at14 (c : Dev nD) : W14 m ρ c (Proc.devRef .tc main_arg14) = m ((c : Thread nD τ).loc main_arg14) :=
  (W14_of_ne m ρ c main_arg14 (by decide)).trans (arg14_at13 m ρ c)
theorem arg14_at15 (c : Dev nD) : W15 m ρ c (Proc.devRef .tc main_arg14) = m ((c : Thread nD τ).loc main_arg14) :=
  (StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at14 m ρ c)
theorem arg14_at16 (c : Dev nD) : W16 m ρ c (Proc.devRef .tc main_arg14) = m ((c : Thread nD τ).loc main_arg14) :=
  (W16_of_ne m ρ c main_arg14 (by decide)).trans (arg14_at15 m ρ c)
theorem arg14_at17 (c : Dev nD) : W17 m ρ c (Proc.devRef .tc main_arg14) = m ((c : Thread nD τ).loc main_arg14) :=
  (StableHlo.after_of_forall_not_mem (b := Proc.devRef .tc main_arg14) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at16 m ρ c)
theorem arg14_at18 (c : Dev nD) : W18 m ρ c (Proc.devRef .tc main_arg14) = m ((c : Thread nD τ).loc main_arg14) :=
  (W18_of_ne m ρ c main_arg14 (by decide)).trans (arg14_at17 m ρ c)
theorem arg14_at19 (c : Dev nD) : W19 m ρ c (Proc.devRef .tc main_arg14) = m ((c : Thread nD τ).loc main_arg14) :=
  (StableHlo.after_of_forall_not_mem (b := Proc.devRef .tc main_arg14) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg14_at18 m ρ c)

theorem arg15_at0 (c : Dev nD) : W0 m ρ c (Proc.devRef .tc main_arg15) = m ((c : Thread nD τ).loc main_arg15) := rfl
theorem arg15_at1 (c : Dev nD) : W1 m ρ c (Proc.devRef .tc main_arg15) = m ((c : Thread nD τ).loc main_arg15) :=
  (StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at0 m ρ c)
theorem arg15_at2 (c : Dev nD) : W2 m ρ c (Proc.devRef .tc main_arg15) = m ((c : Thread nD τ).loc main_arg15) :=
  (W2_of_ne m ρ c main_arg15 (by decide)).trans (arg15_at1 m ρ c)
theorem arg15_at3 (c : Dev nD) : W3 m ρ c (Proc.devRef .tc main_arg15) = m ((c : Thread nD τ).loc main_arg15) :=
  (StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at2 m ρ c)
theorem arg15_at4 (c : Dev nD) : W4 m ρ c (Proc.devRef .tc main_arg15) = m ((c : Thread nD τ).loc main_arg15) :=
  (W4_of_ne m ρ c main_arg15 (by decide)).trans (arg15_at3 m ρ c)
theorem arg15_at5 (c : Dev nD) : W5 m ρ c (Proc.devRef .tc main_arg15) = m ((c : Thread nD τ).loc main_arg15) :=
  (StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at4 m ρ c)
theorem arg15_at6 (c : Dev nD) : W6 m ρ c (Proc.devRef .tc main_arg15) = m ((c : Thread nD τ).loc main_arg15) :=
  (W6_of_ne m ρ c main_arg15 (by decide)).trans (arg15_at5 m ρ c)
theorem arg15_at7 (c : Dev nD) : W7 m ρ c (Proc.devRef .tc main_arg15) = m ((c : Thread nD τ).loc main_arg15) :=
  (StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at6 m ρ c)
theorem arg15_at8 (c : Dev nD) : W8 m ρ c (Proc.devRef .tc main_arg15) = m ((c : Thread nD τ).loc main_arg15) :=
  (W8_of_ne m ρ c main_arg15 (by decide)).trans (arg15_at7 m ρ c)
theorem arg15_at9 (c : Dev nD) : W9 m ρ c (Proc.devRef .tc main_arg15) = m ((c : Thread nD τ).loc main_arg15) :=
  (StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at8 m ρ c)
theorem arg15_at10 (c : Dev nD) : W10 m ρ c (Proc.devRef .tc main_arg15) = m ((c : Thread nD τ).loc main_arg15) :=
  (W10_of_ne m ρ c main_arg15 (by decide)).trans (arg15_at9 m ρ c)
theorem arg15_at11 (c : Dev nD) : W11 m ρ c (Proc.devRef .tc main_arg15) = m ((c : Thread nD τ).loc main_arg15) :=
  (StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at10 m ρ c)
theorem arg15_at12 (c : Dev nD) : W12 m ρ c (Proc.devRef .tc main_arg15) = m ((c : Thread nD τ).loc main_arg15) :=
  (W12_of_ne m ρ c main_arg15 (by decide)).trans (arg15_at11 m ρ c)
theorem arg15_at13 (c : Dev nD) : W13 m ρ c (Proc.devRef .tc main_arg15) = m ((c : Thread nD τ).loc main_arg15) :=
  (StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at12 m ρ c)
theorem arg15_at14 (c : Dev nD) : W14 m ρ c (Proc.devRef .tc main_arg15) = m ((c : Thread nD τ).loc main_arg15) :=
  (W14_of_ne m ρ c main_arg15 (by decide)).trans (arg15_at13 m ρ c)
theorem arg15_at15 (c : Dev nD) : W15 m ρ c (Proc.devRef .tc main_arg15) = m ((c : Thread nD τ).loc main_arg15) :=
  (StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at14 m ρ c)
theorem arg15_at16 (c : Dev nD) : W16 m ρ c (Proc.devRef .tc main_arg15) = m ((c : Thread nD τ).loc main_arg15) :=
  (W16_of_ne m ρ c main_arg15 (by decide)).trans (arg15_at15 m ρ c)
theorem arg15_at17 (c : Dev nD) : W17 m ρ c (Proc.devRef .tc main_arg15) = m ((c : Thread nD τ).loc main_arg15) :=
  (StableHlo.after_of_forall_not_mem (b := Proc.devRef .tc main_arg15) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at16 m ρ c)
theorem arg15_at18 (c : Dev nD) : W18 m ρ c (Proc.devRef .tc main_arg15) = m ((c : Thread nD τ).loc main_arg15) :=
  (W18_of_ne m ρ c main_arg15 (by decide)).trans (arg15_at17 m ρ c)
theorem arg15_at19 (c : Dev nD) : W19 m ρ c (Proc.devRef .tc main_arg15) = m ((c : Thread nD τ).loc main_arg15) :=
  (StableHlo.after_of_forall_not_mem (b := Proc.devRef .tc main_arg15) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at18 m ρ c)
theorem arg15_at20 (c : Dev nD) : W20 m ρ c (Proc.devRef .tc main_arg15) = m ((c : Thread nD τ).loc main_arg15) :=
  (W20_of_ne m ρ c main_arg15 (by decide)).trans (arg15_at19 m ρ c)
theorem arg15_at21 (c : Dev nD) : W21 m ρ c (Proc.devRef .tc main_arg15) = m ((c : Thread nD τ).loc main_arg15) :=
  (StableHlo.after_of_forall_not_mem (b := Proc.devRef .tc main_arg15) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg15_at20 m ρ c)

theorem arg16_at0 (c : Dev nD) : W0 m ρ c (Proc.devRef .tc main_arg16) = m ((c : Thread nD τ).loc main_arg16) := rfl
theorem arg16_at1 (c : Dev nD) : W1 m ρ c (Proc.devRef .tc main_arg16) = m ((c : Thread nD τ).loc main_arg16) :=
  (StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at0 m ρ c)
theorem arg16_at2 (c : Dev nD) : W2 m ρ c (Proc.devRef .tc main_arg16) = m ((c : Thread nD τ).loc main_arg16) :=
  (W2_of_ne m ρ c main_arg16 (by decide)).trans (arg16_at1 m ρ c)
theorem arg16_at3 (c : Dev nD) : W3 m ρ c (Proc.devRef .tc main_arg16) = m ((c : Thread nD τ).loc main_arg16) :=
  (StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at2 m ρ c)
theorem arg16_at4 (c : Dev nD) : W4 m ρ c (Proc.devRef .tc main_arg16) = m ((c : Thread nD τ).loc main_arg16) :=
  (W4_of_ne m ρ c main_arg16 (by decide)).trans (arg16_at3 m ρ c)
theorem arg16_at5 (c : Dev nD) : W5 m ρ c (Proc.devRef .tc main_arg16) = m ((c : Thread nD τ).loc main_arg16) :=
  (StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at4 m ρ c)
theorem arg16_at6 (c : Dev nD) : W6 m ρ c (Proc.devRef .tc main_arg16) = m ((c : Thread nD τ).loc main_arg16) :=
  (W6_of_ne m ρ c main_arg16 (by decide)).trans (arg16_at5 m ρ c)
theorem arg16_at7 (c : Dev nD) : W7 m ρ c (Proc.devRef .tc main_arg16) = m ((c : Thread nD τ).loc main_arg16) :=
  (StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at6 m ρ c)
theorem arg16_at8 (c : Dev nD) : W8 m ρ c (Proc.devRef .tc main_arg16) = m ((c : Thread nD τ).loc main_arg16) :=
  (W8_of_ne m ρ c main_arg16 (by decide)).trans (arg16_at7 m ρ c)
theorem arg16_at9 (c : Dev nD) : W9 m ρ c (Proc.devRef .tc main_arg16) = m ((c : Thread nD τ).loc main_arg16) :=
  (StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at8 m ρ c)
theorem arg16_at10 (c : Dev nD) : W10 m ρ c (Proc.devRef .tc main_arg16) = m ((c : Thread nD τ).loc main_arg16) :=
  (W10_of_ne m ρ c main_arg16 (by decide)).trans (arg16_at9 m ρ c)
theorem arg16_at11 (c : Dev nD) : W11 m ρ c (Proc.devRef .tc main_arg16) = m ((c : Thread nD τ).loc main_arg16) :=
  (StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at10 m ρ c)
theorem arg16_at12 (c : Dev nD) : W12 m ρ c (Proc.devRef .tc main_arg16) = m ((c : Thread nD τ).loc main_arg16) :=
  (W12_of_ne m ρ c main_arg16 (by decide)).trans (arg16_at11 m ρ c)
theorem arg16_at13 (c : Dev nD) : W13 m ρ c (Proc.devRef .tc main_arg16) = m ((c : Thread nD τ).loc main_arg16) :=
  (StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at12 m ρ c)
theorem arg16_at14 (c : Dev nD) : W14 m ρ c (Proc.devRef .tc main_arg16) = m ((c : Thread nD τ).loc main_arg16) :=
  (W14_of_ne m ρ c main_arg16 (by decide)).trans (arg16_at13 m ρ c)
theorem arg16_at15 (c : Dev nD) : W15 m ρ c (Proc.devRef .tc main_arg16) = m ((c : Thread nD τ).loc main_arg16) :=
  (StableHlo.after_of_forall_not_mem (b := Proc.devRef .tc main_arg16) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at14 m ρ c)
theorem arg16_at16 (c : Dev nD) : W16 m ρ c (Proc.devRef .tc main_arg16) = m ((c : Thread nD τ).loc main_arg16) :=
  (W16_of_ne m ρ c main_arg16 (by decide)).trans (arg16_at15 m ρ c)
theorem arg16_at17 (c : Dev nD) : W17 m ρ c (Proc.devRef .tc main_arg16) = m ((c : Thread nD τ).loc main_arg16) :=
  (StableHlo.after_of_forall_not_mem (b := Proc.devRef .tc main_arg16) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at16 m ρ c)
theorem arg16_at18 (c : Dev nD) : W18 m ρ c (Proc.devRef .tc main_arg16) = m ((c : Thread nD τ).loc main_arg16) :=
  (W18_of_ne m ρ c main_arg16 (by decide)).trans (arg16_at17 m ρ c)
theorem arg16_at19 (c : Dev nD) : W19 m ρ c (Proc.devRef .tc main_arg16) = m ((c : Thread nD τ).loc main_arg16) :=
  (StableHlo.after_of_forall_not_mem (b := Proc.devRef .tc main_arg16) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at18 m ρ c)
theorem arg16_at20 (c : Dev nD) : W20 m ρ c (Proc.devRef .tc main_arg16) = m ((c : Thread nD τ).loc main_arg16) :=
  (W20_of_ne m ρ c main_arg16 (by decide)).trans (arg16_at19 m ρ c)
theorem arg16_at21 (c : Dev nD) : W21 m ρ c (Proc.devRef .tc main_arg16) = m ((c : Thread nD τ).loc main_arg16) :=
  (StableHlo.after_of_forall_not_mem (b := Proc.devRef .tc main_arg16) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg16_at20 m ρ c)

end Cert.KernelIdeal.Fold

end
-- ==== Proof.FoldArgsD.lean ====
/-
  The argument arrays 17, 18, 19, 20 are never written: no host operation names one as its result and no region has one as an
  output window. So at every boundary of the program's fold (after each host stretch, after each region) such an array
  still holds its launch contents. Stated here one boundary at a time, up to the boundary where the array is read.
-/
import proofs.«123412_j7670811591308_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

theorem arg17_at0 (c : Dev nD) : W0 m ρ c (Proc.devRef .tc main_arg17) = m ((c : Thread nD τ).loc main_arg17) := rfl
theorem arg17_at1 (c : Dev nD) : W1 m ρ c (Proc.devRef .tc main_arg17) = m ((c : Thread nD τ).loc main_arg17) :=
  (StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at0 m ρ c)
theorem arg17_at2 (c : Dev nD) : W2 m ρ c (Proc.devRef .tc main_arg17) = m ((c : Thread nD τ).loc main_arg17) :=
  (W2_of_ne m ρ c main_arg17 (by decide)).trans (arg17_at1 m ρ c)
theorem arg17_at3 (c : Dev nD) : W3 m ρ c (Proc.devRef .tc main_arg17) = m ((c : Thread nD τ).loc main_arg17) :=
  (StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at2 m ρ c)
theorem arg17_at4 (c : Dev nD) : W4 m ρ c (Proc.devRef .tc main_arg17) = m ((c : Thread nD τ).loc main_arg17) :=
  (W4_of_ne m ρ c main_arg17 (by decide)).trans (arg17_at3 m ρ c)
theorem arg17_at5 (c : Dev nD) : W5 m ρ c (Proc.devRef .tc main_arg17) = m ((c : Thread nD τ).loc main_arg17) :=
  (StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at4 m ρ c)
theorem arg17_at6 (c : Dev nD) : W6 m ρ c (Proc.devRef .tc main_arg17) = m ((c : Thread nD τ).loc main_arg17) :=
  (W6_of_ne m ρ c main_arg17 (by decide)).trans (arg17_at5 m ρ c)
theorem arg17_at7 (c : Dev nD) : W7 m ρ c (Proc.devRef .tc main_arg17) = m ((c : Thread nD τ).loc main_arg17) :=
  (StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at6 m ρ c)
theorem arg17_at8 (c : Dev nD) : W8 m ρ c (Proc.devRef .tc main_arg17) = m ((c : Thread nD τ).loc main_arg17) :=
  (W8_of_ne m ρ c main_arg17 (by decide)).trans (arg17_at7 m ρ c)
theorem arg17_at9 (c : Dev nD) : W9 m ρ c (Proc.devRef .tc main_arg17) = m ((c : Thread nD τ).loc main_arg17) :=
  (StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at8 m ρ c)
theorem arg17_at10 (c : Dev nD) : W10 m ρ c (Proc.devRef .tc main_arg17) = m ((c : Thread nD τ).loc main_arg17) :=
  (W10_of_ne m ρ c main_arg17 (by decide)).trans (arg17_at9 m ρ c)
theorem arg17_at11 (c : Dev nD) : W11 m ρ c (Proc.devRef .tc main_arg17) = m ((c : Thread nD τ).loc main_arg17) :=
  (StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at10 m ρ c)
theorem arg17_at12 (c : Dev nD) : W12 m ρ c (Proc.devRef .tc main_arg17) = m ((c : Thread nD τ).loc main_arg17) :=
  (W12_of_ne m ρ c main_arg17 (by decide)).trans (arg17_at11 m ρ c)
theorem arg17_at13 (c : Dev nD) : W13 m ρ c (Proc.devRef .tc main_arg17) = m ((c : Thread nD τ).loc main_arg17) :=
  (StableHlo.after_of_forall_not_mem (b := Proc.devRef .tc main_arg17) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at12 m ρ c)
theorem arg17_at14 (c : Dev nD) : W14 m ρ c (Proc.devRef .tc main_arg17) = m ((c : Thread nD τ).loc main_arg17) :=
  (W14_of_ne m ρ c main_arg17 (by decide)).trans (arg17_at13 m ρ c)
theorem arg17_at15 (c : Dev nD) : W15 m ρ c (Proc.devRef .tc main_arg17) = m ((c : Thread nD τ).loc main_arg17) :=
  (StableHlo.after_of_forall_not_mem (b := Proc.devRef .tc main_arg17) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at14 m ρ c)
theorem arg17_at16 (c : Dev nD) : W16 m ρ c (Proc.devRef .tc main_arg17) = m ((c : Thread nD τ).loc main_arg17) :=
  (W16_of_ne m ρ c main_arg17 (by decide)).trans (arg17_at15 m ρ c)
theorem arg17_at17 (c : Dev nD) : W17 m ρ c (Proc.devRef .tc main_arg17) = m ((c : Thread nD τ).loc main_arg17) :=
  (StableHlo.after_of_forall_not_mem (b := Proc.devRef .tc main_arg17) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at16 m ρ c)
theorem arg17_at18 (c : Dev nD) : W18 m ρ c (Proc.devRef .tc main_arg17) = m ((c : Thread nD τ).loc main_arg17) :=
  (W18_of_ne m ρ c main_arg17 (by decide)).trans (arg17_at17 m ρ c)
theorem arg17_at19 (c : Dev nD) : W19 m ρ c (Proc.devRef .tc main_arg17) = m ((c : Thread nD τ).loc main_arg17) :=
  (StableHlo.after_of_forall_not_mem (b := Proc.devRef .tc main_arg17) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at18 m ρ c)
theorem arg17_at20 (c : Dev nD) : W20 m ρ c (Proc.devRef .tc main_arg17) = m ((c : Thread nD τ).loc main_arg17) :=
  (W20_of_ne m ρ c main_arg17 (by decide)).trans (arg17_at19 m ρ c)
theorem arg17_at21 (c : Dev nD) : W21 m ρ c (Proc.devRef .tc main_arg17) = m ((c : Thread nD τ).loc main_arg17) :=
  (StableHlo.after_of_forall_not_mem (b := Proc.devRef .tc main_arg17) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg17_at20 m ρ c)
theorem arg17_at22 (c : Dev nD) : W22 m ρ c (Proc.devRef .tc main_arg17) = m ((c : Thread nD τ).loc main_arg17) :=
  (W22_of_ne m ρ c main_arg17 (by decide)).trans (arg17_at21 m ρ c)

theorem arg18_at0 (c : Dev nD) : W0 m ρ c (Proc.devRef .tc main_arg18) = m ((c : Thread nD τ).loc main_arg18) := rfl
theorem arg18_at1 (c : Dev nD) : W1 m ρ c (Proc.devRef .tc main_arg18) = m ((c : Thread nD τ).loc main_arg18) :=
  (StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at0 m ρ c)
theorem arg18_at2 (c : Dev nD) : W2 m ρ c (Proc.devRef .tc main_arg18) = m ((c : Thread nD τ).loc main_arg18) :=
  (W2_of_ne m ρ c main_arg18 (by decide)).trans (arg18_at1 m ρ c)
theorem arg18_at3 (c : Dev nD) : W3 m ρ c (Proc.devRef .tc main_arg18) = m ((c : Thread nD τ).loc main_arg18) :=
  (StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at2 m ρ c)
theorem arg18_at4 (c : Dev nD) : W4 m ρ c (Proc.devRef .tc main_arg18) = m ((c : Thread nD τ).loc main_arg18) :=
  (W4_of_ne m ρ c main_arg18 (by decide)).trans (arg18_at3 m ρ c)
theorem arg18_at5 (c : Dev nD) : W5 m ρ c (Proc.devRef .tc main_arg18) = m ((c : Thread nD τ).loc main_arg18) :=
  (StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at4 m ρ c)
theorem arg18_at6 (c : Dev nD) : W6 m ρ c (Proc.devRef .tc main_arg18) = m ((c : Thread nD τ).loc main_arg18) :=
  (W6_of_ne m ρ c main_arg18 (by decide)).trans (arg18_at5 m ρ c)
theorem arg18_at7 (c : Dev nD) : W7 m ρ c (Proc.devRef .tc main_arg18) = m ((c : Thread nD τ).loc main_arg18) :=
  (StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at6 m ρ c)
theorem arg18_at8 (c : Dev nD) : W8 m ρ c (Proc.devRef .tc main_arg18) = m ((c : Thread nD τ).loc main_arg18) :=
  (W8_of_ne m ρ c main_arg18 (by decide)).trans (arg18_at7 m ρ c)
theorem arg18_at9 (c : Dev nD) : W9 m ρ c (Proc.devRef .tc main_arg18) = m ((c : Thread nD τ).loc main_arg18) :=
  (StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at8 m ρ c)
theorem arg18_at10 (c : Dev nD) : W10 m ρ c (Proc.devRef .tc main_arg18) = m ((c : Thread nD τ).loc main_arg18) :=
  (W10_of_ne m ρ c main_arg18 (by decide)).trans (arg18_at9 m ρ c)
theorem arg18_at11 (c : Dev nD) : W11 m ρ c (Proc.devRef .tc main_arg18) = m ((c : Thread nD τ).loc main_arg18) :=
  (StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at10 m ρ c)
theorem arg18_at12 (c : Dev nD) : W12 m ρ c (Proc.devRef .tc main_arg18) = m ((c : Thread nD τ).loc main_arg18) :=
  (W12_of_ne m ρ c main_arg18 (by decide)).trans (arg18_at11 m ρ c)
theorem arg18_at13 (c : Dev nD) : W13 m ρ c (Proc.devRef .tc main_arg18) = m ((c : Thread nD τ).loc main_arg18) :=
  (StableHlo.after_of_forall_not_mem (b := Proc.devRef .tc main_arg18) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at12 m ρ c)
theorem arg18_at14 (c : Dev nD) : W14 m ρ c (Proc.devRef .tc main_arg18) = m ((c : Thread nD τ).loc main_arg18) :=
  (W14_of_ne m ρ c main_arg18 (by decide)).trans (arg18_at13 m ρ c)
theorem arg18_at15 (c : Dev nD) : W15 m ρ c (Proc.devRef .tc main_arg18) = m ((c : Thread nD τ).loc main_arg18) :=
  (StableHlo.after_of_forall_not_mem (b := Proc.devRef .tc main_arg18) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at14 m ρ c)
theorem arg18_at16 (c : Dev nD) : W16 m ρ c (Proc.devRef .tc main_arg18) = m ((c : Thread nD τ).loc main_arg18) :=
  (W16_of_ne m ρ c main_arg18 (by decide)).trans (arg18_at15 m ρ c)
theorem arg18_at17 (c : Dev nD) : W17 m ρ c (Proc.devRef .tc main_arg18) = m ((c : Thread nD τ).loc main_arg18) :=
  (StableHlo.after_of_forall_not_mem (b := Proc.devRef .tc main_arg18) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at16 m ρ c)
theorem arg18_at18 (c : Dev nD) : W18 m ρ c (Proc.devRef .tc main_arg18) = m ((c : Thread nD τ).loc main_arg18) :=
  (W18_of_ne m ρ c main_arg18 (by decide)).trans (arg18_at17 m ρ c)
theorem arg18_at19 (c : Dev nD) : W19 m ρ c (Proc.devRef .tc main_arg18) = m ((c : Thread nD τ).loc main_arg18) :=
  (StableHlo.after_of_forall_not_mem (b := Proc.devRef .tc main_arg18) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at18 m ρ c)
theorem arg18_at20 (c : Dev nD) : W20 m ρ c (Proc.devRef .tc main_arg18) = m ((c : Thread nD τ).loc main_arg18) :=
  (W20_of_ne m ρ c main_arg18 (by decide)).trans (arg18_at19 m ρ c)
theorem arg18_at21 (c : Dev nD) : W21 m ρ c (Proc.devRef .tc main_arg18) = m ((c : Thread nD τ).loc main_arg18) :=
  (StableHlo.after_of_forall_not_mem (b := Proc.devRef .tc main_arg18) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg18_at20 m ρ c)
theorem arg18_at22 (c : Dev nD) : W22 m ρ c (Proc.devRef .tc main_arg18) = m ((c : Thread nD τ).loc main_arg18) :=
  (W22_of_ne m ρ c main_arg18 (by decide)).trans (arg18_at21 m ρ c)

theorem arg19_at0 (c : Dev nD) : W0 m ρ c (Proc.devRef .tc main_arg19) = m ((c : Thread nD τ).loc main_arg19) := rfl
theorem arg19_at1 (c : Dev nD) : W1 m ρ c (Proc.devRef .tc main_arg19) = m ((c : Thread nD τ).loc main_arg19) :=
  (StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at0 m ρ c)
theorem arg19_at2 (c : Dev nD) : W2 m ρ c (Proc.devRef .tc main_arg19) = m ((c : Thread nD τ).loc main_arg19) :=
  (W2_of_ne m ρ c main_arg19 (by decide)).trans (arg19_at1 m ρ c)
theorem arg19_at3 (c : Dev nD) : W3 m ρ c (Proc.devRef .tc main_arg19) = m ((c : Thread nD τ).loc main_arg19) :=
  (StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at2 m ρ c)
theorem arg19_at4 (c : Dev nD) : W4 m ρ c (Proc.devRef .tc main_arg19) = m ((c : Thread nD τ).loc main_arg19) :=
  (W4_of_ne m ρ c main_arg19 (by decide)).trans (arg19_at3 m ρ c)
theorem arg19_at5 (c : Dev nD) : W5 m ρ c (Proc.devRef .tc main_arg19) = m ((c : Thread nD τ).loc main_arg19) :=
  (StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at4 m ρ c)
theorem arg19_at6 (c : Dev nD) : W6 m ρ c (Proc.devRef .tc main_arg19) = m ((c : Thread nD τ).loc main_arg19) :=
  (W6_of_ne m ρ c main_arg19 (by decide)).trans (arg19_at5 m ρ c)
theorem arg19_at7 (c : Dev nD) : W7 m ρ c (Proc.devRef .tc main_arg19) = m ((c : Thread nD τ).loc main_arg19) :=
  (StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at6 m ρ c)
theorem arg19_at8 (c : Dev nD) : W8 m ρ c (Proc.devRef .tc main_arg19) = m ((c : Thread nD τ).loc main_arg19) :=
  (W8_of_ne m ρ c main_arg19 (by decide)).trans (arg19_at7 m ρ c)
theorem arg19_at9 (c : Dev nD) : W9 m ρ c (Proc.devRef .tc main_arg19) = m ((c : Thread nD τ).loc main_arg19) :=
  (StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at8 m ρ c)
theorem arg19_at10 (c : Dev nD) : W10 m ρ c (Proc.devRef .tc main_arg19) = m ((c : Thread nD τ).loc main_arg19) :=
  (W10_of_ne m ρ c main_arg19 (by decide)).trans (arg19_at9 m ρ c)
theorem arg19_at11 (c : Dev nD) : W11 m ρ c (Proc.devRef .tc main_arg19) = m ((c : Thread nD τ).loc main_arg19) :=
  (StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at10 m ρ c)
theorem arg19_at12 (c : Dev nD) : W12 m ρ c (Proc.devRef .tc main_arg19) = m ((c : Thread nD τ).loc main_arg19) :=
  (W12_of_ne m ρ c main_arg19 (by decide)).trans (arg19_at11 m ρ c)
theorem arg19_at13 (c : Dev nD) : W13 m ρ c (Proc.devRef .tc main_arg19) = m ((c : Thread nD τ).loc main_arg19) :=
  (StableHlo.after_of_forall_not_mem (b := Proc.devRef .tc main_arg19) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at12 m ρ c)
theorem arg19_at14 (c : Dev nD) : W14 m ρ c (Proc.devRef .tc main_arg19) = m ((c : Thread nD τ).loc main_arg19) :=
  (W14_of_ne m ρ c main_arg19 (by decide)).trans (arg19_at13 m ρ c)
theorem arg19_at15 (c : Dev nD) : W15 m ρ c (Proc.devRef .tc main_arg19) = m ((c : Thread nD τ).loc main_arg19) :=
  (StableHlo.after_of_forall_not_mem (b := Proc.devRef .tc main_arg19) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at14 m ρ c)
theorem arg19_at16 (c : Dev nD) : W16 m ρ c (Proc.devRef .tc main_arg19) = m ((c : Thread nD τ).loc main_arg19) :=
  (W16_of_ne m ρ c main_arg19 (by decide)).trans (arg19_at15 m ρ c)
theorem arg19_at17 (c : Dev nD) : W17 m ρ c (Proc.devRef .tc main_arg19) = m ((c : Thread nD τ).loc main_arg19) :=
  (StableHlo.after_of_forall_not_mem (b := Proc.devRef .tc main_arg19) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at16 m ρ c)
theorem arg19_at18 (c : Dev nD) : W18 m ρ c (Proc.devRef .tc main_arg19) = m ((c : Thread nD τ).loc main_arg19) :=
  (W18_of_ne m ρ c main_arg19 (by decide)).trans (arg19_at17 m ρ c)
theorem arg19_at19 (c : Dev nD) : W19 m ρ c (Proc.devRef .tc main_arg19) = m ((c : Thread nD τ).loc main_arg19) :=
  (StableHlo.after_of_forall_not_mem (b := Proc.devRef .tc main_arg19) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at18 m ρ c)
theorem arg19_at20 (c : Dev nD) : W20 m ρ c (Proc.devRef .tc main_arg19) = m ((c : Thread nD τ).loc main_arg19) :=
  (W20_of_ne m ρ c main_arg19 (by decide)).trans (arg19_at19 m ρ c)
theorem arg19_at21 (c : Dev nD) : W21 m ρ c (Proc.devRef .tc main_arg19) = m ((c : Thread nD τ).loc main_arg19) :=
  (StableHlo.after_of_forall_not_mem (b := Proc.devRef .tc main_arg19) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg19_at20 m ρ c)
theorem arg19_at22 (c : Dev nD) : W22 m ρ c (Proc.devRef .tc main_arg19) = m ((c : Thread nD τ).loc main_arg19) :=
  (W22_of_ne m ρ c main_arg19 (by decide)).trans (arg19_at21 m ρ c)
theorem arg19_at23 (c : Dev nD) : W23 m ρ c (Proc.devRef .tc main_arg19) = m ((c : Thread nD τ).loc main_arg19) :=
  (W23_of_ne m ρ c main_arg19 (by decide)).trans (arg19_at22 m ρ c)

theorem arg20_at0 (c : Dev nD) : W0 m ρ c (Proc.devRef .tc main_arg20) = m ((c : Thread nD τ).loc main_arg20) := rfl
theorem arg20_at1 (c : Dev nD) : W1 m ρ c (Proc.devRef .tc main_arg20) = m ((c : Thread nD τ).loc main_arg20) :=
  (StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at0 m ρ c)
theorem arg20_at2 (c : Dev nD) : W2 m ρ c (Proc.devRef .tc main_arg20) = m ((c : Thread nD τ).loc main_arg20) :=
  (W2_of_ne m ρ c main_arg20 (by decide)).trans (arg20_at1 m ρ c)
theorem arg20_at3 (c : Dev nD) : W3 m ρ c (Proc.devRef .tc main_arg20) = m ((c : Thread nD τ).loc main_arg20) :=
  (StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at2 m ρ c)
theorem arg20_at4 (c : Dev nD) : W4 m ρ c (Proc.devRef .tc main_arg20) = m ((c : Thread nD τ).loc main_arg20) :=
  (W4_of_ne m ρ c main_arg20 (by decide)).trans (arg20_at3 m ρ c)
theorem arg20_at5 (c : Dev nD) : W5 m ρ c (Proc.devRef .tc main_arg20) = m ((c : Thread nD τ).loc main_arg20) :=
  (StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at4 m ρ c)
theorem arg20_at6 (c : Dev nD) : W6 m ρ c (Proc.devRef .tc main_arg20) = m ((c : Thread nD τ).loc main_arg20) :=
  (W6_of_ne m ρ c main_arg20 (by decide)).trans (arg20_at5 m ρ c)
theorem arg20_at7 (c : Dev nD) : W7 m ρ c (Proc.devRef .tc main_arg20) = m ((c : Thread nD τ).loc main_arg20) :=
  (StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at6 m ρ c)
theorem arg20_at8 (c : Dev nD) : W8 m ρ c (Proc.devRef .tc main_arg20) = m ((c : Thread nD τ).loc main_arg20) :=
  (W8_of_ne m ρ c main_arg20 (by decide)).trans (arg20_at7 m ρ c)
theorem arg20_at9 (c : Dev nD) : W9 m ρ c (Proc.devRef .tc main_arg20) = m ((c : Thread nD τ).loc main_arg20) :=
  (StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at8 m ρ c)
theorem arg20_at10 (c : Dev nD) : W10 m ρ c (Proc.devRef .tc main_arg20) = m ((c : Thread nD τ).loc main_arg20) :=
  (W10_of_ne m ρ c main_arg20 (by decide)).trans (arg20_at9 m ρ c)
theorem arg20_at11 (c : Dev nD) : W11 m ρ c (Proc.devRef .tc main_arg20) = m ((c : Thread nD τ).loc main_arg20) :=
  (StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at10 m ρ c)
theorem arg20_at12 (c : Dev nD) : W12 m ρ c (Proc.devRef .tc main_arg20) = m ((c : Thread nD τ).loc main_arg20) :=
  (W12_of_ne m ρ c main_arg20 (by decide)).trans (arg20_at11 m ρ c)
theorem arg20_at13 (c : Dev nD) : W13 m ρ c (Proc.devRef .tc main_arg20) = m ((c : Thread nD τ).loc main_arg20) :=
  (StableHlo.after_of_forall_not_mem (b := Proc.devRef .tc main_arg20) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at12 m ρ c)
theorem arg20_at14 (c : Dev nD) : W14 m ρ c (Proc.devRef .tc main_arg20) = m ((c : Thread nD τ).loc main_arg20) :=
  (W14_of_ne m ρ c main_arg20 (by decide)).trans (arg20_at13 m ρ c)
theorem arg20_at15 (c : Dev nD) : W15 m ρ c (Proc.devRef .tc main_arg20) = m ((c : Thread nD τ).loc main_arg20) :=
  (StableHlo.after_of_forall_not_mem (b := Proc.devRef .tc main_arg20) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at14 m ρ c)
theorem arg20_at16 (c : Dev nD) : W16 m ρ c (Proc.devRef .tc main_arg20) = m ((c : Thread nD τ).loc main_arg20) :=
  (W16_of_ne m ρ c main_arg20 (by decide)).trans (arg20_at15 m ρ c)
theorem arg20_at17 (c : Dev nD) : W17 m ρ c (Proc.devRef .tc main_arg20) = m ((c : Thread nD τ).loc main_arg20) :=
  (StableHlo.after_of_forall_not_mem (b := Proc.devRef .tc main_arg20) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at16 m ρ c)
theorem arg20_at18 (c : Dev nD) : W18 m ρ c (Proc.devRef .tc main_arg20) = m ((c : Thread nD τ).loc main_arg20) :=
  (W18_of_ne m ρ c main_arg20 (by decide)).trans (arg20_at17 m ρ c)
theorem arg20_at19 (c : Dev nD) : W19 m ρ c (Proc.devRef .tc main_arg20) = m ((c : Thread nD τ).loc main_arg20) :=
  (StableHlo.after_of_forall_not_mem (b := Proc.devRef .tc main_arg20) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at18 m ρ c)
theorem arg20_at20 (c : Dev nD) : W20 m ρ c (Proc.devRef .tc main_arg20) = m ((c : Thread nD τ).loc main_arg20) :=
  (W20_of_ne m ρ c main_arg20 (by decide)).trans (arg20_at19 m ρ c)
theorem arg20_at21 (c : Dev nD) : W21 m ρ c (Proc.devRef .tc main_arg20) = m ((c : Thread nD τ).loc main_arg20) :=
  (StableHlo.after_of_forall_not_mem (b := Proc.devRef .tc main_arg20) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (arg20_at20 m ρ c)
theorem arg20_at22 (c : Dev nD) : W22 m ρ c (Proc.devRef .tc main_arg20) = m ((c : Thread nD τ).loc main_arg20) :=
  (W22_of_ne m ρ c main_arg20 (by decide)).trans (arg20_at21 m ρ c)
theorem arg20_at23 (c : Dev nD) : W23 m ρ c (Proc.devRef .tc main_arg20) = m ((c : Thread nD τ).loc main_arg20) :=
  (W23_of_ne m ρ c main_arg20 (by decide)).trans (arg20_at22 m ρ c)

end Cert.KernelIdeal.Fold

end
-- ==== Proof.LibPlainDot.lean ====
/-
  A PLAIN MATRIX PRODUCT READ AT AN INDEX.

  A product of an `M × K` by a `K × N` matrix with no batch axis (left operand contracted on its last axis, right
  operand on its first) has one contraction axis of extent `K`. At the exact instance both the matrix unit's product into
  a zero accumulator and the host's `dot_general` are, at the output index `(p, q)`, the plain sum over `k` of the left
  operand at `(p, k)` times the right operand at `(k, q)`.
-/
import Idealize.ShloMosaic.PureOps
import Idealize.ShloMosaic.PureOps.Ideal.Laws
import Idealize.ShloMosaic.Lib.ValueIdx

namespace Idealize.PlainDot

open Idealize.ShloMosaic Idealize.ShloMosaic.ValueIdx

/-- Dimension numbers with the plain fields are `DotDims.plain` (whatever proof of their conditions they carry). -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- THE CONTRACTION AS A PLAIN SUM: over the one contraction axis of a plain product, the sum of the products of the
    operands at the dot's operand indices for output `(p, q)` is the sum over `k : Fin K` of `l (p, k) * r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- THE MATRIX UNIT'S PRODUCT INTO A ZERO ACCUMULATOR, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant (⟨2, ![M, N]⟩ : Shape) .f32 0x00000000#32) (ix2 p q)
      = ∑ k : Fin K, l (ix2 p k) * r (ix2 k q) := by
  subst hd
  show FloatOps.matmul _ prec l r _ _ = _
  rw [Ideal.matmul_constant_zero_apply]
  exact plain_sum l r p q

/-- THE HOST'S `dot_general`, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Idealize.PlainDot
-- ==== Proof.LibSageLin.lean ====
/-
  A DENSE LAYER READ AT AN INDEX, ON THE EXTENDED REALS.

  For a row table `a` of shape [R, K], a weight matrix `W` of shape [K, C] and a bias row `b` of shape [1, C], the layer
  `a · W + b` has at the entry (p, q) the value  ∑ₖ a(p, k) · W(k, q) + b(0, q)   (`lin1`); the two-sided layer
  `a · Wl + b + x · Wr` adds the second product to it, in that order (`lin2`); the rectifier is the pointwise maximum with
  the value of the all-zero float word (`relu`).

  Two spellings of the one-sided layer are read here at an index, both by the plain-product law: a matrix unit's
  product into a zero accumulator plus a bias row broadcast over the rows (`tile_lin1`), and a host `dot_general` plus any
  array whose every row is the bias row (`host_lin1`). The bias row of a rank-1 vector is `row v`: the vector's
  reshape to [1, C] (`shapeCast_row`), and the row every line of its two-step broadcast to [R, C] holds
  (`bcast_row_apply`). Because both spellings are the same sums in the same order, no finiteness is needed anywhere.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«123412_j7670811591308_1_alg».proof.Proof.LibPlainDot

noncomputable section

namespace Idealize.SageLin

open Idealize.ShloMosaic Idealize.ShloMosaic.ValueIdx

/-- An [R, C] array of extended reals. -/
abbrev Mat (R C : Nat) := (⟨2, ![R, C]⟩ : Shape).Idx → EReal

/-- `a · W + b` at (p, q): the sum over k of a(p, k) · W(k, q), plus the bias row at q. -/
def lin1 {R K C : Nat} (a : Mat R K) (W : Mat K C) (b : Mat 1 C) : Mat R C :=
  fun i => (∑ k : Fin K, a (ix2 (i 0) k) * W (ix2 k (i 1))) + b (ix2 (0 : Fin 1) (i 1))

/-- `a · Wl + b + x · Wr` at (p, q), the second product added last. -/
def lin2 {R K C : Nat} (a x : Mat R K) (Wl : Mat K C) (b : Mat 1 C) (Wr : Mat K C) : Mat R C :=
  fun i => lin1 a Wl b i + ∑ k : Fin K, x (ix2 (i 0) k) * Wr (ix2 k (i 1))

/-- The rectifier: the pointwise maximum with the value of the all-zero float word. -/
def relu {R C : Nat} (v : Mat R C) : Mat R C := fun i => max (v i) (Ideal.ofBits .f32 0x00000000#32 : EReal)

/-- A rank-1 vector as a bias row. -/
def row {C : Nat} (v : (⟨1, ![C]⟩ : Shape).Idx → EReal) : Mat 1 C := fun i => v (ix1 (i 1))

theorem lin1_apply {R K C : Nat} (a : Mat R K) (W : Mat K C) (b : Mat 1 C) (p : Fin R) (q : Fin C) :
    lin1 a W b (ix2 p q) = (∑ k : Fin K, a (ix2 p k) * W (ix2 k q)) + b (ix2 (0 : Fin 1) q) := rfl

theorem lin2_apply {R K C : Nat} (a x : Mat R K) (Wl : Mat K C) (b : Mat 1 C) (Wr : Mat K C) (p : Fin R) (q : Fin C) :
    lin2 a x Wl b Wr (ix2 p q)
      = (∑ k : Fin K, a (ix2 p k) * Wl (ix2 k q)) + b (ix2 (0 : Fin 1) q) + ∑ k : Fin K, x (ix2 p k) * Wr (ix2 k q) := rfl

/-- The matrix unit's product into a zero accumulator, plus the bias row broadcast over the rows, is `lin1`. -/
theorem tile_lin1 {T K C : Nat} {φ₁ φ₂ : FTy} (d : DotDims ⟨2, ![T, K]⟩ ⟨2, ![K, C]⟩ ⟨2, ![T, C]⟩)
    (hd : d = DotDims.plain T K C) (prec : Option ContractPrecision)
    (x : FVec Ideal ⟨2, ![T, K]⟩ φ₁) (W : FVec Ideal ⟨2, ![K, C]⟩ φ₂) (b : FVec Ideal ⟨2, ![1, C]⟩ .f32)
    (hb : (⟨2, ![1, C]⟩ : Shape).Broadcasts ⟨2, ![T, C]⟩) :
    addf (matmul d prec x W (constant (⟨2, ![T, C]⟩ : Shape) .f32 0x00000000#32)) (broadcastTo ⟨2, ![T, C]⟩ b hb)
      = lin1 x W b := by
  funext i
  obtain ⟨p, q, rfl⟩ : ∃ (p : Fin T) (q : Fin C), i = ix2 p q := ⟨i 0, i 1, eq_ix2 i⟩
  rw [addf_apply, Idealize.PlainDot.matmul_zero_apply d hd prec x W p q, broadcastTo_1b_ab_apply b hb p q]
  rfl

/-- The host's `dot_general` plus an array whose every row is the bias row is `lin1`. -/
theorem host_lin1 {R K C : Nat} {φ₁ φ₂ : FTy} (d : DotDims ⟨2, ![R, K]⟩ ⟨2, ![K, C]⟩ ⟨2, ![R, C]⟩)
    (hd : d = DotDims.plain R K C) (prec : Option ContractPrecision)
    (a : FVec Ideal ⟨2, ![R, K]⟩ φ₁) (W : FVec Ideal ⟨2, ![K, C]⟩ φ₂) (bb : FVec Ideal ⟨2, ![R, C]⟩ .f32) (b : Mat 1 C)
    (hbb : ∀ (p : Fin R) (q : Fin C), bb (ix2 p q) = b (ix2 (0 : Fin 1) q)) :
    addf (Host.dotGeneral d prec a W) bb = lin1 a W b := by
  funext i
  obtain ⟨p, q, rfl⟩ : ∃ (p : Fin R) (q : Fin C), i = ix2 p q := ⟨i 0, i 1, eq_ix2 i⟩
  rw [addf_apply, Idealize.PlainDot.dotGeneral_apply d hd prec a W p q, hbb p q]
  rfl

/-- Adding a second matrix-unit product to `lin1` gives `lin2`. -/
theorem tile_lin2 {T K C : Nat} {φ₁ φ₂ : FTy} (d : DotDims ⟨2, ![T, K]⟩ ⟨2, ![K, C]⟩ ⟨2, ![T, C]⟩)
    (hd : d = DotDims.plain T K C) (prec : Option ContractPrecision) (a : Mat T K) (Wl : Mat K C) (b : Mat 1 C)
    (x : FVec Ideal ⟨2, ![T, K]⟩ φ₁) (Wr : FVec Ideal ⟨2, ![K, C]⟩ φ₂) :
    addf (F := Ideal) (φ := .f32) (lin1 a Wl b) (matmul d prec x Wr (constant (⟨2, ![T, C]⟩ : Shape) .f32 0x00000000#32))
      = lin2 a x Wl b Wr := by
  funext i
  obtain ⟨p, q, rfl⟩ : ∃ (p : Fin T) (q : Fin C), i = ix2 p q := ⟨i 0, i 1, eq_ix2 i⟩
  rw [addf_apply, Idealize.PlainDot.matmul_zero_apply d hd prec x Wr p q]
  rfl

/-- Adding a second host product to `lin1` gives `lin2`. -/
theorem host_lin2 {R K C : Nat} {φ₁ φ₂ : FTy} (d : DotDims ⟨2, ![R, K]⟩ ⟨2, ![K, C]⟩ ⟨2, ![R, C]⟩)
    (hd : d = DotDims.plain R K C) (prec : Option ContractPrecision) (a : Mat R K) (Wl : Mat K C) (b : Mat 1 C)
    (x : FVec Ideal ⟨2, ![R, K]⟩ φ₁) (Wr : FVec Ideal ⟨2, ![K, C]⟩ φ₂) :
    addf (F := Ideal) (φ := .f32) (lin1 a Wl b) (Host.dotGeneral d prec x Wr) = lin2 a x Wl b Wr := by
  funext i
  obtain ⟨p, q, rfl⟩ : ∃ (p : Fin R) (q : Fin C), i = ix2 p q := ⟨i 0, i 1, eq_ix2 i⟩
  rw [addf_apply, Idealize.PlainDot.dotGeneral_apply d hd prec x Wr p q]
  rfl

/-- The maximum with a splat of the zero word (a scalar broadcast) is the rectifier. -/
theorem max_splat_relu {R C : Nat} (v : Mat R C) :
    maximumf (F := Ideal) (φ := .f32) v (broadcast (⟨2, ![R, C]⟩ : Shape) (Scalar.ofBits (F := Ideal) .f32 0x00000000#32)) = relu v := by
  funext i
  rfl

/-- The maximum with any array that holds the zero word's value everywhere is the rectifier. -/
theorem max_zero_relu {R C : Nat} (v : Mat R C) (z : FVec Ideal ⟨2, ![R, C]⟩ .f32)
    (hz : ∀ i, z i = (Ideal.ofBits .f32 0x00000000#32 : EReal)) : maximumf (F := Ideal) (φ := .f32) v z = relu v := by
  funext i
  rw [maximumf_apply, hz i]
  rfl

/-- A rank-1 vector reshaped to [1, C] is its bias row. -/
theorem shapeCast_row {C : Nat} (v : (⟨1, ![C]⟩ : Shape).Idx → EReal) (h : (⟨1, ![C]⟩ : Shape).ShapeCasts ⟨2, ![1, C]⟩) :
    shapeCast ⟨2, ![1, C]⟩ v h = row v := by
  funext i
  obtain ⟨u, q, rfl⟩ : ∃ (u : Fin 1) (q : Fin C), i = ix2 u q := ⟨i 0, i 1, eq_ix2 i⟩
  rw [shapeCast_a_1a_apply v h u q]
  rfl

/-- `lin1` at two entries agrees when the rows, the weight columns and the bias entries they read agree. -/
theorem lin1_congr {R T K C C' : Nat} (A : Mat R K) (WL : Mat K C') (B : Mat 1 C') (a : Mat T K) (wl : Mat K C) (b : Mat 1 C)
    (p : Fin T) (q : Fin C) (P : Fin R) (Q : Fin C')
    (ha : ∀ k : Fin K, a (ix2 p k) = A (ix2 P k)) (hwl : ∀ k : Fin K, wl (ix2 k q) = WL (ix2 k Q))
    (hb : b (ix2 (0 : Fin 1) q) = B (ix2 (0 : Fin 1) Q)) :
    lin1 a wl b (ix2 p q) = lin1 A WL B (ix2 P Q) := by
  rw [lin1_apply, lin1_apply, hb]
  exact congrArg (· + B (ix2 (0 : Fin 1) Q)) (Finset.sum_congr rfl fun k _ => by rw [ha k, hwl k])

/-- `lin2` at two entries agrees when the rows, the weight columns and the bias entries they read agree. -/
theorem lin2_congr {R T K C C' : Nat} (A X : Mat R K) (WL : Mat K C') (B : Mat 1 C') (WR : Mat K C')
    (a x : Mat T K) (wl : Mat K C) (b : Mat 1 C) (wr : Mat K C)
    (p : Fin T) (q : Fin C) (P : Fin R) (Q : Fin C')
    (ha : ∀ k : Fin K, a (ix2 p k) = A (ix2 P k)) (hx : ∀ k : Fin K, x (ix2 p k) = X (ix2 P k))
    (hwl : ∀ k : Fin K, wl (ix2 k q) = WL (ix2 k Q)) (hwr : ∀ k : Fin K, wr (ix2 k q) = WR (ix2 k Q))
    (hb : b (ix2 (0 : Fin 1) q) = B (ix2 (0 : Fin 1) Q)) :
    lin2 a x wl b wr (ix2 p q) = lin2 A X WL B WR (ix2 P Q) := by
  rw [lin2_apply, lin2_apply, hb,
    Finset.sum_congr rfl (fun k _ => by rw [ha k, hwl k] :
      ∀ k ∈ (Finset.univ : Finset (Fin K)), a (ix2 p k) * wl (ix2 k q) = A (ix2 P k) * WL (ix2 k Q)),
    Finset.sum_congr rfl (fun k _ => by rw [hx k, hwr k] :
      ∀ k ∈ (Finset.univ : Finset (Fin K)), x (ix2 p k) * wr (ix2 k q) = X (ix2 P k) * WR (ix2 k Q))]

theorem relu_apply {R C : Nat} (v : Mat R C) (i : (⟨2, ![R, C]⟩ : Shape).Idx) :
    relu v i = max (v i) (Ideal.ofBits .f32 0x00000000#32 : EReal) := rfl

/-- Every line of a rank-1 vector's two-step broadcast to [R, C] (first to [1, C], then over the rows) is its bias row. -/
theorem bcast_row_apply {R C : Nat} (v : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 v) (ix2 p q) = row v (ix2 (0 : Fin 1) q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  rw [broadcastInDim_apply ![1] h1 v (ix2 (0 : Fin 1) q) (ix1 q) (fun a => by
    match a with
    | ⟨0, _⟩ =>
      show q.val = if C = 1 then 0 else q.val
      split
      · have := q.isLt; omega
      · rfl)]
  rfl

/-- A scalar float constant broadcast to any shape holds the constant's value everywhere. -/
theorem bcast_const_apply {S : Shape} (h : (⟨0, ![]⟩ : Shape).BroadcastsInDim S ![]) (w : BitVec 32) (i : S.Idx) :
    broadcastInDim S ![] h (constant (F := Ideal) ⟨0, ![]⟩ .f32 w) i = (Ideal.ofBits .f32 w : EReal) := by
  rw [broadcastInDim_apply ![] h _ i ix0 (fun a => a.elim0)]
  rfl

end Idealize.SageLin

end
-- ==== Proof.LibRowTiles.lean ====
/-
  ROW-TILED DENSE LAYERS ON THE EXTENDED REALS: the entries a tile of rows computes are the whole array's entries.

  A dense layer  a · W + b  (`Idealize.SageLin.lin1`) computed on a tile of `T` consecutive rows of an [R, K] table reads, for
  its entry (p, q), only row p of the tile, column q of the weights and entry q of the bias row; when the tile's row p is
  the table's row P the entry is the whole layer's entry (P, q) (`lin1_at`). The same for the layer that only adds a bias
  row, `x + b` (`addRow`, `addRow_at`). With an all-zero bias row the layer is the bare product, which is the host's
  `dot_general` (`dot_eq_lin1_of_zero`): x + 0 = x holds for every extended real, so no finiteness is needed.
  Both spellings of `addRow` are read at an index: the vector unit's broadcast of a [1, C] row (`tile_addRow`) and any
  host array whose rows are the bias row (`host_addRow`). The last four lemmas state each layer in the host's own spelling
  (`dot_general`, the bias vector broadcast in two steps, the maximum with a broadcast zero): `lin1_zero_row_eq_dot`,
  `lin1_eq_host`, `relu_lin1_eq_host`, `relu_addRow_eq_host`.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«123412_j7670811591308_1_alg».proof.Proof.LibSageLin

noncomputable section

namespace Idealize.RowTiles

open Idealize.ShloMosaic Idealize.ShloMosaic.ValueIdx Idealize.SageLin

/-- The value of the all-zero float word is the real zero. -/
theorem zero_word : (Ideal.ofBits .f32 0x00000000#32 : EReal) = 0 := Ideal.ofBits_zero_f32

/-- `x + b`: a bias row added to every row of an [R, C] array. -/
def addRow {R C : Nat} (x : Mat R C) (b : Mat 1 C) : Mat R C := fun i => x i + b (ix2 (0 : Fin 1) (i 1))

theorem addRow_apply {R C : Nat} (x : Mat R C) (b : Mat 1 C) (i : (⟨2, ![R, C]⟩ : Shape).Idx) :
    addRow x b i = x i + b (ix2 (0 : Fin 1) (i 1)) := rfl

/-- An entry of `lin1` on a tile is the entry of `lin1` on the whole table it is a tile of, when the tile's row, the
    weight column and the bias entry read are the table's. -/
theorem lin1_at {R T K C : Nat} (X : Mat R K) (W : Mat K C) (B : Mat 1 C) (x : Mat T K) (w : Mat K C) (b : Mat 1 C)
    (j : (⟨2, ![T, C]⟩ : Shape).Idx) (i : (⟨2, ![R, C]⟩ : Shape).Idx)
    (hx : ∀ k : Fin K, x (ix2 (j 0) k) = X (ix2 (i 0) k))
    (hw : ∀ k : Fin K, w (ix2 k (j 1)) = W (ix2 k (i 1)))
    (hb : b (ix2 (0 : Fin 1) (j 1)) = B (ix2 (0 : Fin 1) (i 1))) :
    lin1 x w b j = lin1 X W B i := by
  show (∑ k : Fin K, x (ix2 (j 0) k) * w (ix2 k (j 1))) + b (ix2 (0 : Fin 1) (j 1))
      = (∑ k : Fin K, X (ix2 (i 0) k) * W (ix2 k (i 1))) + B (ix2 (0 : Fin 1) (i 1))
  rw [hb]
  exact congrArg (· + B (ix2 (0 : Fin 1) (i 1))) (Finset.sum_congr rfl fun k _ => by rw [hx k, hw k])

/-- The same for the rectified layer. -/
theorem relu_lin1_at {R T K C : Nat} (X : Mat R K) (W : Mat K C) (B : Mat 1 C) (x : Mat T K) (w : Mat K C) (b : Mat 1 C)
    (j : (⟨2, ![T, C]⟩ : Shape).Idx) (i : (⟨2, ![R, C]⟩ : Shape).Idx)
    (hx : ∀ k : Fin K, x (ix2 (j 0) k) = X (ix2 (i 0) k))
    (hw : ∀ k : Fin K, w (ix2 k (j 1)) = W (ix2 k (i 1)))
    (hb : b (ix2 (0 : Fin 1) (j 1)) = B (ix2 (0 : Fin 1) (i 1))) :
    relu (lin1 x w b) j = relu (lin1 X W B) i := by
  rw [relu_apply, relu_apply, lin1_at X W B x w b j i hx hw hb]

/-- An entry of `x + b` on a tile is the entry on the whole array when the entry of `x` and the bias entry are. -/
theorem addRow_at {R T C : Nat} (X : Mat R C) (B : Mat 1 C) (x : Mat T C) (b : Mat 1 C)
    (j : (⟨2, ![T, C]⟩ : Shape).Idx) (i : (⟨2, ![R, C]⟩ : Shape).Idx)
    (hx : x j = X i) (hb : b (ix2 (0 : Fin 1) (j 1)) = B (ix2 (0 : Fin 1) (i 1))) :
    addRow x b j = addRow X B i := by
  rw [addRow_apply, addRow_apply, hx, hb]

theorem relu_addRow_at {R T C : Nat} (X : Mat R C) (B : Mat 1 C) (x : Mat T C) (b : Mat 1 C)
    (j : (⟨2, ![T, C]⟩ : Shape).Idx) (i : (⟨2, ![R, C]⟩ : Shape).Idx)
    (hx : x j = X i) (hb : b (ix2 (0 : Fin 1) (j 1)) = B (ix2 (0 : Fin 1) (i 1))) :
    relu (addRow x b) j = relu (addRow X B) i := by
  rw [relu_apply, relu_apply, addRow_at X B x b j i hx hb]

/-- The vector unit's sum of a tile with a [1, C] row broadcast over its rows is `addRow`. -/
theorem tile_addRow {T C : Nat} (x : FVec Ideal ⟨2, ![T, C]⟩ .f32) (b : FVec Ideal ⟨2, ![1, C]⟩ .f32)
    (hb : (⟨2, ![1, C]⟩ : Shape).Broadcasts ⟨2, ![T, C]⟩) :
    addf x (broadcastTo ⟨2, ![T, C]⟩ b hb) = addRow x b := by
  funext i
  obtain ⟨p, q, rfl⟩ : ∃ (p : Fin T) (q : Fin C), i = ix2 p q := ⟨i 0, i 1, eq_ix2 i⟩
  rw [addf_apply, broadcastTo_1b_ab_apply b hb p q]
  rfl

/-- The host's sum of an array with any array whose every row is the bias row is `addRow`. -/
theorem host_addRow {R C : Nat} (x : FVec Ideal ⟨2, ![R, C]⟩ .f32) (bb : FVec Ideal ⟨2, ![R, C]⟩ .f32) (b : Mat 1 C)
    (hbb : ∀ (p : Fin R) (q : Fin C), bb (ix2 p q) = b (ix2 (0 : Fin 1) q)) :
    addf x bb = addRow x b := by
  funext i
  obtain ⟨p, q, rfl⟩ : ∃ (p : Fin R) (q : Fin C), i = ix2 p q := ⟨i 0, i 1, eq_ix2 i⟩
  rw [addf_apply, hbb p q]
  rfl

/-- With a bias row that is zero everywhere the layer is the bare product: the host's `dot_general`. -/
theorem dot_eq_lin1_of_zero {R K C : Nat} {φ₁ φ₂ : FTy} (d : DotDims ⟨2, ![R, K]⟩ ⟨2, ![K, C]⟩ ⟨2, ![R, C]⟩)
    (hd : d = DotDims.plain R K C) (prec : Option ContractPrecision)
    (a : FVec Ideal ⟨2, ![R, K]⟩ φ₁) (W : FVec Ideal ⟨2, ![K, C]⟩ φ₂) (b : Mat 1 C)
    (hb : ∀ q : Fin C, b (ix2 (0 : Fin 1) q) = 0) :
    Host.dotGeneral d prec a W = lin1 a W b := by
  funext i
  obtain ⟨p, q, rfl⟩ : ∃ (p : Fin R) (q : Fin C), i = ix2 p q := ⟨i 0, i 1, eq_ix2 i⟩
  rw [Idealize.PlainDot.dotGeneral_apply d hd prec a W p q, lin1_apply, hb q, add_zero]

/-- The bias row of the host's all-zero vector is zero at every entry. -/
theorem row_zero {C : Nat} (h : (⟨0, ![]⟩ : Shape).BroadcastsInDim ⟨1, ![C]⟩ ![]) (q : Fin C) :
    row (broadcastInDim ⟨1, ![C]⟩ ![] h (constant (F := Ideal) ⟨0, ![]⟩ .f32 0x00000000#32)) (ix2 (0 : Fin 1) q) = 0 :=
  (bcast_const_apply h _ (ix1 q)).trans zero_word

/-- THE BARE PRODUCT: the layer with the host's all-zero bias row is the host's `dot_general`. -/
theorem lin1_zero_row_eq_dot {R K C : Nat} {φ₁ φ₂ : FTy} (d : DotDims ⟨2, ![R, K]⟩ ⟨2, ![K, C]⟩ ⟨2, ![R, C]⟩)
    (hd : d = DotDims.plain R K C) (prec : Option ContractPrecision)
    (a : FVec Ideal ⟨2, ![R, K]⟩ φ₁) (W : FVec Ideal ⟨2, ![K, C]⟩ φ₂)
    (h : (⟨0, ![]⟩ : Shape).BroadcastsInDim ⟨1, ![C]⟩ ![]) :
    lin1 a W (row (broadcastInDim ⟨1, ![C]⟩ ![] h (constant (F := Ideal) ⟨0, ![]⟩ .f32 0x00000000#32)))
      = Host.dotGeneral d prec a W :=
  (dot_eq_lin1_of_zero d hd prec a W _ (fun q => row_zero h q)).symm

/-- THE PRODUCT PLUS BIAS, HOST SPELLING: `dot_general` plus the bias vector broadcast in two steps to every row. -/
theorem lin1_eq_host {R K C : Nat} {φ₁ φ₂ : FTy} (d : DotDims ⟨2, ![R, K]⟩ ⟨2, ![K, C]⟩ ⟨2, ![R, C]⟩)
    (hd : d = DotDims.plain R K C) (prec : Option ContractPrecision)
    (a : FVec Ideal ⟨2, ![R, K]⟩ φ₁) (W : FVec Ideal ⟨2, ![K, C]⟩ φ₂) (v : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1]) :
    lin1 a W (row v)
      = addf (F := Ideal) (φ := .f32) (Host.dotGeneral d prec a W)
          (broadcastInDim ⟨2, ![R, C]⟩ ![0, 1] h2 (broadcastInDim ⟨2, ![1, C]⟩ ![1] h1 v)) :=
  (host_lin1 d hd prec a W _ (row v) (fun p q => bcast_row_apply v h1 h2 p q)).symm

/-- The same rectified: the maximum with the host's broadcast zero. -/
theorem relu_lin1_eq_host {R K C : Nat} {φ₁ φ₂ : FTy} (d : DotDims ⟨2, ![R, K]⟩ ⟨2, ![K, C]⟩ ⟨2, ![R, C]⟩)
    (hd : d = DotDims.plain R K C) (prec : Option ContractPrecision)
    (a : FVec Ideal ⟨2, ![R, K]⟩ φ₁) (W : FVec Ideal ⟨2, ![K, C]⟩ φ₂) (v : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1])
    (h0 : (⟨0, ![]⟩ : Shape).BroadcastsInDim ⟨2, ![R, C]⟩ ![]) :
    relu (lin1 a W (row v))
      = maximumf (F := Ideal) (φ := .f32)
          (addf (F := Ideal) (φ := .f32) (Host.dotGeneral d prec a W)
            (broadcastInDim ⟨2, ![R, C]⟩ ![0, 1] h2 (broadcastInDim ⟨2, ![1, C]⟩ ![1] h1 v)))
          (broadcastInDim ⟨2, ![R, C]⟩ ![] h0 (constant (F := Ideal) ⟨0, ![]⟩ .f32 0x00000000#32)) := by
  rw [← lin1_eq_host d hd prec a W v h1 h2]
  exact (max_zero_relu _ _ (fun i => bcast_const_apply h0 _ i)).symm

/-- THE BIAS-AND-RECTIFIER STEP, HOST SPELLING: the maximum of the sum with the broadcast bias and the broadcast zero. -/
theorem relu_addRow_eq_host {R C : Nat} (x : FVec Ideal ⟨2, ![R, C]⟩ .f32) (v : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1])
    (h0 : (⟨0, ![]⟩ : Shape).BroadcastsInDim ⟨2, ![R, C]⟩ ![]) :
    relu (addRow x (row v))
      = maximumf (F := Ideal) (φ := .f32)
          (addf (F := Ideal) (φ := .f32) x (broadcastInDim ⟨2, ![R, C]⟩ ![0, 1] h2 (broadcastInDim ⟨2, ![1, C]⟩ ![1] h1 v)))
          (broadcastInDim ⟨2, ![R, C]⟩ ![] h0 (constant (F := Ideal) ⟨0, ![]⟩ .f32 0x00000000#32)) := by
  rw [host_addRow x _ (row v) (fun p q => bcast_row_apply v h1 h2 p q)]
  exact (max_zero_relu _ _ (fun i => bcast_const_apply h0 _ i)).symm

end Idealize.RowTiles

end
-- ==== Proof.Reg0.lean ====
/-
  Region 0: the array it leaves.

  The grid has 128 points; point t works on rows 4096·t … 4096·t + 4095 of a [524288, 336] table, the whole [336, 100] weight matrix and the whole
  [100] bias row, and writes the same rows of the [524288, 100] result. Entry (p, q) of a tile reads only the tile's row p, so it is
  entry (4096·t + p, q) of the whole-array layer  X · W + b ; the 128 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity and the accumulator starts at zero). -/
theorem pay_eq (x0 : Vec Ideal S4096x336 .f32) (x1 : Vec Ideal S336x100 .f32) (x2 : Vec Ideal S100 .f32) :
    k0_pay1 x0 x1 x2 = lin1 x0 x1 (row x2) := by
  unfold k0_pay1
  dsimp only
  simp only [shapeCast_self]
  rw [shapeCast_row]
  exact tile_lin1 _ (Idealize.PlainDot.eq_plain _ rfl rfl rfl rfl rfl rfl) none x0 x1 (row x2) _

/-- The printed index maps over the grid: the table's and the result's tiles move together along the rows, the rest is fetched whole. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0 :=
  (by decide +kernel : ∀ t : Fin grid0.N, _)

/-- Every block of rows is some point's. -/
theorem idx_onto : ∀ q0 : Fin 128, ∃ t : Fin cfg0.N, win0_3.index t = ![q0.val, 0] :=
  (by decide +kernel : ∀ q0 : Fin 128, ∃ t : Fin grid0.N, win0_3.index t = ![q0.val, 0])

/-- What point t writes back is block t of the whole-array layer of the arrays as the region finds them. -/
theorem flushed_eq (c : Dev nD) (t : Fin cfg0.N) :
    (dat0 V c).flushed 3 t = ((cfg0.win 3).blk t).view.read (Elt Ideal)
      (lin1 (R := 524288) (K := 336) (C := 100) (V c main_arg0) (V c main_arg5) (row (V c main_v0))) := by
  show (cfg0.win 3).cut (grid0.coords t) ((dat0 V c).after 3 t) = _
  rw [after0_3]
  unfold out0_3
  rw [View.canon_unit_zero hz2]
  simp only [View.ld_unit_zero (S := S4096x336) hz2, View.ld_unit_zero (S := S336x100) hz2, View.ld_unit_zero (S := S100) hz1]
  rw [pay_eq]
  obtain ⟨e0, e1, e2, e3, e4, e5⟩ := idx_facts t
  funext j
  show (lin1 (R := 4096) (K := 336) (C := 100) (iblk0 V c 0 t) (iblk0 V c 1 t) (row (iblk0 V c 2 t))) j
      = (lin1 (R := 524288) (K := 336) (C := 100) (V c main_arg0) (V c main_arg5) (row (V c main_v0))) (((cfg0.win 3).blk t).view.emb j)
  refine lin1_at _ _ _ _ _ _ j _ (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 336 + 1 * k.val = k.val; omega
  · show V c main_arg5 (((cfg0.win 1).blk t).view.emb (ix2 k (j 1))) = V c main_arg5 (ix2 k ((((cfg0.win 3).blk t).view.emb j) 1))
    refine congrArg (V c main_arg5) (funext fun a => Fin.ext ?_)
    match a with
    | ⟨0, _⟩ => show win0_1.index t (0 : Fin 2) * 336 + 1 * k.val = k.val; omega
    | ⟨1, _⟩ => show win0_1.index t (1 : Fin 2) * 100 + 1 * (j 1).val = win0_3.index t (1 : Fin 2) * 100 + 1 * (j 1).val; omega
  · show V c main_v0 (((cfg0.win 2).blk t).view.emb (ix1 (j 1))) = V c main_v0 (ix1 ((((cfg0.win 3).blk t).view.emb j) 1))
    refine congrArg (V c main_v0) (funext fun a => Fin.ext ?_)
    match a with
    | ⟨0, _⟩ => show win0_2.index t (0 : Fin 1) * 100 + 1 * (j 1).val = win0_3.index t (1 : Fin 2) * 100 + 1 * (j 1).val; omega

/-- An index of the result array is in point t's block iff each coordinate is in the block's range on its axis. -/
theorem mem_blk (t : Fin cfg0.N) (i : S524288x100.Idx) :
    i ∈ ((cfg0.win 3).blk t).view.set ↔ ∀ a : Fin 2, win0_3.index t a * S4096x100.size a ≤ (i a).val ∧ (i a).val < win0_3.index t a * S4096x100.size a + S4096x100.size a := by
  show i ∈ ((View.whole main_v1).slice (win0_3.rect t)).set ↔ _
  rw [View.set_slice_whole, Rect.mem_set_unit]
  exact Iff.rfl

/-- The blocks cover the result array: row r is in the block of point r / 4096. -/
theorem cover (i : S524288x100.Idx) : ∃ t : Fin cfg0.N, (cfg0.win 3).flush t = true ∧ i ∈ ((cfg0.win 3).blk t).view.set := by
  have hi0 : (i 0).val < 524288 := (i 0).isLt
  have hi1 : (i 1).val < 100 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 100 ≤ (i 1).val ∧ (i 1).val < win0_3.index t (1 : Fin 2) * 100 + 100; omega

/-- The array the region leaves: the whole-array layer of the arrays as the region finds them. -/
theorem value (c : Dev nD) : (dat0 V c).arrAt 3 cfg0.N
    = lin1 (R := 524288) (K := 336) (C := 100) (V c main_arg0) (V c main_arg5) (row (V c main_v0)) :=
  (dat0 V c).arrAt_eq_of_cover 3 _ (fun t _ => flushed_eq V c t) cover

end Cert.KernelIdeal.Reg0

end
-- ==== Proof.Reg1.lean ====
/-
  Region 1: the array it leaves.

  The grid has 128 points; point t works on rows 4096·t … 4096·t + 4095 of a [524288, 100] table and the whole
  [100] bias row, and writes the same rows of the [524288, 100] result. Entry (p, q) of a tile reads only the tile's row p, so it is
  entry (4096·t + p, q) of the whole-array layer  max(X + b, 0) ; the 128 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity). -/
theorem pay_eq (x0 : Vec Ideal S4096x100 .f32) (x1 : Vec Ideal S100 .f32) :
    k1_pay1 x0 x1 = relu (addRow x0 (row x1)) := by
  unfold k1_pay1
  dsimp only
  simp only [shapeCast_self]
  rw [shapeCast_row]
  exact (congrArg (fun z => maximumf (F := Ideal) (φ := .f32) z _) (tile_addRow x0 (row x1) _)).trans (max_splat_relu _)

/-- The printed index maps over the grid: the table's and the result's tiles move together along the rows, the rest is fetched whole. -/
theorem idx_facts : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0 :=
  (by decide +kernel : ∀ t : Fin grid1.N, _)

/-- Every block of rows is some point's. -/
theorem idx_onto : ∀ q0 : Fin 128, ∃ t : Fin cfg1.N, win1_2.index t = ![q0.val, 0] :=
  (by decide +kernel : ∀ q0 : Fin 128, ∃ t : Fin grid1.N, win1_2.index t = ![q0.val, 0])

/-- What point t writes back is block t of the whole-array layer of the arrays as the region finds them. -/
theorem flushed_eq (c : Dev nD) (t : Fin cfg1.N) :
    (dat1 V c).flushed 2 t = ((cfg1.win 2).blk t).view.read (Elt Ideal)
      (relu (addRow (R := 524288) (C := 100) (V c main_v41) (row (V c main_arg6)))) := by
  show (cfg1.win 2).cut (grid1.coords t) ((dat1 V c).after 2 t) = _
  rw [after1_2]
  unfold out1_2
  rw [View.canon_unit_zero hz2]
  simp only [View.ld_unit_zero (S := S4096x100) hz2, View.ld_unit_zero (S := S100) hz1]
  rw [pay_eq]
  obtain ⟨e0, e1, e2, e3⟩ := idx_facts t
  funext j
  show (relu (addRow (R := 4096) (C := 100) (iblk1 V c 0 t) (row (iblk1 V c 1 t)))) j
      = (relu (addRow (R := 524288) (C := 100) (V c main_v41) (row (V c main_arg6)))) (((cfg1.win 2).blk t).view.emb j)
  refine relu_addRow_at _ _ _ _ j _ ?_ ?_
  · show V c main_v41 (((cfg1.win 0).blk t).view.emb j) = V c main_v41 (((cfg1.win 2).blk t).view.emb j)
    refine congrArg (V c main_v41) (funext fun a => Fin.ext ?_)
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 100 + 1 * (j 1).val = win1_2.index t (1 : Fin 2) * 100 + 1 * (j 1).val; omega
  · show V c main_arg6 (((cfg1.win 1).blk t).view.emb (ix1 (j 1))) = V c main_arg6 (ix1 ((((cfg1.win 2).blk t).view.emb j) 1))
    refine congrArg (V c main_arg6) (funext fun a => Fin.ext ?_)
    match a with
    | ⟨0, _⟩ => show win1_1.index t (0 : Fin 1) * 100 + 1 * (j 1).val = win1_2.index t (1 : Fin 2) * 100 + 1 * (j 1).val; omega

/-- An index of the result array is in point t's block iff each coordinate is in the block's range on its axis. -/
theorem mem_blk (t : Fin cfg1.N) (i : S524288x100.Idx) :
    i ∈ ((cfg1.win 2).blk t).view.set ↔ ∀ a : Fin 2, win1_2.index t a * S4096x100.size a ≤ (i a).val ∧ (i a).val < win1_2.index t a * S4096x100.size a + S4096x100.size a := by
  show i ∈ ((View.whole main_v42).slice (win1_2.rect t)).set ↔ _
  rw [View.set_slice_whole, Rect.mem_set_unit]
  exact Iff.rfl

/-- The blocks cover the result array: row r is in the block of point r / 4096. -/
theorem cover (i : S524288x100.Idx) : ∃ t : Fin cfg1.N, (cfg1.win 2).flush t = true ∧ i ∈ ((cfg1.win 2).blk t).view.set := by
  have hi0 : (i 0).val < 524288 := (i 0).isLt
  have hi1 : (i 1).val < 100 := (i 1).isLt
  obtain ⟨t, ht⟩ := idx_onto ⟨(i 0).val / 4096, by omega⟩
  have q0 : win1_2.index t (0 : Fin 2) = (i 0).val / 4096 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 100 ≤ (i 1).val ∧ (i 1).val < win1_2.index t (1 : Fin 2) * 100 + 100; omega

/-- The array the region leaves: the whole-array layer of the arrays as the region finds them. -/
theorem value (c : Dev nD) : (dat1 V c).arrAt 2 cfg1.N
    = relu (addRow (R := 524288) (C := 100) (V c main_v41) (row (V c main_arg6))) :=
  (dat1 V c).arrAt_eq_of_cover 2 _ (fun t _ => flushed_eq V c t) cover

end Cert.KernelIdeal.Reg1

end
-- ==== Proof.Reg2.lean ====
/-
  Region 2: the array it leaves.

  The grid has 64 points; point t works on rows 8192·t … 8192·t + 8191 of a [524288, 100] table, the whole [100, 100] weight matrix and the whole
  [100] bias row, and writes the same rows of the [524288, 100] result. Entry (p, q) of a tile reads only the tile's row p, so it is
  entry (8192·t + p, q) of the whole-array layer  X · W + b ; the 64 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity and the accumulator starts at zero). -/
theorem pay_eq (x0 : Vec Ideal S8192x100 .f32) (x1 : Vec Ideal S100x100 .f32) (x2 : Vec Ideal S100 .f32) :
    k2_pay1 x0 x1 x2 = lin1 x0 x1 (row x2) := by
  unfold k2_pay1
  dsimp only
  simp only [shapeCast_self]
  rw [shapeCast_row]
  exact tile_lin1 _ (Idealize.PlainDot.eq_plain _ rfl rfl rfl rfl rfl rfl) none x0 x1 (row x2) _

/-- The printed index maps over the grid: the table's and the result's tiles move together along the rows, the rest is fetched whole. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (1 : Fin 2) = 0 :=
  (by decide +kernel : ∀ t : Fin grid2.N, _)

/-- Every block of rows is some point's. -/
theorem idx_onto : ∀ q0 : Fin 64, ∃ t : Fin cfg2.N, win2_3.index t = ![q0.val, 0] :=
  (by decide +kernel : ∀ q0 : Fin 64, ∃ t : Fin grid2.N, win2_3.index t = ![q0.val, 0])

/-- What point t writes back is block t of the whole-array layer of the arrays as the region finds them. -/
theorem flushed_eq (c : Dev nD) (t : Fin cfg2.N) :
    (dat2 V c).flushed 3 t = ((cfg2.win 3).blk t).view.read (Elt Ideal)
      (lin1 (R := 524288) (K := 100) (C := 100) (V c main_v42) (V c main_arg7) (row (V c main_v43))) := by
  show (cfg2.win 3).cut (grid2.coords t) ((dat2 V c).after 3 t) = _
  rw [after2_3]
  unfold out2_3
  rw [View.canon_unit_zero hz2]
  simp only [View.ld_unit_zero (S := S8192x100) hz2, View.ld_unit_zero (S := S100x100) hz2, View.ld_unit_zero (S := S100) hz1]
  rw [pay_eq]
  obtain ⟨e0, e1, e2, e3, e4, e5⟩ := idx_facts t
  funext j
  show (lin1 (R := 8192) (K := 100) (C := 100) (iblk2 V c 0 t) (iblk2 V c 1 t) (row (iblk2 V c 2 t))) j
      = (lin1 (R := 524288) (K := 100) (C := 100) (V c main_v42) (V c main_arg7) (row (V c main_v43))) (((cfg2.win 3).blk t).view.emb j)
  refine lin1_at _ _ _ _ _ _ j _ (fun k => ?_) (fun k => ?_) ?_
  · show V c main_v42 (((cfg2.win 0).blk t).view.emb (ix2 (j 0) k)) = V c main_v42 (ix2 ((((cfg2.win 3).blk t).view.emb j) 0) k)
    refine congrArg (V c main_v42) (funext fun a => Fin.ext ?_)
    match a with
    | ⟨0, _⟩ => show win2_0.index t (0 : Fin 2) * 8192 + 1 * (j 0).val = win2_3.index t (0 : Fin 2) * 8192 + 1 * (j 0).val; omega
    | ⟨1, _⟩ => show win2_0.index t (1 : Fin 2) * 100 + 1 * k.val = k.val; omega
  · show V c main_arg7 (((cfg2.win 1).blk t).view.emb (ix2 k (j 1))) = V c main_arg7 (ix2 k ((((cfg2.win 3).blk t).view.emb j) 1))
    refine congrArg (V c main_arg7) (funext fun a => Fin.ext ?_)
    match a with
    | ⟨0, _⟩ => show win2_1.index t (0 : Fin 2) * 100 + 1 * k.val = k.val; omega
    | ⟨1, _⟩ => show win2_1.index t (1 : Fin 2) * 100 + 1 * (j 1).val = win2_3.index t (1 : Fin 2) * 100 + 1 * (j 1).val; omega
  · show V c main_v43 (((cfg2.win 2).blk t).view.emb (ix1 (j 1))) = V c main_v43 (ix1 ((((cfg2.win 3).blk t).view.emb j) 1))
    refine congrArg (V c main_v43) (funext fun a => Fin.ext ?_)
    match a with
    | ⟨0, _⟩ => show win2_2.index t (0 : Fin 1) * 100 + 1 * (j 1).val = win2_3.index t (1 : Fin 2) * 100 + 1 * (j 1).val; omega

/-- An index of the result array is in point t's block iff each coordinate is in the block's range on its axis. -/
theorem mem_blk (t : Fin cfg2.N) (i : S524288x100.Idx) :
    i ∈ ((cfg2.win 3).blk t).view.set ↔ ∀ a : Fin 2, win2_3.index t a * S8192x100.size a ≤ (i a).val ∧ (i a).val < win2_3.index t a * S8192x100.size a + S8192x100.size a := by
  show i ∈ ((View.whole main_v44).slice (win2_3.rect t)).set ↔ _
  rw [View.set_slice_whole, Rect.mem_set_unit]
  exact Iff.rfl

/-- The blocks cover the result array: row r is in the block of point r / 8192. -/
theorem cover (i : S524288x100.Idx) : ∃ t : Fin cfg2.N, (cfg2.win 3).flush t = true ∧ i ∈ ((cfg2.win 3).blk t).view.set := by
  have hi0 : (i 0).val < 524288 := (i 0).isLt
  have hi1 : (i 1).val < 100 := (i 1).isLt
  obtain ⟨t, ht⟩ := idx_onto ⟨(i 0).val / 8192, by omega⟩
  have q0 : win2_3.index t (0 : Fin 2) = (i 0).val / 8192 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 8192 ≤ (i 0).val ∧ (i 0).val < win2_3.index t (0 : Fin 2) * 8192 + 8192; omega
  | ⟨1, _⟩ => show win2_3.index t (1 : Fin 2) * 100 ≤ (i 1).val ∧ (i 1).val < win2_3.index t (1 : Fin 2) * 100 + 100; omega

/-- The array the region leaves: the whole-array layer of the arrays as the region finds them. -/
theorem value (c : Dev nD) : (dat2 V c).arrAt 3 cfg2.N
    = lin1 (R := 524288) (K := 100) (C := 100) (V c main_v42) (V c main_arg7) (row (V c main_v43)) :=
  (dat2 V c).arrAt_eq_of_cover 3 _ (fun t _ => flushed_eq V c t) cover

end Cert.KernelIdeal.Reg2

end
-- ==== Proof.Reg3.lean ====
/-
  Region 3: the array it leaves.

  The grid has 64 points; point t works on rows 8192·t … 8192·t + 8191 of a [524288, 100] table and the whole
  [100] bias row, and writes the same rows of the [524288, 100] result. Entry (p, q) of a tile reads only the tile's row p, so it is
  entry (8192·t + p, q) of the whole-array layer  max(X + b, 0) ; the 64 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity). -/
theorem pay_eq (x0 : Vec Ideal S8192x100 .f32) (x1 : Vec Ideal S100 .f32) :
    k3_pay1 x0 x1 = relu (addRow x0 (row x1)) := by
  unfold k3_pay1
  dsimp only
  simp only [shapeCast_self]
  rw [shapeCast_row]
  exact (congrArg (fun z => maximumf (F := Ideal) (φ := .f32) z _) (tile_addRow x0 (row x1) _)).trans (max_splat_relu _)

/-- The printed index maps over the grid: the table's and the result's tiles move together along the rows, the rest is fetched whole. -/
theorem idx_facts : ∀ t : Fin cfg3.N, win3_0.index t (0 : Fin 2) = win3_2.index t (0 : Fin 2)
    ∧ win3_0.index t (1 : Fin 2) = 0
    ∧ win3_1.index t (0 : Fin 1) = 0
    ∧ win3_2.index t (1 : Fin 2) = 0 :=
  (by decide +kernel : ∀ t : Fin grid3.N, _)

/-- Every block of rows is some point's. -/
theorem idx_onto : ∀ q0 : Fin 64, ∃ t : Fin cfg3.N, win3_2.index t = ![q0.val, 0] :=
  (by decide +kernel : ∀ q0 : Fin 64, ∃ t : Fin grid3.N, win3_2.index t = ![q0.val, 0])

/-- What point t writes back is block t of the whole-array layer of the arrays as the region finds them. -/
theorem flushed_eq (c : Dev nD) (t : Fin cfg3.N) :
    (dat3 V c).flushed 2 t = ((cfg3.win 2).blk t).view.read (Elt Ideal)
      (relu (addRow (R := 524288) (C := 100) (V c main_v84) (row (V c main_arg8)))) := by
  show (cfg3.win 2).cut (grid3.coords t) ((dat3 V c).after 2 t) = _
  rw [after3_2]
  unfold out3_2
  rw [View.canon_unit_zero hz2]
  simp only [View.ld_unit_zero (S := S8192x100) hz2, View.ld_unit_zero (S := S100) hz1]
  rw [pay_eq]
  obtain ⟨e0, e1, e2, e3⟩ := idx_facts t
  funext j
  show (relu (addRow (R := 8192) (C := 100) (iblk3 V c 0 t) (row (iblk3 V c 1 t)))) j
      = (relu (addRow (R := 524288) (C := 100) (V c main_v84) (row (V c main_arg8)))) (((cfg3.win 2).blk t).view.emb j)
  refine relu_addRow_at _ _ _ _ j _ ?_ ?_
  · show V c main_v84 (((cfg3.win 0).blk t).view.emb j) = V c main_v84 (((cfg3.win 2).blk t).view.emb j)
    refine congrArg (V c main_v84) (funext fun a => Fin.ext ?_)
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 100 + 1 * (j 1).val = win3_2.index t (1 : Fin 2) * 100 + 1 * (j 1).val; omega
  · show V c main_arg8 (((cfg3.win 1).blk t).view.emb (ix1 (j 1))) = V c main_arg8 (ix1 ((((cfg3.win 2).blk t).view.emb j) 1))
    refine congrArg (V c main_arg8) (funext fun a => Fin.ext ?_)
    match a with
    | ⟨0, _⟩ => show win3_1.index t (0 : Fin 1) * 100 + 1 * (j 1).val = win3_2.index t (1 : Fin 2) * 100 + 1 * (j 1).val; omega

/-- An index of the result array is in point t's block iff each coordinate is in the block's range on its axis. -/
theorem mem_blk (t : Fin cfg3.N) (i : S524288x100.Idx) :
    i ∈ ((cfg3.win 2).blk t).view.set ↔ ∀ a : Fin 2, win3_2.index t a * S8192x100.size a ≤ (i a).val ∧ (i a).val < win3_2.index t a * S8192x100.size a + S8192x100.size a := by
  show i ∈ ((View.whole main_v85).slice (win3_2.rect t)).set ↔ _
  rw [View.set_slice_whole, Rect.mem_set_unit]
  exact Iff.rfl

/-- The blocks cover the result array: row r is in the block of point r / 8192. -/
theorem cover (i : S524288x100.Idx) : ∃ t : Fin cfg3.N, (cfg3.win 2).flush t = true ∧ i ∈ ((cfg3.win 2).blk t).view.set := by
  have hi0 : (i 0).val < 524288 := (i 0).isLt
  have hi1 : (i 1).val < 100 := (i 1).isLt
  obtain ⟨t, ht⟩ := idx_onto ⟨(i 0).val / 8192, by omega⟩
  have q0 : win3_2.index t (0 : Fin 2) = (i 0).val / 8192 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 8192 ≤ (i 0).val ∧ (i 0).val < win3_2.index t (0 : Fin 2) * 8192 + 8192; omega
  | ⟨1, _⟩ => show win3_2.index t (1 : Fin 2) * 100 ≤ (i 1).val ∧ (i 1).val < win3_2.index t (1 : Fin 2) * 100 + 100; omega

/-- The array the region leaves: the whole-array layer of the arrays as the region finds them. -/
theorem value (c : Dev nD) : (dat3 V c).arrAt 2 cfg3.N
    = relu (addRow (R := 524288) (C := 100) (V c main_v84) (row (V c main_arg8))) :=
  (dat3 V c).arrAt_eq_of_cover 2 _ (fun t _ => flushed_eq V c t) cover

end Cert.KernelIdeal.Reg3

end
-- ==== Proof.Reg4.lean ====
/-
  Region 4: the array it leaves.

  The grid has 64 points; point t works on rows 8192·t … 8192·t + 8191 of a [524288, 100] table, the whole [100, 100] weight matrix and the whole
  [100] bias row, and writes the same rows of the [524288, 100] result. Entry (p, q) of a tile reads only the tile's row p, so it is
  entry (8192·t + p, q) of the whole-array layer  X · W + b ; the 64 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity and the accumulator starts at zero). -/
theorem pay_eq (x0 : Vec Ideal S8192x100 .f32) (x1 : Vec Ideal S100x100 .f32) (x2 : Vec Ideal S100 .f32) :
    k4_pay1 x0 x1 x2 = lin1 x0 x1 (row x2) := by
  unfold k4_pay1
  dsimp only
  simp only [shapeCast_self]
  rw [shapeCast_row]
  exact tile_lin1 _ (Idealize.PlainDot.eq_plain _ rfl rfl rfl rfl rfl rfl) none x0 x1 (row x2) _

/-- The printed index maps over the grid: the table's and the result's tiles move together along the rows, the rest is fetched whole. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 1) = 0
    ∧ win4_3.index t (1 : Fin 2) = 0 :=
  (by decide +kernel : ∀ t : Fin grid4.N, _)

/-- Every block of rows is some point's. -/
theorem idx_onto : ∀ q0 : Fin 64, ∃ t : Fin cfg4.N, win4_3.index t = ![q0.val, 0] :=
  (by decide +kernel : ∀ q0 : Fin 64, ∃ t : Fin grid4.N, win4_3.index t = ![q0.val, 0])

/-- What point t writes back is block t of the whole-array layer of the arrays as the region finds them. -/
theorem flushed_eq (c : Dev nD) (t : Fin cfg4.N) :
    (dat4 V c).flushed 3 t = ((cfg4.win 3).blk t).view.read (Elt Ideal)
      (lin1 (R := 524288) (K := 100) (C := 100) (V c main_v85) (V c main_arg9) (row (V c main_v86))) := by
  show (cfg4.win 3).cut (grid4.coords t) ((dat4 V c).after 3 t) = _
  rw [after4_3]
  unfold out4_3
  rw [View.canon_unit_zero hz2]
  simp only [View.ld_unit_zero (S := S8192x100) hz2, View.ld_unit_zero (S := S100x100) hz2, View.ld_unit_zero (S := S100) hz1]
  rw [pay_eq]
  obtain ⟨e0, e1, e2, e3, e4, e5⟩ := idx_facts t
  funext j
  show (lin1 (R := 8192) (K := 100) (C := 100) (iblk4 V c 0 t) (iblk4 V c 1 t) (row (iblk4 V c 2 t))) j
      = (lin1 (R := 524288) (K := 100) (C := 100) (V c main_v85) (V c main_arg9) (row (V c main_v86))) (((cfg4.win 3).blk t).view.emb j)
  refine lin1_at _ _ _ _ _ _ j _ (fun k => ?_) (fun k => ?_) ?_
  · show V c main_v85 (((cfg4.win 0).blk t).view.emb (ix2 (j 0) k)) = V c main_v85 (ix2 ((((cfg4.win 3).blk t).view.emb j) 0) k)
    refine congrArg (V c main_v85) (funext fun a => Fin.ext ?_)
    match a with
    | ⟨0, _⟩ => show win4_0.index t (0 : Fin 2) * 8192 + 1 * (j 0).val = win4_3.index t (0 : Fin 2) * 8192 + 1 * (j 0).val; omega
    | ⟨1, _⟩ => show win4_0.index t (1 : Fin 2) * 100 + 1 * k.val = k.val; omega
  · show V c main_arg9 (((cfg4.win 1).blk t).view.emb (ix2 k (j 1))) = V c main_arg9 (ix2 k ((((cfg4.win 3).blk t).view.emb j) 1))
    refine congrArg (V c main_arg9) (funext fun a => Fin.ext ?_)
    match a with
    | ⟨0, _⟩ => show win4_1.index t (0 : Fin 2) * 100 + 1 * k.val = k.val; omega
    | ⟨1, _⟩ => show win4_1.index t (1 : Fin 2) * 100 + 1 * (j 1).val = win4_3.index t (1 : Fin 2) * 100 + 1 * (j 1).val; omega
  · show V c main_v86 (((cfg4.win 2).blk t).view.emb (ix1 (j 1))) = V c main_v86 (ix1 ((((cfg4.win 3).blk t).view.emb j) 1))
    refine congrArg (V c main_v86) (funext fun a => Fin.ext ?_)
    match a with
    | ⟨0, _⟩ => show win4_2.index t (0 : Fin 1) * 100 + 1 * (j 1).val = win4_3.index t (1 : Fin 2) * 100 + 1 * (j 1).val; omega

/-- An index of the result array is in point t's block iff each coordinate is in the block's range on its axis. -/
theorem mem_blk (t : Fin cfg4.N) (i : S524288x100.Idx) :
    i ∈ ((cfg4.win 3).blk t).view.set ↔ ∀ a : Fin 2, win4_3.index t a * S8192x100.size a ≤ (i a).val ∧ (i a).val < win4_3.index t a * S8192x100.size a + S8192x100.size a := by
  show i ∈ ((View.whole main_v87).slice (win4_3.rect t)).set ↔ _
  rw [View.set_slice_whole, Rect.mem_set_unit]
  exact Iff.rfl

/-- The blocks cover the result array: row r is in the block of point r / 8192. -/
theorem cover (i : S524288x100.Idx) : ∃ t : Fin cfg4.N, (cfg4.win 3).flush t = true ∧ i ∈ ((cfg4.win 3).blk t).view.set := by
  have hi0 : (i 0).val < 524288 := (i 0).isLt
  have hi1 : (i 1).val < 100 := (i 1).isLt
  obtain ⟨t, ht⟩ := idx_onto ⟨(i 0).val / 8192, by omega⟩
  have q0 : win4_3.index t (0 : Fin 2) = (i 0).val / 8192 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 8192 ≤ (i 0).val ∧ (i 0).val < win4_3.index t (0 : Fin 2) * 8192 + 8192; omega
  | ⟨1, _⟩ => show win4_3.index t (1 : Fin 2) * 100 ≤ (i 1).val ∧ (i 1).val < win4_3.index t (1 : Fin 2) * 100 + 100; omega

/-- The array the region leaves: the whole-array layer of the arrays as the region finds them. -/
theorem value (c : Dev nD) : (dat4 V c).arrAt 3 cfg4.N
    = lin1 (R := 524288) (K := 100) (C := 100) (V c main_v85) (V c main_arg9) (row (V c main_v86)) :=
  (dat4 V c).arrAt_eq_of_cover 3 _ (fun t _ => flushed_eq V c t) cover

end Cert.KernelIdeal.Reg4

end
-- ==== Proof.Reg5.lean ====
/-
  Region 5: the array it leaves.

  The grid has 64 points; point t works on rows 8192·t … 8192·t + 8191 of a [524288, 100] table and the whole
  [100] bias row, and writes the same rows of the [524288, 100] result. Entry (p, q) of a tile reads only the tile's row p, so it is
  entry (8192·t + p, q) of the whole-array layer  max(X + b, 0) ; the 64 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity). -/
theorem pay_eq (x0 : Vec Ideal S8192x100 .f32) (x1 : Vec Ideal S100 .f32) :
    k5_pay1 x0 x1 = relu (addRow x0 (row x1)) := by
  unfold k5_pay1
  dsimp only
  simp only [shapeCast_self]
  rw [shapeCast_row]
  exact (congrArg (fun z => maximumf (F := Ideal) (φ := .f32) z _) (tile_addRow x0 (row x1) _)).trans (max_splat_relu _)

/-- The printed index maps over the grid: the table's and the result's tiles move together along the rows, the rest is fetched whole. -/
theorem idx_facts : ∀ t : Fin cfg5.N, win5_0.index t (0 : Fin 2) = win5_2.index t (0 : Fin 2)
    ∧ win5_0.index t (1 : Fin 2) = 0
    ∧ win5_1.index t (0 : Fin 1) = 0
    ∧ win5_2.index t (1 : Fin 2) = 0 :=
  (by decide +kernel : ∀ t : Fin grid5.N, _)

/-- Every block of rows is some point's. -/
theorem idx_onto : ∀ q0 : Fin 64, ∃ t : Fin cfg5.N, win5_2.index t = ![q0.val, 0] :=
  (by decide +kernel : ∀ q0 : Fin 64, ∃ t : Fin grid5.N, win5_2.index t = ![q0.val, 0])

/-- What point t writes back is block t of the whole-array layer of the arrays as the region finds them. -/
theorem flushed_eq (c : Dev nD) (t : Fin cfg5.N) :
    (dat5 V c).flushed 2 t = ((cfg5.win 2).blk t).view.read (Elt Ideal)
      (relu (addRow (R := 524288) (C := 100) (V c main_v127) (row (V c main_arg10)))) := by
  show (cfg5.win 2).cut (grid5.coords t) ((dat5 V c).after 2 t) = _
  rw [after5_2]
  unfold out5_2
  rw [View.canon_unit_zero hz2]
  simp only [View.ld_unit_zero (S := S8192x100) hz2, View.ld_unit_zero (S := S100) hz1]
  rw [pay_eq]
  obtain ⟨e0, e1, e2, e3⟩ := idx_facts t
  funext j
  show (relu (addRow (R := 8192) (C := 100) (iblk5 V c 0 t) (row (iblk5 V c 1 t)))) j
      = (relu (addRow (R := 524288) (C := 100) (V c main_v127) (row (V c main_arg10)))) (((cfg5.win 2).blk t).view.emb j)
  refine relu_addRow_at _ _ _ _ j _ ?_ ?_
  · show V c main_v127 (((cfg5.win 0).blk t).view.emb j) = V c main_v127 (((cfg5.win 2).blk t).view.emb j)
    refine congrArg (V c main_v127) (funext fun a => Fin.ext ?_)
    match a with
    | ⟨0, _⟩ => show win5_0.index t (0 : Fin 2) * 8192 + 1 * (j 0).val = win5_2.index t (0 : Fin 2) * 8192 + 1 * (j 0).val; omega
    | ⟨1, _⟩ => show win5_0.index t (1 : Fin 2) * 100 + 1 * (j 1).val = win5_2.index t (1 : Fin 2) * 100 + 1 * (j 1).val; omega
  · show V c main_arg10 (((cfg5.win 1).blk t).view.emb (ix1 (j 1))) = V c main_arg10 (ix1 ((((cfg5.win 2).blk t).view.emb j) 1))
    refine congrArg (V c main_arg10) (funext fun a => Fin.ext ?_)
    match a with
    | ⟨0, _⟩ => show win5_1.index t (0 : Fin 1) * 100 + 1 * (j 1).val = win5_2.index t (1 : Fin 2) * 100 + 1 * (j 1).val; omega

/-- An index of the result array is in point t's block iff each coordinate is in the block's range on its axis. -/
theorem mem_blk (t : Fin cfg5.N) (i : S524288x100.Idx) :
    i ∈ ((cfg5.win 2).blk t).view.set ↔ ∀ a : Fin 2, win5_2.index t a * S8192x100.size a ≤ (i a).val ∧ (i a).val < win5_2.index t a * S8192x100.size a + S8192x100.size a := by
  show i ∈ ((View.whole main_v128).slice (win5_2.rect t)).set ↔ _
  rw [View.set_slice_whole, Rect.mem_set_unit]
  exact Iff.rfl

/-- The blocks cover the result array: row r is in the block of point r / 8192. -/
theorem cover (i : S524288x100.Idx) : ∃ t : Fin cfg5.N, (cfg5.win 2).flush t = true ∧ i ∈ ((cfg5.win 2).blk t).view.set := by
  have hi0 : (i 0).val < 524288 := (i 0).isLt
  have hi1 : (i 1).val < 100 := (i 1).isLt
  obtain ⟨t, ht⟩ := idx_onto ⟨(i 0).val / 8192, by omega⟩
  have q0 : win5_2.index t (0 : Fin 2) = (i 0).val / 8192 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 8192 ≤ (i 0).val ∧ (i 0).val < win5_2.index t (0 : Fin 2) * 8192 + 8192; omega
  | ⟨1, _⟩ => show win5_2.index t (1 : Fin 2) * 100 ≤ (i 1).val ∧ (i 1).val < win5_2.index t (1 : Fin 2) * 100 + 100; omega

/-- The array the region leaves: the whole-array layer of the arrays as the region finds them. -/
theorem value (c : Dev nD) : (dat5 V c).arrAt 2 cfg5.N
    = relu (addRow (R := 524288) (C := 100) (V c main_v127) (row (V c main_arg10))) :=
  (dat5 V c).arrAt_eq_of_cover 2 _ (fun t _ => flushed_eq V c t) cover

end Cert.KernelIdeal.Reg5

end
-- ==== Proof.Reg6.lean ====
/-
  Region 6: the array it leaves.

  The grid has 24 points; point t works on rows 8192·t … 8192·t + 8191 of a [196608, 100] table, the whole [100, 100] weight matrix and the whole
  [100] bias row, and writes the same rows of the [196608, 100] result. Entry (p, q) of a tile reads only the tile's row p, so it is
  entry (8192·t + p, q) of the whole-array layer  X · W + b ; the 24 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg6

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity and the accumulator starts at zero). -/
theorem pay_eq (x0 : Vec Ideal S8192x100 .f32) (x1 : Vec Ideal S100x100 .f32) (x2 : Vec Ideal S100 .f32) :
    k6_pay1 x0 x1 x2 = lin1 x0 x1 (row x2) := by
  unfold k6_pay1
  dsimp only
  simp only [shapeCast_self]
  rw [shapeCast_row]
  exact tile_lin1 _ (Idealize.PlainDot.eq_plain _ rfl rfl rfl rfl rfl rfl) none x0 x1 (row x2) _

/-- The printed index maps over the grid: the table's and the result's tiles move together along the rows, the rest is fetched whole. -/
theorem idx_facts : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 1) = 0
    ∧ win6_3.index t (1 : Fin 2) = 0 :=
  (by decide +kernel : ∀ t : Fin grid6.N, _)

/-- Every block of rows is some point's. -/
theorem idx_onto : ∀ q0 : Fin 24, ∃ t : Fin cfg6.N, win6_3.index t = ![q0.val, 0] :=
  (by decide +kernel : ∀ q0 : Fin 24, ∃ t : Fin grid6.N, win6_3.index t = ![q0.val, 0])

/-- What point t writes back is block t of the whole-array layer of the arrays as the region finds them. -/
theorem flushed_eq (c : Dev nD) (t : Fin cfg6.N) :
    (dat6 V c).flushed 3 t = ((cfg6.win 3).blk t).view.read (Elt Ideal)
      (lin1 (R := 196608) (K := 100) (C := 100) (V c main_v138) (V c main_arg11) (row (V c main_v139))) := by
  show (cfg6.win 3).cut (grid6.coords t) ((dat6 V c).after 3 t) = _
  rw [after6_3]
  unfold out6_3
  rw [View.canon_unit_zero hz2]
  simp only [View.ld_unit_zero (S := S8192x100) hz2, View.ld_unit_zero (S := S100x100) hz2, View.ld_unit_zero (S := S100) hz1]
  rw [pay_eq]
  obtain ⟨e0, e1, e2, e3, e4, e5⟩ := idx_facts t
  funext j
  show (lin1 (R := 8192) (K := 100) (C := 100) (iblk6 V c 0 t) (iblk6 V c 1 t) (row (iblk6 V c 2 t))) j
      = (lin1 (R := 196608) (K := 100) (C := 100) (V c main_v138) (V c main_arg11) (row (V c main_v139))) (((cfg6.win 3).blk t).view.emb j)
  refine lin1_at _ _ _ _ _ _ j _ (fun k => ?_) (fun k => ?_) ?_
  · show V c main_v138 (((cfg6.win 0).blk t).view.emb (ix2 (j 0) k)) = V c main_v138 (ix2 ((((cfg6.win 3).blk t).view.emb j) 0) k)
    refine congrArg (V c main_v138) (funext fun a => Fin.ext ?_)
    match a with
    | ⟨0, _⟩ => show win6_0.index t (0 : Fin 2) * 8192 + 1 * (j 0).val = win6_3.index t (0 : Fin 2) * 8192 + 1 * (j 0).val; omega
    | ⟨1, _⟩ => show win6_0.index t (1 : Fin 2) * 100 + 1 * k.val = k.val; omega
  · show V c main_arg11 (((cfg6.win 1).blk t).view.emb (ix2 k (j 1))) = V c main_arg11 (ix2 k ((((cfg6.win 3).blk t).view.emb j) 1))
    refine congrArg (V c main_arg11) (funext fun a => Fin.ext ?_)
    match a with
    | ⟨0, _⟩ => show win6_1.index t (0 : Fin 2) * 100 + 1 * k.val = k.val; omega
    | ⟨1, _⟩ => show win6_1.index t (1 : Fin 2) * 100 + 1 * (j 1).val = win6_3.index t (1 : Fin 2) * 100 + 1 * (j 1).val; omega
  · show V c main_v139 (((cfg6.win 2).blk t).view.emb (ix1 (j 1))) = V c main_v139 (ix1 ((((cfg6.win 3).blk t).view.emb j) 1))
    refine congrArg (V c main_v139) (funext fun a => Fin.ext ?_)
    match a with
    | ⟨0, _⟩ => show win6_2.index t (0 : Fin 1) * 100 + 1 * (j 1).val = win6_3.index t (1 : Fin 2) * 100 + 1 * (j 1).val; omega

/-- An index of the result array is in point t's block iff each coordinate is in the block's range on its axis. -/
theorem mem_blk (t : Fin cfg6.N) (i : S196608x100.Idx) :
    i ∈ ((cfg6.win 3).blk t).view.set ↔ ∀ a : Fin 2, win6_3.index t a * S8192x100.size a ≤ (i a).val ∧ (i a).val < win6_3.index t a * S8192x100.size a + S8192x100.size a := by
  show i ∈ ((View.whole main_v140).slice (win6_3.rect t)).set ↔ _
  rw [View.set_slice_whole, Rect.mem_set_unit]
  exact Iff.rfl

/-- The blocks cover the result array: row r is in the block of point r / 8192. -/
theorem cover (i : S196608x100.Idx) : ∃ t : Fin cfg6.N, (cfg6.win 3).flush t = true ∧ i ∈ ((cfg6.win 3).blk t).view.set := by
  have hi0 : (i 0).val < 196608 := (i 0).isLt
  have hi1 : (i 1).val < 100 := (i 1).isLt
  obtain ⟨t, ht⟩ := idx_onto ⟨(i 0).val / 8192, by omega⟩
  have q0 : win6_3.index t (0 : Fin 2) = (i 0).val / 8192 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 8192 ≤ (i 0).val ∧ (i 0).val < win6_3.index t (0 : Fin 2) * 8192 + 8192; omega
  | ⟨1, _⟩ => show win6_3.index t (1 : Fin 2) * 100 ≤ (i 1).val ∧ (i 1).val < win6_3.index t (1 : Fin 2) * 100 + 100; omega

/-- The array the region leaves: the whole-array layer of the arrays as the region finds them. -/
theorem value (c : Dev nD) : (dat6 V c).arrAt 3 cfg6.N
    = lin1 (R := 196608) (K := 100) (C := 100) (V c main_v138) (V c main_arg11) (row (V c main_v139)) :=
  (dat6 V c).arrAt_eq_of_cover 3 _ (fun t _ => flushed_eq V c t) cover

end Cert.KernelIdeal.Reg6

end
-- ==== Proof.Reg7.lean ====
/-
  Region 7: the array it leaves.

  The grid has 24 points; point t works on rows 8192·t … 8192·t + 8191 of a [196608, 100] table and the whole
  [100] bias row, and writes the same rows of the [196608, 100] result. Entry (p, q) of a tile reads only the tile's row p, so it is
  entry (8192·t + p, q) of the whole-array layer  max(X + b, 0) ; the 24 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg7

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity). -/
theorem pay_eq (x0 : Vec Ideal S8192x100 .f32) (x1 : Vec Ideal S100 .f32) :
    k7_pay1 x0 x1 = relu (addRow x0 (row x1)) := by
  unfold k7_pay1
  dsimp only
  simp only [shapeCast_self]
  rw [shapeCast_row]
  exact (congrArg (fun z => maximumf (F := Ideal) (φ := .f32) z _) (tile_addRow x0 (row x1) _)).trans (max_splat_relu _)

/-- The printed index maps over the grid: the table's and the result's tiles move together along the rows, the rest is fetched whole. -/
theorem idx_facts : ∀ t : Fin cfg7.N, win7_0.index t (0 : Fin 2) = win7_2.index t (0 : Fin 2)
    ∧ win7_0.index t (1 : Fin 2) = 0
    ∧ win7_1.index t (0 : Fin 1) = 0
    ∧ win7_2.index t (1 : Fin 2) = 0 :=
  (by decide +kernel : ∀ t : Fin grid7.N, _)

/-- Every block of rows is some point's. -/
theorem idx_onto : ∀ q0 : Fin 24, ∃ t : Fin cfg7.N, win7_2.index t = ![q0.val, 0] :=
  (by decide +kernel : ∀ q0 : Fin 24, ∃ t : Fin grid7.N, win7_2.index t = ![q0.val, 0])

/-- What point t writes back is block t of the whole-array layer of the arrays as the region finds them. -/
theorem flushed_eq (c : Dev nD) (t : Fin cfg7.N) :
    (dat7 V c).flushed 2 t = ((cfg7.win 2).blk t).view.read (Elt Ideal)
      (relu (addRow (R := 196608) (C := 100) (V c main_v180) (row (V c main_arg12)))) := by
  show (cfg7.win 2).cut (grid7.coords t) ((dat7 V c).after 2 t) = _
  rw [after7_2]
  unfold out7_2
  rw [View.canon_unit_zero hz2]
  simp only [View.ld_unit_zero (S := S8192x100) hz2, View.ld_unit_zero (S := S100) hz1]
  rw [pay_eq]
  obtain ⟨e0, e1, e2, e3⟩ := idx_facts t
  funext j
  show (relu (addRow (R := 8192) (C := 100) (iblk7 V c 0 t) (row (iblk7 V c 1 t)))) j
      = (relu (addRow (R := 196608) (C := 100) (V c main_v180) (row (V c main_arg12)))) (((cfg7.win 2).blk t).view.emb j)
  refine relu_addRow_at _ _ _ _ j _ ?_ ?_
  · show V c main_v180 (((cfg7.win 0).blk t).view.emb j) = V c main_v180 (((cfg7.win 2).blk t).view.emb j)
    refine congrArg (V c main_v180) (funext fun a => Fin.ext ?_)
    match a with
    | ⟨0, _⟩ => show win7_0.index t (0 : Fin 2) * 8192 + 1 * (j 0).val = win7_2.index t (0 : Fin 2) * 8192 + 1 * (j 0).val; omega
    | ⟨1, _⟩ => show win7_0.index t (1 : Fin 2) * 100 + 1 * (j 1).val = win7_2.index t (1 : Fin 2) * 100 + 1 * (j 1).val; omega
  · show V c main_arg12 (((cfg7.win 1).blk t).view.emb (ix1 (j 1))) = V c main_arg12 (ix1 ((((cfg7.win 2).blk t).view.emb j) 1))
    refine congrArg (V c main_arg12) (funext fun a => Fin.ext ?_)
    match a with
    | ⟨0, _⟩ => show win7_1.index t (0 : Fin 1) * 100 + 1 * (j 1).val = win7_2.index t (1 : Fin 2) * 100 + 1 * (j 1).val; omega

/-- An index of the result array is in point t's block iff each coordinate is in the block's range on its axis. -/
theorem mem_blk (t : Fin cfg7.N) (i : S196608x100.Idx) :
    i ∈ ((cfg7.win 2).blk t).view.set ↔ ∀ a : Fin 2, win7_2.index t a * S8192x100.size a ≤ (i a).val ∧ (i a).val < win7_2.index t a * S8192x100.size a + S8192x100.size a := by
  show i ∈ ((View.whole main_v181).slice (win7_2.rect t)).set ↔ _
  rw [View.set_slice_whole, Rect.mem_set_unit]
  exact Iff.rfl

/-- The blocks cover the result array: row r is in the block of point r / 8192. -/
theorem cover (i : S196608x100.Idx) : ∃ t : Fin cfg7.N, (cfg7.win 2).flush t = true ∧ i ∈ ((cfg7.win 2).blk t).view.set := by
  have hi0 : (i 0).val < 196608 := (i 0).isLt
  have hi1 : (i 1).val < 100 := (i 1).isLt
  obtain ⟨t, ht⟩ := idx_onto ⟨(i 0).val / 8192, by omega⟩
  have q0 : win7_2.index t (0 : Fin 2) = (i 0).val / 8192 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 8192 ≤ (i 0).val ∧ (i 0).val < win7_2.index t (0 : Fin 2) * 8192 + 8192; omega
  | ⟨1, _⟩ => show win7_2.index t (1 : Fin 2) * 100 ≤ (i 1).val ∧ (i 1).val < win7_2.index t (1 : Fin 2) * 100 + 100; omega

/-- The array the region leaves: the whole-array layer of the arrays as the region finds them. -/
theorem value (c : Dev nD) : (dat7 V c).arrAt 2 cfg7.N
    = relu (addRow (R := 196608) (C := 100) (V c main_v180) (row (V c main_arg12))) :=
  (dat7 V c).arrAt_eq_of_cover 2 _ (fun t _ => flushed_eq V c t) cover

end Cert.KernelIdeal.Reg7

end
-- ==== Proof.Reg8.lean ====
/-
  Region 8: the array it leaves.

  The grid has 24 points; point t works on rows 8192·t … 8192·t + 8191 of a [196608, 100] table, the whole [100, 100] weight matrix and the whole
  [100] bias row, and writes the same rows of the [196608, 100] result. Entry (p, q) of a tile reads only the tile's row p, so it is
  entry (8192·t + p, q) of the whole-array layer  X · W + b ; the 24 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg8

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity and the accumulator starts at zero). -/
theorem pay_eq (x0 : Vec Ideal S8192x100 .f32) (x1 : Vec Ideal S100x100 .f32) (x2 : Vec Ideal S100 .f32) :
    k8_pay1 x0 x1 x2 = lin1 x0 x1 (row x2) := by
  unfold k8_pay1
  dsimp only
  simp only [shapeCast_self]
  rw [shapeCast_row]
  exact tile_lin1 _ (Idealize.PlainDot.eq_plain _ rfl rfl rfl rfl rfl rfl) none x0 x1 (row x2) _

/-- The printed index maps over the grid: the table's and the result's tiles move together along the rows, the rest is fetched whole. -/
theorem idx_facts : ∀ t : Fin cfg8.N, win8_0.index t (0 : Fin 2) = win8_3.index t (0 : Fin 2)
    ∧ win8_0.index t (1 : Fin 2) = 0
    ∧ win8_1.index t (0 : Fin 2) = 0
    ∧ win8_1.index t (1 : Fin 2) = 0
    ∧ win8_2.index t (0 : Fin 1) = 0
    ∧ win8_3.index t (1 : Fin 2) = 0 :=
  (by decide +kernel : ∀ t : Fin grid8.N, _)

/-- Every block of rows is some point's. -/
theorem idx_onto : ∀ q0 : Fin 24, ∃ t : Fin cfg8.N, win8_3.index t = ![q0.val, 0] :=
  (by decide +kernel : ∀ q0 : Fin 24, ∃ t : Fin grid8.N, win8_3.index t = ![q0.val, 0])

/-- What point t writes back is block t of the whole-array layer of the arrays as the region finds them. -/
theorem flushed_eq (c : Dev nD) (t : Fin cfg8.N) :
    (dat8 V c).flushed 3 t = ((cfg8.win 3).blk t).view.read (Elt Ideal)
      (lin1 (R := 196608) (K := 100) (C := 100) (V c main_v181) (V c main_arg13) (row (V c main_v182))) := by
  show (cfg8.win 3).cut (grid8.coords t) ((dat8 V c).after 3 t) = _
  rw [after8_3]
  unfold out8_3
  rw [View.canon_unit_zero hz2]
  simp only [View.ld_unit_zero (S := S8192x100) hz2, View.ld_unit_zero (S := S100x100) hz2, View.ld_unit_zero (S := S100) hz1]
  rw [pay_eq]
  obtain ⟨e0, e1, e2, e3, e4, e5⟩ := idx_facts t
  funext j
  show (lin1 (R := 8192) (K := 100) (C := 100) (iblk8 V c 0 t) (iblk8 V c 1 t) (row (iblk8 V c 2 t))) j
      = (lin1 (R := 196608) (K := 100) (C := 100) (V c main_v181) (V c main_arg13) (row (V c main_v182))) (((cfg8.win 3).blk t).view.emb j)
  refine lin1_at _ _ _ _ _ _ j _ (fun k => ?_) (fun k => ?_) ?_
  · show V c main_v181 (((cfg8.win 0).blk t).view.emb (ix2 (j 0) k)) = V c main_v181 (ix2 ((((cfg8.win 3).blk t).view.emb j) 0) k)
    refine congrArg (V c main_v181) (funext fun a => Fin.ext ?_)
    match a with
    | ⟨0, _⟩ => show win8_0.index t (0 : Fin 2) * 8192 + 1 * (j 0).val = win8_3.index t (0 : Fin 2) * 8192 + 1 * (j 0).val; omega
    | ⟨1, _⟩ => show win8_0.index t (1 : Fin 2) * 100 + 1 * k.val = k.val; omega
  · show V c main_arg13 (((cfg8.win 1).blk t).view.emb (ix2 k (j 1))) = V c main_arg13 (ix2 k ((((cfg8.win 3).blk t).view.emb j) 1))
    refine congrArg (V c main_arg13) (funext fun a => Fin.ext ?_)
    match a with
    | ⟨0, _⟩ => show win8_1.index t (0 : Fin 2) * 100 + 1 * k.val = k.val; omega
    | ⟨1, _⟩ => show win8_1.index t (1 : Fin 2) * 100 + 1 * (j 1).val = win8_3.index t (1 : Fin 2) * 100 + 1 * (j 1).val; omega
  · show V c main_v182 (((cfg8.win 2).blk t).view.emb (ix1 (j 1))) = V c main_v182 (ix1 ((((cfg8.win 3).blk t).view.emb j) 1))
    refine congrArg (V c main_v182) (funext fun a => Fin.ext ?_)
    match a with
    | ⟨0, _⟩ => show win8_2.index t (0 : Fin 1) * 100 + 1 * (j 1).val = win8_3.index t (1 : Fin 2) * 100 + 1 * (j 1).val; omega

/-- An index of the result array is in point t's block iff each coordinate is in the block's range on its axis. -/
theorem mem_blk (t : Fin cfg8.N) (i : S196608x100.Idx) :
    i ∈ ((cfg8.win 3).blk t).view.set ↔ ∀ a : Fin 2, win8_3.index t a * S8192x100.size a ≤ (i a).val ∧ (i a).val < win8_3.index t a * S8192x100.size a + S8192x100.size a := by
  show i ∈ ((View.whole main_v183).slice (win8_3.rect t)).set ↔ _
  rw [View.set_slice_whole, Rect.mem_set_unit]
  exact Iff.rfl

/-- The blocks cover the result array: row r is in the block of point r / 8192. -/
theorem cover (i : S196608x100.Idx) : ∃ t : Fin cfg8.N, (cfg8.win 3).flush t = true ∧ i ∈ ((cfg8.win 3).blk t).view.set := by
  have hi0 : (i 0).val < 196608 := (i 0).isLt
  have hi1 : (i 1).val < 100 := (i 1).isLt
  obtain ⟨t, ht⟩ := idx_onto ⟨(i 0).val / 8192, by omega⟩
  have q0 : win8_3.index t (0 : Fin 2) = (i 0).val / 8192 := congrFun ht 0
  have q1 : win8_3.index t (1 : Fin 2) = 0 := congrFun ht 1
  refine ⟨t, flush8_3 t, ?_⟩
  rw [mem_blk]
  intro a
  match a with
  | ⟨0, _⟩ => show win8_3.index t (0 : Fin 2) * 8192 ≤ (i 0).val ∧ (i 0).val < win8_3.index t (0 : Fin 2) * 8192 + 8192; omega
  | ⟨1, _⟩ => show win8_3.index t (1 : Fin 2) * 100 ≤ (i 1).val ∧ (i 1).val < win8_3.index t (1 : Fin 2) * 100 + 100; omega

/-- The array the region leaves: the whole-array layer of the arrays as the region finds them. -/
theorem value (c : Dev nD) : (dat8 V c).arrAt 3 cfg8.N
    = lin1 (R := 196608) (K := 100) (C := 100) (V c main_v181) (V c main_arg13) (row (V c main_v182)) :=
  (dat8 V c).arrAt_eq_of_cover 3 _ (fun t _ => flushed_eq V c t) cover

end Cert.KernelIdeal.Reg8

end
-- ==== Proof.Reg9.lean ====
/-
  Region 9: the array it leaves.

  The grid has 24 points; point t works on rows 8192·t … 8192·t + 8191 of a [196608, 100] table and the whole
  [100] bias row, and writes the same rows of the [196608, 100] result. Entry (p, q) of a tile reads only the tile's row p, so it is
  entry (8192·t + p, q) of the whole-array layer  max(X + b, 0) ; the 24 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg9

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity). -/
theorem pay_eq (x0 : Vec Ideal S8192x100 .f32) (x1 : Vec Ideal S100 .f32) :
    k9_pay1 x0 x1 = relu (addRow x0 (row x1)) := by
  unfold k9_pay1
  dsimp only
  simp only [shapeCast_self]
  rw [shapeCast_row]
  exact (congrArg (fun z => maximumf (F := Ideal) (φ := .f32) z _) (tile_addRow x0 (row x1) _)).trans (max_splat_relu _)

/-- The printed index maps over the grid: the table's and the result's tiles move together along the rows, the rest is fetched whole. -/
theorem idx_facts : ∀ t : Fin cfg9.N, win9_0.index t (0 : Fin 2) = win9_2.index t (0 : Fin 2)
    ∧ win9_0.index t (1 : Fin 2) = 0
    ∧ win9_1.index t (0 : Fin 1) = 0
    ∧ win9_2.index t (1 : Fin 2) = 0 :=
  (by decide +kernel : ∀ t : Fin grid9.N, _)

/-- Every block of rows is some point's. -/
theorem idx_onto : ∀ q0 : Fin 24, ∃ t : Fin cfg9.N, win9_2.index t = ![q0.val, 0] :=
  (by decide +kernel : ∀ q0 : Fin 24, ∃ t : Fin grid9.N, win9_2.index t = ![q0.val, 0])

/-- What point t writes back is block t of the whole-array layer of the arrays as the region finds them. -/
theorem flushed_eq (c : Dev nD) (t : Fin cfg9.N) :
    (dat9 V c).flushed 2 t = ((cfg9.win 2).blk t).view.read (Elt Ideal)
      (relu (addRow (R := 196608) (C := 100) (V c main_v223) (row (V c main_arg14)))) := by
  show (cfg9.win 2).cut (grid9.coords t) ((dat9 V c).after 2 t) = _
  rw [after9_2]
  unfold out9_2
  rw [View.canon_unit_zero hz2]
  simp only [View.ld_unit_zero (S := S8192x100) hz2, View.ld_unit_zero (S := S100) hz1]
  rw [pay_eq]
  obtain ⟨e0, e1, e2, e3⟩ := idx_facts t
  funext j
  show (relu (addRow (R := 8192) (C := 100) (iblk9 V c 0 t) (row (iblk9 V c 1 t)))) j
      = (relu (addRow (R := 196608) (C := 100) (V c main_v223) (row (V c main_arg14)))) (((cfg9.win 2).blk t).view.emb j)
  refine relu_addRow_at _ _ _ _ j _ ?_ ?_
  · show V c main_v223 (((cfg9.win 0).blk t).view.emb j) = V c main_v223 (((cfg9.win 2).blk t).view.emb j)
    refine congrArg (V c main_v223) (funext fun a => Fin.ext ?_)
    match a with
    | ⟨0, _⟩ => show win9_0.index t (0 : Fin 2) * 8192 + 1 * (j 0).val = win9_2.index t (0 : Fin 2) * 8192 + 1 * (j 0).val; omega
    | ⟨1, _⟩ => show win9_0.index t (1 : Fin 2) * 100 + 1 * (j 1).val = win9_2.index t (1 : Fin 2) * 100 + 1 * (j 1).val; omega
  · show V c main_arg14 (((cfg9.win 1).blk t).view.emb (ix1 (j 1))) = V c main_arg14 (ix1 ((((cfg9.win 2).blk t).view.emb j) 1))
    refine congrArg (V c main_arg14) (funext fun a => Fin.ext ?_)
    match a with
    | ⟨0, _⟩ => show win9_1.index t (0 : Fin 1) * 100 + 1 * (j 1).val = win9_2.index t (1 : Fin 2) * 100 + 1 * (j 1).val; omega

/-- An index of the result array is in point t's block iff each coordinate is in the block's range on its axis. -/
theorem mem_blk (t : Fin cfg9.N) (i : S196608x100.Idx) :
    i ∈ ((cfg9.win 2).blk t).view.set ↔ ∀ a : Fin 2, win9_2.index t a * S8192x100.size a ≤ (i a).val ∧ (i a).val < win9_2.index t a * S8192x100.size a + S8192x100.size a := by
  show i ∈ ((View.whole main_v224).slice (win9_2.rect t)).set ↔ _
  rw [View.set_slice_whole, Rect.mem_set_unit]
  exact Iff.rfl

/-- The blocks cover the result array: row r is in the block of point r / 8192. -/
theorem cover (i : S196608x100.Idx) : ∃ t : Fin cfg9.N, (cfg9.win 2).flush t = true ∧ i ∈ ((cfg9.win 2).blk t).view.set := by
  have hi0 : (i 0).val < 196608 := (i 0).isLt
  have hi1 : (i 1).val < 100 := (i 1).isLt
  obtain ⟨t, ht⟩ := idx_onto ⟨(i 0).val / 8192, by omega⟩
  have q0 : win9_2.index t (0 : Fin 2) = (i 0).val / 8192 := congrFun ht 0
  have q1 : win9_2.index t (1 : Fin 2) = 0 := congrFun ht 1
  refine ⟨t, flush9_2 t, ?_⟩
  rw [mem_blk]
  intro a
  match a with
  | ⟨0, _⟩ => show win9_2.index t (0 : Fin 2) * 8192 ≤ (i 0).val ∧ (i 0).val < win9_2.index t (0 : Fin 2) * 8192 + 8192; omega
  | ⟨1, _⟩ => show win9_2.index t (1 : Fin 2) * 100 ≤ (i 1).val ∧ (i 1).val < win9_2.index t (1 : Fin 2) * 100 + 100; omega

/-- The array the region leaves: the whole-array layer of the arrays as the region finds them. -/
theorem value (c : Dev nD) : (dat9 V c).arrAt 2 cfg9.N
    = relu (addRow (R := 196608) (C := 100) (V c main_v223) (row (V c main_arg14))) :=
  (dat9 V c).arrAt_eq_of_cover 2 _ (fun t _ => flushed_eq V c t) cover

end Cert.KernelIdeal.Reg9

end
-- ==== Proof.Reg10.lean ====
/-
  Region 10: the array it leaves.

  The grid has 8 points; point t works on rows 8192·t … 8192·t + 8191 of a [65536, 100] table, the whole [100, 100] weight matrix and the whole
  [100] bias row, and writes the same rows of the [65536, 100] result. Entry (p, q) of a tile reads only the tile's row p, so it is
  entry (8192·t + p, q) of the whole-array layer  max(X · W + b, 0) ; the 8 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg10

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity and the accumulator starts at zero). -/
theorem pay_eq (x0 : Vec Ideal S8192x100 .f32) (x1 : Vec Ideal S100x100 .f32) (x2 : Vec Ideal S100 .f32) :
    k10_pay1 x0 x1 x2 = relu (lin1 x0 x1 (row x2)) := by
  unfold k10_pay1
  dsimp only
  simp only [shapeCast_self]
  rw [shapeCast_row]
  exact (congrArg (fun z => maximumf (F := Ideal) (φ := .f32) z _) (tile_lin1 _ (Idealize.PlainDot.eq_plain _ rfl rfl rfl rfl rfl rfl) none x0 x1 (row x2) _)).trans (max_splat_relu _)

/-- The printed index maps over the grid: the table's and the result's tiles move together along the rows, the rest is fetched whole. -/
theorem idx_facts : ∀ t : Fin cfg10.N, win10_0.index t (0 : Fin 2) = win10_3.index t (0 : Fin 2)
    ∧ win10_0.index t (1 : Fin 2) = 0
    ∧ win10_1.index t (0 : Fin 2) = 0
    ∧ win10_1.index t (1 : Fin 2) = 0
    ∧ win10_2.index t (0 : Fin 1) = 0
    ∧ win10_3.index t (1 : Fin 2) = 0 :=
  (by decide +kernel : ∀ t : Fin grid10.N, _)

/-- Every block of rows is some point's. -/
theorem idx_onto : ∀ q0 : Fin 8, ∃ t : Fin cfg10.N, win10_3.index t = ![q0.val, 0] :=
  (by decide +kernel : ∀ q0 : Fin 8, ∃ t : Fin grid10.N, win10_3.index t = ![q0.val, 0])

/-- What point t writes back is block t of the whole-array layer of the arrays as the region finds them. -/
theorem flushed_eq (c : Dev nD) (t : Fin cfg10.N) :
    (dat10 V c).flushed 3 t = ((cfg10.win 3).blk t).view.read (Elt Ideal)
      (relu (lin1 (R := 65536) (K := 100) (C := 100) (V c main_v234) (V c main_arg15) (row (V c main_arg16)))) := by
  show (cfg10.win 3).cut (grid10.coords t) ((dat10 V c).after 3 t) = _
  rw [after10_3]
  unfold out10_3
  rw [View.canon_unit_zero hz2]
  simp only [View.ld_unit_zero (S := S8192x100) hz2, View.ld_unit_zero (S := S100x100) hz2, View.ld_unit_zero (S := S100) hz1]
  rw [pay_eq]
  obtain ⟨e0, e1, e2, e3, e4, e5⟩ := idx_facts t
  funext j
  show (relu (lin1 (R := 8192) (K := 100) (C := 100) (iblk10 V c 0 t) (iblk10 V c 1 t) (row (iblk10 V c 2 t)))) j
      = (relu (lin1 (R := 65536) (K := 100) (C := 100) (V c main_v234) (V c main_arg15) (row (V c main_arg16)))) (((cfg10.win 3).blk t).view.emb j)
  refine relu_lin1_at _ _ _ _ _ _ j _ (fun k => ?_) (fun k => ?_) ?_
  · show V c main_v234 (((cfg10.win 0).blk t).view.emb (ix2 (j 0) k)) = V c main_v234 (ix2 ((((cfg10.win 3).blk t).view.emb j) 0) k)
    refine congrArg (V c main_v234) (funext fun a => Fin.ext ?_)
    match a with
    | ⟨0, _⟩ => show win10_0.index t (0 : Fin 2) * 8192 + 1 * (j 0).val = win10_3.index t (0 : Fin 2) * 8192 + 1 * (j 0).val; omega
    | ⟨1, _⟩ => show win10_0.index t (1 : Fin 2) * 100 + 1 * k.val = k.val; omega
  · show V c main_arg15 (((cfg10.win 1).blk t).view.emb (ix2 k (j 1))) = V c main_arg15 (ix2 k ((((cfg10.win 3).blk t).view.emb j) 1))
    refine congrArg (V c main_arg15) (funext fun a => Fin.ext ?_)
    match a with
    | ⟨0, _⟩ => show win10_1.index t (0 : Fin 2) * 100 + 1 * k.val = k.val; omega
    | ⟨1, _⟩ => show win10_1.index t (1 : Fin 2) * 100 + 1 * (j 1).val = win10_3.index t (1 : Fin 2) * 100 + 1 * (j 1).val; omega
  · show V c main_arg16 (((cfg10.win 2).blk t).view.emb (ix1 (j 1))) = V c main_arg16 (ix1 ((((cfg10.win 3).blk t).view.emb j) 1))
    refine congrArg (V c main_arg16) (funext fun a => Fin.ext ?_)
    match a with
    | ⟨0, _⟩ => show win10_2.index t (0 : Fin 1) * 100 + 1 * (j 1).val = win10_3.index t (1 : Fin 2) * 100 + 1 * (j 1).val; omega

/-- An index of the result array is in point t's block iff each coordinate is in the block's range on its axis. -/
theorem mem_blk (t : Fin cfg10.N) (i : S65536x100.Idx) :
    i ∈ ((cfg10.win 3).blk t).view.set ↔ ∀ a : Fin 2, win10_3.index t a * S8192x100.size a ≤ (i a).val ∧ (i a).val < win10_3.index t a * S8192x100.size a + S8192x100.size a := by
  show i ∈ ((View.whole main_v235).slice (win10_3.rect t)).set ↔ _
  rw [View.set_slice_whole, Rect.mem_set_unit]
  exact Iff.rfl

/-- The blocks cover the result array: row r is in the block of point r / 8192. -/
theorem cover (i : S65536x100.Idx) : ∃ t : Fin cfg10.N, (cfg10.win 3).flush t = true ∧ i ∈ ((cfg10.win 3).blk t).view.set := by
  have hi0 : (i 0).val < 65536 := (i 0).isLt
  have hi1 : (i 1).val < 100 := (i 1).isLt
  obtain ⟨t, ht⟩ := idx_onto ⟨(i 0).val / 8192, by omega⟩
  have q0 : win10_3.index t (0 : Fin 2) = (i 0).val / 8192 := congrFun ht 0
  have q1 : win10_3.index t (1 : Fin 2) = 0 := congrFun ht 1
  refine ⟨t, flush10_3 t, ?_⟩
  rw [mem_blk]
  intro a
  match a with
  | ⟨0, _⟩ => show win10_3.index t (0 : Fin 2) * 8192 ≤ (i 0).val ∧ (i 0).val < win10_3.index t (0 : Fin 2) * 8192 + 8192; omega
  | ⟨1, _⟩ => show win10_3.index t (1 : Fin 2) * 100 ≤ (i 1).val ∧ (i 1).val < win10_3.index t (1 : Fin 2) * 100 + 100; omega

/-- The array the region leaves: the whole-array layer of the arrays as the region finds them. -/
theorem value (c : Dev nD) : (dat10 V c).arrAt 3 cfg10.N
    = relu (lin1 (R := 65536) (K := 100) (C := 100) (V c main_v234) (V c main_arg15) (row (V c main_arg16))) :=
  (dat10 V c).arrAt_eq_of_cover 3 _ (fun t _ => flushed_eq V c t) cover

end Cert.KernelIdeal.Reg10

end
-- ==== Proof.Reg11.lean ====
/-
  Region 11: the array it leaves.

  The grid has 8 points; point t works on rows 8192·t … 8192·t + 8191 of a [65536, 100] table, the whole [100, 100] weight matrix and the whole
  [100] bias row, and writes the same rows of the [65536, 100] result. Entry (p, q) of a tile reads only the tile's row p, so it is
  entry (8192·t + p, q) of the whole-array layer  max(X · W + b, 0) ; the 8 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg11

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity and the accumulator starts at zero). -/
theorem pay_eq (x0 : Vec Ideal S8192x100 .f32) (x1 : Vec Ideal S100x100 .f32) (x2 : Vec Ideal S100 .f32) :
    k11_pay1 x0 x1 x2 = relu (lin1 x0 x1 (row x2)) := by
  unfold k11_pay1
  dsimp only
  simp only [shapeCast_self]
  rw [shapeCast_row]
  exact (congrArg (fun z => maximumf (F := Ideal) (φ := .f32) z _) (tile_lin1 _ (Idealize.PlainDot.eq_plain _ rfl rfl rfl rfl rfl rfl) none x0 x1 (row x2) _)).trans (max_splat_relu _)

/-- The printed index maps over the grid: the table's and the result's tiles move together along the rows, the rest is fetched whole. -/
theorem idx_facts : ∀ t : Fin cfg11.N, win11_0.index t (0 : Fin 2) = win11_3.index t (0 : Fin 2)
    ∧ win11_0.index t (1 : Fin 2) = 0
    ∧ win11_1.index t (0 : Fin 2) = 0
    ∧ win11_1.index t (1 : Fin 2) = 0
    ∧ win11_2.index t (0 : Fin 1) = 0
    ∧ win11_3.index t (1 : Fin 2) = 0 :=
  (by decide +kernel : ∀ t : Fin grid11.N, _)

/-- Every block of rows is some point's. -/
theorem idx_onto : ∀ q0 : Fin 8, ∃ t : Fin cfg11.N, win11_3.index t = ![q0.val, 0] :=
  (by decide +kernel : ∀ q0 : Fin 8, ∃ t : Fin grid11.N, win11_3.index t = ![q0.val, 0])

/-- What point t writes back is block t of the whole-array layer of the arrays as the region finds them. -/
theorem flushed_eq (c : Dev nD) (t : Fin cfg11.N) :
    (dat11 V c).flushed 3 t = ((cfg11.win 3).blk t).view.read (Elt Ideal)
      (relu (lin1 (R := 65536) (K := 100) (C := 100) (V c main_v235) (V c main_arg17) (row (V c main_arg18)))) := by
  show (cfg11.win 3).cut (grid11.coords t) ((dat11 V c).after 3 t) = _
  rw [after11_3]
  unfold out11_3
  rw [View.canon_unit_zero hz2]
  simp only [View.ld_unit_zero (S := S8192x100) hz2, View.ld_unit_zero (S := S100x100) hz2, View.ld_unit_zero (S := S100) hz1]
  rw [pay_eq]
  obtain ⟨e0, e1, e2, e3, e4, e5⟩ := idx_facts t
  funext j
  show (relu (lin1 (R := 8192) (K := 100) (C := 100) (iblk11 V c 0 t) (iblk11 V c 1 t) (row (iblk11 V c 2 t)))) j
      = (relu (lin1 (R := 65536) (K := 100) (C := 100) (V c main_v235) (V c main_arg17) (row (V c main_arg18)))) (((cfg11.win 3).blk t).view.emb j)
  refine relu_lin1_at _ _ _ _ _ _ j _ (fun k => ?_) (fun k => ?_) ?_
  · show V c main_v235 (((cfg11.win 0).blk t).view.emb (ix2 (j 0) k)) = V c main_v235 (ix2 ((((cfg11.win 3).blk t).view.emb j) 0) k)
    refine congrArg (V c main_v235) (funext fun a => Fin.ext ?_)
    match a with
    | ⟨0, _⟩ => show win11_0.index t (0 : Fin 2) * 8192 + 1 * (j 0).val = win11_3.index t (0 : Fin 2) * 8192 + 1 * (j 0).val; omega
    | ⟨1, _⟩ => show win11_0.index t (1 : Fin 2) * 100 + 1 * k.val = k.val; omega
  · show V c main_arg17 (((cfg11.win 1).blk t).view.emb (ix2 k (j 1))) = V c main_arg17 (ix2 k ((((cfg11.win 3).blk t).view.emb j) 1))
    refine congrArg (V c main_arg17) (funext fun a => Fin.ext ?_)
    match a with
    | ⟨0, _⟩ => show win11_1.index t (0 : Fin 2) * 100 + 1 * k.val = k.val; omega
    | ⟨1, _⟩ => show win11_1.index t (1 : Fin 2) * 100 + 1 * (j 1).val = win11_3.index t (1 : Fin 2) * 100 + 1 * (j 1).val; omega
  · show V c main_arg18 (((cfg11.win 2).blk t).view.emb (ix1 (j 1))) = V c main_arg18 (ix1 ((((cfg11.win 3).blk t).view.emb j) 1))
    refine congrArg (V c main_arg18) (funext fun a => Fin.ext ?_)
    match a with
    | ⟨0, _⟩ => show win11_2.index t (0 : Fin 1) * 100 + 1 * (j 1).val = win11_3.index t (1 : Fin 2) * 100 + 1 * (j 1).val; omega

/-- An index of the result array is in point t's block iff each coordinate is in the block's range on its axis. -/
theorem mem_blk (t : Fin cfg11.N) (i : S65536x100.Idx) :
    i ∈ ((cfg11.win 3).blk t).view.set ↔ ∀ a : Fin 2, win11_3.index t a * S8192x100.size a ≤ (i a).val ∧ (i a).val < win11_3.index t a * S8192x100.size a + S8192x100.size a := by
  show i ∈ ((View.whole main_v236).slice (win11_3.rect t)).set ↔ _
  rw [View.set_slice_whole, Rect.mem_set_unit]
  exact Iff.rfl

/-- The blocks cover the result array: row r is in the block of point r / 8192. -/
theorem cover (i : S65536x100.Idx) : ∃ t : Fin cfg11.N, (cfg11.win 3).flush t = true ∧ i ∈ ((cfg11.win 3).blk t).view.set := by
  have hi0 : (i 0).val < 65536 := (i 0).isLt
  have hi1 : (i 1).val < 100 := (i 1).isLt
  obtain ⟨t, ht⟩ := idx_onto ⟨(i 0).val / 8192, by omega⟩
  have q0 : win11_3.index t (0 : Fin 2) = (i 0).val / 8192 := congrFun ht 0
  have q1 : win11_3.index t (1 : Fin 2) = 0 := congrFun ht 1
  refine ⟨t, flush11_3 t, ?_⟩
  rw [mem_blk]
  intro a
  match a with
  | ⟨0, _⟩ => show win11_3.index t (0 : Fin 2) * 8192 ≤ (i 0).val ∧ (i 0).val < win11_3.index t (0 : Fin 2) * 8192 + 8192; omega
  | ⟨1, _⟩ => show win11_3.index t (1 : Fin 2) * 100 ≤ (i 1).val ∧ (i 1).val < win11_3.index t (1 : Fin 2) * 100 + 100; omega

/-- The array the region leaves: the whole-array layer of the arrays as the region finds them. -/
theorem value (c : Dev nD) : (dat11 V c).arrAt 3 cfg11.N
    = relu (lin1 (R := 65536) (K := 100) (C := 100) (V c main_v235) (V c main_arg17) (row (V c main_arg18))) :=
  (dat11 V c).arrAt_eq_of_cover 3 _ (fun t _ => flushed_eq V c t) cover

end Cert.KernelIdeal.Reg11

end
-- ==== Proof.Reg12.lean ====
/-
  Region 12: the array it leaves.

  The grid has 8 points; point t works on rows 8192·t … 8192·t + 8191 of a [65536, 100] table, the whole [100, 29] weight matrix and the whole
  [29] bias row, and writes the same rows of the [65536, 29] result. Entry (p, q) of a tile reads only the tile's row p, so it is
  entry (8192·t + p, q) of the whole-array layer  X · W + b ; the 8 tiles cover every row, so the array ends holding that layer.
-/
import proofs.«123412_j7670811591308_1_alg».proof.Proof.Gen.KernelIdeal.Frame
import proofs.«123412_j7670811591308_1_alg».proof.Proof.LibRowTiles

set_option maxRecDepth 16384

noncomputable section

namespace Cert.KernelIdeal.Reg12

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.SageLin Idealize.RowTiles

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl
/-- The body's arithmetic on a tile is the layer of the tile (a change of float format is the identity and the accumulator starts at zero). -/
theorem pay_eq (x0 : Vec Ideal S8192x100 .f32) (x1 : Vec Ideal S100x29 .f32) (x2 : Vec Ideal S29 .f32) :
    k12_pay1 x0 x1 x2 = lin1 x0 x1 (row x2) := by
  unfold k12_pay1
  dsimp only
  simp only [shapeCast_self]
  rw [shapeCast_row]
  exact tile_lin1 _ (Idealize.PlainDot.eq_plain _ rfl rfl rfl rfl rfl rfl) none x0 x1 (row x2) _

/-- The printed index maps over the grid: the table's and the result's tiles move together along the rows, the rest is fetched whole. -/
theorem idx_facts : ∀ t : Fin cfg12.N, win12_0.index t (0 : Fin 2) = win12_3.index t (0 : Fin 2)
    ∧ win12_0.index t (1 : Fin 2) = 0
    ∧ win12_1.index t (0 : Fin 2) = 0
    ∧ win12_1.index t (1 : Fin 2) = 0
    ∧ win12_2.index t (0 : Fin 1) = 0
    ∧ win12_3.index t (1 : Fin 2) = 0 :=
  (by decide +kernel : ∀ t : Fin grid12.N, _)

/-- Every block of rows is some point's. -/
theorem idx_onto : ∀ q0 : Fin 8, ∃ t : Fin cfg12.N, win12_3.index t = ![q0.val, 0] :=
  (by decide +kernel : ∀ q0 : Fin 8, ∃ t : Fin grid12.N, win12_3.index t = ![q0.val, 0])

/-- What point t writes back is block t of the whole-array layer of the arrays as the region finds them. -/
theorem flushed_eq (c : Dev nD) (t : Fin cfg12.N) :
    (dat12 V c).flushed 3 t = ((cfg12.win 3).blk t).view.read (Elt Ideal)
      (lin1 (R := 65536) (K := 100) (C := 29) (V c main_v236) (V c main_arg19) (row (V c main_arg20))) := by
  show (cfg12.win 3).cut (grid12.coords t) ((dat12 V c).after 3 t) = _
  rw [after12_3]
  unfold out12_3
  rw [View.canon_unit_zero hz2]
  simp only [View.ld_unit_zero (S := S8192x100) hz2, View.ld_unit_zero (S := S100x29) hz2, View.ld_unit_zero (S := S29) hz1]
  rw [pay_eq]
  obtain ⟨e0, e1, e2, e3, e4, e5⟩ := idx_facts t
  funext j
  show (lin1 (R := 8192) (K := 100) (C := 29) (iblk12 V c 0 t) (iblk12 V c 1 t) (row (iblk12 V c 2 t))) j
      = (lin1 (R := 65536) (K := 100) (C := 29) (V c main_v236) (V c main_arg19) (row (V c main_arg20))) (((cfg12.win 3).blk t).view.emb j)
  refine lin1_at _ _ _ _ _ _ j _ (fun k => ?_) (fun k => ?_) ?_
  · show V c main_v236 (((cfg12.win 0).blk t).view.emb (ix2 (j 0) k)) = V c main_v236 (ix2 ((((cfg12.win 3).blk t).view.emb j) 0) k)
    refine congrArg (V c main_v236) (funext fun a => Fin.ext ?_)
    match a with
    | ⟨0, _⟩ => show win12_0.index t (0 : Fin 2) * 8192 + 1 * (j 0).val = win12_3.index t (0 : Fin 2) * 8192 + 1 * (j 0).val; omega
    | ⟨1, _⟩ => show win12_0.index t (1 : Fin 2) * 100 + 1 * k.val = k.val; omega
  · show V c main_arg19 (((cfg12.win 1).blk t).view.emb (ix2 k (j 1))) = V c main_arg19 (ix2 k ((((cfg12.win 3).blk t).view.emb j) 1))
    refine congrArg (V c main_arg19) (funext fun a => Fin.ext ?_)
    match a with
    | ⟨0, _⟩ => show win12_1.index t (0 : Fin 2) * 100 + 1 * k.val = k.val; omega
    | ⟨1, _⟩ => show win12_1.index t (1 : Fin 2) * 29 + 1 * (j 1).val = win12_3.index t (1 : Fin 2) * 29 + 1 * (j 1).val; omega
  · show V c main_arg20 (((cfg12.win 2).blk t).view.emb (ix1 (j 1))) = V c main_arg20 (ix1 ((((cfg12.win 3).blk t).view.emb j) 1))
    refine congrArg (V c main_arg20) (funext fun a => Fin.ext ?_)
    match a with
    | ⟨0, _⟩ => show win12_2.index t (0 : Fin 1) * 29 + 1 * (j 1).val = win12_3.index t (1 : Fin 2) * 29 + 1 * (j 1).val; omega

/-- An index of the result array is in point t's block iff each coordinate is in the block's range on its axis. -/
theorem mem_blk (t : Fin cfg12.N) (i : S65536x29.Idx) :
    i ∈ ((cfg12.win 3).blk t).view.set ↔ ∀ a : Fin 2, win12_3.index t a * S8192x29.size a ≤ (i a).val ∧ (i a).val < win12_3.index t a * S8192x29.size a + S8192x29.size a := by
  show i ∈ ((View.whole main_v237).slice (win12_3.rect t)).set ↔ _
  rw [View.set_slice_whole, Rect.mem_set_unit]
  exact Iff.rfl

/-- The blocks cover the result array: row r is in the block of point r / 8192. -/
theorem cover (i : S65536x29.Idx) : ∃ t : Fin cfg12.N, (cfg12.win 3).flush t = true ∧ i ∈ ((cfg12.win 3).blk t).view.set := by
  have hi0 : (i 0).val < 65536 := (i 0).isLt
  have hi1 : (i 1).val < 29 := (i 1).isLt
  obtain ⟨t, ht⟩ := idx_onto ⟨(i 0).val / 8192, by omega⟩
  have q0 : win12_3.index t (0 : Fin 2) = (i 0).val / 8192 := congrFun ht 0
  have q1 : win12_3.index t (1 : Fin 2) = 0 := congrFun ht 1
  refine ⟨t, flush12_3 t, ?_⟩
  rw [mem_blk]
  intro a
  match a with
  | ⟨0, _⟩ => show win12_3.index t (0 : Fin 2) * 8192 ≤ (i 0).val ∧ (i 0).val < win12_3.index t (0 : Fin 2) * 8192 + 8192; omega
  | ⟨1, _⟩ => show win12_3.index t (1 : Fin 2) * 29 ≤ (i 1).val ∧ (i 1).val < win12_3.index t (1 : Fin 2) * 29 + 29; omega

/-- The array the region leaves: the whole-array layer of the arrays as the region finds them. -/
theorem value (c : Dev nD) : (dat12 V c).arrAt 3 cfg12.N
    = lin1 (R := 65536) (K := 100) (C := 29) (V c main_v236) (V c main_arg19) (row (V c main_arg20)) :=
  (dat12 V c).arrAt_eq_of_cover 3 _ (fun t _ => flushed_eq V c t) cover

end Cert.KernelIdeal.Reg12

end
-- ==== Proof.Chain.lean ====
/-
  The idealized kernel's result array as the reference's last stage of the arguments.

  The program is thirteen regions among stretches of host operations. Read in program order: a region whose bias row is the
  host's all-zero row leaves the bare product, the host's dot_general of the same operands; a region adding a bias row and
  rectifying leaves the maximum of the sum with the broadcast bias and a broadcast zero; the three regions of the head leave
  the product plus the broadcast bias, rectified or not. Each host stretch applies to those arrays exactly the operations the
  reference applies at the same place, so each boundary's live array is one of the reference's stage functions of the
  arguments, and the last one is the result.
-/
import proofs.«123412_j7670811591308_1_alg».proof.Proof.Gen.KernelIdeal.Frame
import proofs.«123412_j7670811591308_1_alg».proof.Proof.FoldArgsA
import proofs.«123412_j7670811591308_1_alg».proof.Proof.FoldArgsB
import proofs.«123412_j7670811591308_1_alg».proof.Proof.FoldArgsC
import proofs.«123412_j7670811591308_1_alg».proof.Proof.FoldArgsD
import proofs.«123412_j7670811591308_1_alg».proof.Proof.RefReadP
import proofs.«123412_j7670811591308_1_alg».proof.Proof.LibRowTiles
import proofs.«123412_j7670811591308_1_alg».proof.Proof.Reg0
import proofs.«123412_j7670811591308_1_alg».proof.Proof.Reg1
import proofs.«123412_j7670811591308_1_alg».proof.Proof.Reg2
import proofs.«123412_j7670811591308_1_alg».proof.Proof.Reg3
import proofs.«123412_j7670811591308_1_alg».proof.Proof.Reg4
import proofs.«123412_j7670811591308_1_alg».proof.Proof.Reg5
import proofs.«123412_j7670811591308_1_alg».proof.Proof.Reg6
import proofs.«123412_j7670811591308_1_alg».proof.Proof.Reg7
import proofs.«123412_j7670811591308_1_alg».proof.Proof.Reg8
import proofs.«123412_j7670811591308_1_alg».proof.Proof.Reg9
import proofs.«123412_j7670811591308_1_alg».proof.Proof.Reg10
import proofs.«123412_j7670811591308_1_alg».proof.Proof.Reg11
import proofs.«123412_j7670811591308_1_alg».proof.Proof.Reg12

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)
open Idealize.ShloMosaic.ValueIdx Idealize.SageLin Idealize.RowTiles

/-- The bias row region 0 is given is the host's all-zero row. -/
theorem Z0 (c : Dev nD) : W1 m ρ c (Proc.devRef .tc main_v0) = broadcastInDim S100 ![] bcast_S_S100 (constant (F := Ideal) S_ .f32 0x00000000#32) := by
  show StableHlo.after hostOps0 (W0 m ρ c) (Proc.devRef .tc main_v0) = _
  after_results_simp <;> rfl

/-- Region 0 leaves the reference's stage v0 of the arguments. -/
theorem Y0 (c : Dev nD) : W2 m ρ c (Proc.devRef .tc main_v1) = Cert.ReferenceIdeal.ReadP.val_main_v0 (F := Ideal) (m ((c : Thread nD τ).loc main_arg0)) (m ((c : Thread nD τ).loc main_arg5)) := by
  refine (W2_arr m ρ c 3).trans ((Reg0.value (V1 m ρ) c).trans ?_)
  show lin1 (R := 524288) (K := 336) (C := 100) (W1 m ρ c (Proc.devRef .tc main_arg0)) (W1 m ρ c (Proc.devRef .tc main_arg5)) (row (W1 m ρ c (Proc.devRef .tc main_v0))) = _
  rw [arg0_at1 m ρ c, arg5_at1 m ρ c, Z0 m ρ c]
  unfold Cert.ReferenceIdeal.ReadP.val_main_v0
  exact lin1_zero_row_eq_dot _ (Idealize.PlainDot.eq_plain _ rfl rfl rfl rfl rfl rfl) none _ _ _

set_option maxHeartbeats 4000000 in
/-- Host stretch 1 applies to the previous stage the operations the reference applies to its own: the same stage function. -/
theorem X1 (c : Dev nD) : W3 m ρ c (Proc.devRef .tc main_v41) = Cert.ReferenceIdeal.ReadP.val_main_v40 (F := Ideal) (m ((c : Thread nD τ).loc main_arg0)) (m ((c : Thread nD τ).loc main_arg1)) (m ((c : Thread nD τ).loc main_arg5)) := by
  show StableHlo.after hostOps1 (W2 m ρ c) (Proc.devRef .tc main_v41) = _
  after_results_simp
  -- the operands of a concatenate sit inside dependent pairs, where the simp pass does not reach: finish those by rewriting
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [Y0 m ρ c, arg1_at2 m ρ c]
  rfl

/-- Region 1 leaves the reference's stage v44 of the arguments. -/
theorem Y1 (c : Dev nD) : W4 m ρ c (Proc.devRef .tc main_v42) = Cert.ReferenceIdeal.ReadP.val_main_v44 (F := Ideal) (m ((c : Thread nD τ).loc main_arg0)) (m ((c : Thread nD τ).loc main_arg1)) (m ((c : Thread nD τ).loc main_arg5)) (m ((c : Thread nD τ).loc main_arg6)) := by
  refine (W4_arr m ρ c 2).trans ((Reg1.value (V3 m ρ) c).trans ?_)
  show relu (addRow (R := 524288) (C := 100) (W3 m ρ c (Proc.devRef .tc main_v41)) (row (W3 m ρ c (Proc.devRef .tc main_arg6)))) = _
  rw [X1 m ρ c, arg6_at3 m ρ c]
  unfold Cert.ReferenceIdeal.ReadP.val_main_v44 Cert.ReferenceIdeal.ReadP.val_main_v43 Cert.ReferenceIdeal.ReadP.val_main_v42 Cert.ReferenceIdeal.ReadP.val_main_v41 Cert.ReferenceIdeal.ReadP.val_main_call0_v0 Cert.ReferenceIdeal.ReadP.val_main_call0_cst
  exact relu_addRow_eq_host _ _ _ _ _

/-- Host stretch 2 does not write this array. -/
theorem P2 (c : Dev nD) : W5 m ρ c (Proc.devRef .tc main_v42) = W4 m ρ c (Proc.devRef .tc main_v42) :=
  (StableHlo.after_of_forall_not_mem (b := Proc.devRef .tc main_v42) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The bias row region 2 is given is the host's all-zero row. -/
theorem Z2 (c : Dev nD) : W5 m ρ c (Proc.devRef .tc main_v43) = broadcastInDim S100 ![] bcast_S_S100 (constant (F := Ideal) S_ .f32 0x00000000#32) := by
  show StableHlo.after hostOps2 (W4 m ρ c) (Proc.devRef .tc main_v43) = _
  after_results_simp <;> rfl

/-- Region 2 leaves the reference's stage v45 of the arguments. -/
theorem Y2 (c : Dev nD) : W6 m ρ c (Proc.devRef .tc main_v44) = Cert.ReferenceIdeal.ReadP.val_main_v45 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  refine (W6_arr m ρ c 3).trans ((Reg2.value (V5 m ρ) c).trans ?_)
  show lin1 (R := 524288) (K := 100) (C := 100) (W5 m ρ c (Proc.devRef .tc main_v42)) (W5 m ρ c (Proc.devRef .tc main_arg7)) (row (W5 m ρ c (Proc.devRef .tc main_v43))) = _
  rw [P2 m ρ c, Y1 m ρ c, arg7_at5 m ρ c, Z2 m ρ c]
  unfold Cert.ReferenceIdeal.ReadP.val_main_v45
  exact lin1_zero_row_eq_dot _ (Idealize.PlainDot.eq_plain _ rfl rfl rfl rfl rfl rfl) none _ _ _

set_option maxHeartbeats 4000000 in
/-- Host stretch 3 applies to the previous stage the operations the reference applies to its own: the same stage function. -/
theorem X3 (c : Dev nD) : W7 m ρ c (Proc.devRef .tc main_v84) = Cert.ReferenceIdeal.ReadP.val_main_v85 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  show StableHlo.after hostOps3 (W6 m ρ c) (Proc.devRef .tc main_v84) = _
  after_results_simp
  -- the operands of a concatenate sit inside dependent pairs, where the simp pass does not reach: finish those by rewriting
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [Y2 m ρ c, arg1_at6 m ρ c]
  rfl

/-- Region 3 leaves the reference's stage v89 of the arguments. -/
theorem Y3 (c : Dev nD) : W8 m ρ c (Proc.devRef .tc main_v85) = Cert.ReferenceIdeal.ReadP.val_main_v89 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  refine (W8_arr m ρ c 2).trans ((Reg3.value (V7 m ρ) c).trans ?_)
  show relu (addRow (R := 524288) (C := 100) (W7 m ρ c (Proc.devRef .tc main_v84)) (row (W7 m ρ c (Proc.devRef .tc main_arg8)))) = _
  rw [X3 m ρ c, arg8_at7 m ρ c]
  unfold Cert.ReferenceIdeal.ReadP.val_main_v89 Cert.ReferenceIdeal.ReadP.val_main_v88 Cert.ReferenceIdeal.ReadP.val_main_v87 Cert.ReferenceIdeal.ReadP.val_main_v86 Cert.ReferenceIdeal.ReadP.val_main_call1_v0 Cert.ReferenceIdeal.ReadP.val_main_call1_cst
  exact relu_addRow_eq_host _ _ _ _ _

/-- Host stretch 4 does not write this array. -/
theorem P4 (c : Dev nD) : W9 m ρ c (Proc.devRef .tc main_v85) = W8 m ρ c (Proc.devRef .tc main_v85) :=
  (StableHlo.after_of_forall_not_mem (b := Proc.devRef .tc main_v85) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The bias row region 4 is given is the host's all-zero row. -/
theorem Z4 (c : Dev nD) : W9 m ρ c (Proc.devRef .tc main_v86) = broadcastInDim S100 ![] bcast_S_S100 (constant (F := Ideal) S_ .f32 0x00000000#32) := by
  show StableHlo.after hostOps4 (W8 m ρ c) (Proc.devRef .tc main_v86) = _
  after_results_simp <;> rfl

/-- Region 4 leaves the reference's stage v90 of the arguments. -/
theorem Y4 (c : Dev nD) : W10 m ρ c (Proc.devRef .tc main_v87) = Cert.ReferenceIdeal.ReadP.val_main_v90 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 3).trans ((Reg4.value (V9 m ρ) c).trans ?_)
  show lin1 (R := 524288) (K := 100) (C := 100) (W9 m ρ c (Proc.devRef .tc main_v85)) (W9 m ρ c (Proc.devRef .tc main_arg9)) (row (W9 m ρ c (Proc.devRef .tc main_v86))) = _
  rw [P4 m ρ c, Y3 m ρ c, arg9_at9 m ρ c, Z4 m ρ c]
  unfold Cert.ReferenceIdeal.ReadP.val_main_v90
  exact lin1_zero_row_eq_dot _ (Idealize.PlainDot.eq_plain _ rfl rfl rfl rfl rfl rfl) none _ _ _

set_option maxHeartbeats 4000000 in
/-- Host stretch 5 applies to the previous stage the operations the reference applies to its own: the same stage function. -/
theorem X5 (c : Dev nD) : W11 m ρ c (Proc.devRef .tc main_v127) = Cert.ReferenceIdeal.ReadP.val_main_v130 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps5 (W10 m ρ c) (Proc.devRef .tc main_v127) = _
  after_results_simp
  -- the operands of a concatenate sit inside dependent pairs, where the simp pass does not reach: finish those by rewriting
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [Y4 m ρ c, arg1_at10 m ρ c]
  rfl

/-- Region 5 leaves the reference's stage v134 of the arguments. -/
theorem Y5 (c : Dev nD) : W12 m ρ c (Proc.devRef .tc main_v128) = Cert.ReferenceIdeal.ReadP.val_main_v134 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 2).trans ((Reg5.value (V11 m ρ) c).trans ?_)
  show relu (addRow (R := 524288) (C := 100) (W11 m ρ c (Proc.devRef .tc main_v127)) (row (W11 m ρ c (Proc.devRef .tc main_arg10)))) = _
  rw [X5 m ρ c, arg10_at11 m ρ c]
  unfold Cert.ReferenceIdeal.ReadP.val_main_v134 Cert.ReferenceIdeal.ReadP.val_main_v133 Cert.ReferenceIdeal.ReadP.val_main_v132 Cert.ReferenceIdeal.ReadP.val_main_v131 Cert.ReferenceIdeal.ReadP.val_main_call2_v0 Cert.ReferenceIdeal.ReadP.val_main_call2_cst
  exact relu_addRow_eq_host _ _ _ _ _

set_option maxHeartbeats 4000000 in
/-- Host stretch 6 applies to the previous stage the operations the reference applies to its own: the same stage function. -/
theorem X6 (c : Dev nD) : W13 m ρ c (Proc.devRef .tc main_v138) = Cert.ReferenceIdeal.ReadP.val_main_v144 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps6 (W12 m ρ c) (Proc.devRef .tc main_v138) = _
  after_results_simp
  -- the operands of a concatenate sit inside dependent pairs, where the simp pass does not reach: finish those by rewriting
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [Y5 m ρ c, arg3_at12 m ρ c]
  rfl

/-- The bias row region 6 is given is the host's all-zero row. -/
theorem Z6 (c : Dev nD) : W13 m ρ c (Proc.devRef .tc main_v139) = broadcastInDim S100 ![] bcast_S_S100 (constant (F := Ideal) S_ .f32 0x00000000#32) := by
  show StableHlo.after hostOps6 (W12 m ρ c) (Proc.devRef .tc main_v139) = _
  after_results_simp <;> rfl

/-- Region 6 leaves the reference's stage v145 of the arguments. -/
theorem Y6 (c : Dev nD) : W14 m ρ c (Proc.devRef .tc main_v140) = Cert.ReferenceIdeal.ReadP.val_main_v145 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 3).trans ((Reg6.value (V13 m ρ) c).trans ?_)
  show lin1 (R := 196608) (K := 100) (C := 100) (W13 m ρ c (Proc.devRef .tc main_v138)) (W13 m ρ c (Proc.devRef .tc main_arg11)) (row (W13 m ρ c (Proc.devRef .tc main_v139))) = _
  rw [X6 m ρ c, arg11_at13 m ρ c, Z6 m ρ c]
  unfold Cert.ReferenceIdeal.ReadP.val_main_v145
  exact lin1_zero_row_eq_dot _ (Idealize.PlainDot.eq_plain _ rfl rfl rfl rfl rfl rfl) none _ _ _

set_option maxHeartbeats 4000000 in
/-- Host stretch 7 applies to the previous stage the operations the reference applies to its own: the same stage function. -/
theorem X7 (c : Dev nD) : W15 m ρ c (Proc.devRef .tc main_v180) = Cert.ReferenceIdeal.ReadP.val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps7 (W14 m ρ c) (Proc.devRef .tc main_v180) = _
  after_results_simp
  -- the operands of a concatenate sit inside dependent pairs, where the simp pass does not reach: finish those by rewriting
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [Y6 m ρ c, arg2_at14 m ρ c]
  rfl

/-- Region 7 leaves the reference's stage v189 of the arguments. -/
theorem Y7 (c : Dev nD) : W16 m ρ c (Proc.devRef .tc main_v181) = Cert.ReferenceIdeal.ReadP.val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W16_arr m ρ c 2).trans ((Reg7.value (V15 m ρ) c).trans ?_)
  show relu (addRow (R := 196608) (C := 100) (W15 m ρ c (Proc.devRef .tc main_v180)) (row (W15 m ρ c (Proc.devRef .tc main_arg12)))) = _
  rw [X7 m ρ c, arg12_at15 m ρ c]
  unfold Cert.ReferenceIdeal.ReadP.val_main_v189 Cert.ReferenceIdeal.ReadP.val_main_v188 Cert.ReferenceIdeal.ReadP.val_main_v187 Cert.ReferenceIdeal.ReadP.val_main_v186 Cert.ReferenceIdeal.ReadP.val_main_call3_v0 Cert.ReferenceIdeal.ReadP.val_main_call3_cst
  exact relu_addRow_eq_host _ _ _ _ _

/-- Host stretch 8 does not write this array. -/
theorem P8 (c : Dev nD) : W17 m ρ c (Proc.devRef .tc main_v181) = W16 m ρ c (Proc.devRef .tc main_v181) :=
  (StableHlo.after_of_forall_not_mem (b := Proc.devRef .tc main_v181) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The bias row region 8 is given is the host's all-zero row. -/
theorem Z8 (c : Dev nD) : W17 m ρ c (Proc.devRef .tc main_v182) = broadcastInDim S100 ![] bcast_S_S100 (constant (F := Ideal) S_ .f32 0x00000000#32) := by
  show StableHlo.after hostOps8 (W16 m ρ c) (Proc.devRef .tc main_v182) = _
  after_results_simp <;> rfl

/-- Region 8 leaves the reference's stage v190 of the arguments. -/
theorem Y8 (c : Dev nD) : W18 m ρ c (Proc.devRef .tc main_v183) = Cert.ReferenceIdeal.ReadP.val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W18_arr m ρ c 3).trans ((Reg8.value (V17 m ρ) c).trans ?_)
  show lin1 (R := 196608) (K := 100) (C := 100) (W17 m ρ c (Proc.devRef .tc main_v181)) (W17 m ρ c (Proc.devRef .tc main_arg13)) (row (W17 m ρ c (Proc.devRef .tc main_v182))) = _
  rw [P8 m ρ c, Y7 m ρ c, arg13_at17 m ρ c, Z8 m ρ c]
  unfold Cert.ReferenceIdeal.ReadP.val_main_v190
  exact lin1_zero_row_eq_dot _ (Idealize.PlainDot.eq_plain _ rfl rfl rfl rfl rfl rfl) none _ _ _

set_option maxHeartbeats 4000000 in
/-- Host stretch 9 applies to the previous stage the operations the reference applies to its own: the same stage function. -/
theorem X9 (c : Dev nD) : W19 m ρ c (Proc.devRef .tc main_v223) = Cert.ReferenceIdeal.ReadP.val_main_v230 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps9 (W18 m ρ c) (Proc.devRef .tc main_v223) = _
  after_results_simp
  -- the operands of a concatenate sit inside dependent pairs, where the simp pass does not reach: finish those by rewriting
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [Y8 m ρ c, arg2_at18 m ρ c]
  rfl

/-- Region 9 leaves the reference's stage v234 of the arguments. -/
theorem Y9 (c : Dev nD) : W20 m ρ c (Proc.devRef .tc main_v224) = Cert.ReferenceIdeal.ReadP.val_main_v234 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W20_arr m ρ c 2).trans ((Reg9.value (V19 m ρ) c).trans ?_)
  show relu (addRow (R := 196608) (C := 100) (W19 m ρ c (Proc.devRef .tc main_v223)) (row (W19 m ρ c (Proc.devRef .tc main_arg14)))) = _
  rw [X9 m ρ c, arg14_at19 m ρ c]
  unfold Cert.ReferenceIdeal.ReadP.val_main_v234 Cert.ReferenceIdeal.ReadP.val_main_v233 Cert.ReferenceIdeal.ReadP.val_main_v232 Cert.ReferenceIdeal.ReadP.val_main_v231 Cert.ReferenceIdeal.ReadP.val_main_call4_v0 Cert.ReferenceIdeal.ReadP.val_main_call4_cst
  exact relu_addRow_eq_host _ _ _ _ _

set_option maxHeartbeats 4000000 in
/-- Host stretch 10 applies to the previous stage the operations the reference applies to its own: the same stage function. -/
theorem X10 (c : Dev nD) : W21 m ρ c (Proc.devRef .tc main_v234) = Cert.ReferenceIdeal.ReadP.val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps10 (W20 m ρ c) (Proc.devRef .tc main_v234) = _
  after_results_simp
  -- the operands of a concatenate sit inside dependent pairs, where the simp pass does not reach: finish those by rewriting
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [Y9 m ρ c, arg4_at20 m ρ c]
  rfl

/-- Region 10 leaves the reference's stage v249 of the arguments. -/
theorem Y10 (c : Dev nD) : W22 m ρ c (Proc.devRef .tc main_v235) = Cert.ReferenceIdeal.ReadP.val_main_v249 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W22_arr m ρ c 3).trans ((Reg10.value (V21 m ρ) c).trans ?_)
  show relu (lin1 (R := 65536) (K := 100) (C := 100) (W21 m ρ c (Proc.devRef .tc main_v234)) (W21 m ρ c (Proc.devRef .tc main_arg15)) (row (W21 m ρ c (Proc.devRef .tc main_arg16)))) = _
  rw [X10 m ρ c, arg15_at21 m ρ c, arg16_at21 m ρ c]
  unfold Cert.ReferenceIdeal.ReadP.val_main_v249 Cert.ReferenceIdeal.ReadP.val_main_v248 Cert.ReferenceIdeal.ReadP.val_main_v247 Cert.ReferenceIdeal.ReadP.val_main_v246 Cert.ReferenceIdeal.ReadP.val_main_v245 Cert.ReferenceIdeal.ReadP.val_main_call5_v0 Cert.ReferenceIdeal.ReadP.val_main_call5_cst
  exact relu_lin1_eq_host _ (Idealize.PlainDot.eq_plain _ rfl rfl rfl rfl rfl rfl) none _ _ _ _ _ _

/-- Region 11 leaves the reference's stage v254 of the arguments. -/
theorem Y11 (c : Dev nD) : W23 m ρ c (Proc.devRef .tc main_v236) = Cert.ReferenceIdeal.ReadP.val_main_v254 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W23_arr m ρ c 3).trans ((Reg11.value (V22 m ρ) c).trans ?_)
  show relu (lin1 (R := 65536) (K := 100) (C := 100) (W22 m ρ c (Proc.devRef .tc main_v235)) (W22 m ρ c (Proc.devRef .tc main_arg17)) (row (W22 m ρ c (Proc.devRef .tc main_arg18)))) = _
  rw [Y10 m ρ c, arg17_at22 m ρ c, arg18_at22 m ρ c]
  unfold Cert.ReferenceIdeal.ReadP.val_main_v254 Cert.ReferenceIdeal.ReadP.val_main_v253 Cert.ReferenceIdeal.ReadP.val_main_v252 Cert.ReferenceIdeal.ReadP.val_main_v251 Cert.ReferenceIdeal.ReadP.val_main_v250 Cert.ReferenceIdeal.ReadP.val_main_call6_v0 Cert.ReferenceIdeal.ReadP.val_main_call6_cst
  exact relu_lin1_eq_host _ (Idealize.PlainDot.eq_plain _ rfl rfl rfl rfl rfl rfl) none _ _ _ _ _ _

/-- Region 12 leaves the reference's stage v258 of the arguments. -/
theorem Y12 (c : Dev nD) : W24 m ρ c (Proc.devRef .tc main_v237) = Cert.ReferenceIdeal.ReadP.val_main_v258 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W24_arr m ρ c 3).trans ((Reg12.value (V23 m ρ) c).trans ?_)
  show lin1 (R := 65536) (K := 100) (C := 29) (W23 m ρ c (Proc.devRef .tc main_v236)) (W23 m ρ c (Proc.devRef .tc main_arg19)) (row (W23 m ρ c (Proc.devRef .tc main_arg20))) = _
  rw [Y11 m ρ c, arg19_at23 m ρ c, arg20_at23 m ρ c]
  unfold Cert.ReferenceIdeal.ReadP.val_main_v258 Cert.ReferenceIdeal.ReadP.val_main_v257 Cert.ReferenceIdeal.ReadP.val_main_v256 Cert.ReferenceIdeal.ReadP.val_main_v255
  exact lin1_eq_host _ (Idealize.PlainDot.eq_plain _ rfl rfl rfl rfl rfl rfl) none _ _ _ _ _

end Cert.KernelIdeal.Fold

end
-- ==== Proof.lean ====
/-
  The certificate of a five-layer graph-convolution network with two mean-pool steps and a three-layer dense head.

  Both programs compute the same chain of stages. Every dense product and every bias-and-rectifier step of the kernel is a
  grid of row tiles: a tile's entry (p, q) reads only row p of its tile of the table, the whole weight matrix and the whole
  bias row, so it is the entry of the whole-array layer; the tiles cover the rows, and the region's result array is the
  whole-array layer (modules Reg0 … Reg12). A product into a zero accumulator plus a zero bias row is the host's
  `dot_general` (x + 0 = x on the extended reals), a product plus a bias row is `dot_general` plus the broadcast bias, and a
  maximum with a zero splat is the maximum with a broadcast zero; a change of float format is the identity. Between the
  regions both programs apply the same host operations (the degree count, its inverse square root, the gathers, the
  scatter-adds, the pool quotients) to the same values, so those stretches are carried as they are and never opened. Read
  back stage by stage (module Chain), the kernel's result array is the reference's last stage of the same arguments.
  No law used needs a finite operand, so the precondition is not opened.
-/
import proofs.«123412_j7670811591308_1_alg».proof.Defs
import proofs.«123412_j7670811591308_1_alg».proof.Proof.Gen.Kernel
import proofs.«123412_j7670811591308_1_alg».proof.Proof.Gen.Kernel.Frame
import proofs.«123412_j7670811591308_1_alg».proof.Proof.Gen.KernelIdeal
import proofs.«123412_j7670811591308_1_alg».proof.Proof.Gen.KernelIdeal.Frame
import proofs.«123412_j7670811591308_1_alg».proof.Proof.Gen.ReferenceIdeal
import proofs.«123412_j7670811591308_1_alg».proof.Proof.RefRunP
import proofs.«123412_j7670811591308_1_alg».proof.Proof.RefReadP
import proofs.«123412_j7670811591308_1_alg».proof.Proof.Gen.Pre_finite_inputs
import proofs.«123412_j7670811591308_1_alg».proof.Proof.KRun
import proofs.«123412_j7670811591308_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end, from memories agreeing on the arguments, with the result array at the reference's last stage of the
    arguments: the kernel's by the stage-by-stage reading of its regions, the reference's by its own run. -/
theorem algebraic : Cert.algebraic_KernelIdeal_ReferenceIdeal := by
  intro m ρ m' ρ' _ hagree
  refine ⟨fun c => Cert.ReferenceIdeal.ReadP.val_main_v258 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono (fun r h c => ⟨(h c).1.trans (Cert.KernelIdeal.Fold.Y12 m ρ c), (h c).2⟩)
      (Cert.KernelIdeal.KRun.run_value (F := Ideal) m ρ)
  · refine (θ_run Cert.ReferenceIdeal.defs _ _).mono (fun r h c => ⟨?_, (h c).2⟩) (Cert.ReferenceIdeal.ValueP.run (F := Ideal) m' ρ')
    obtain ⟨h0, h1, h2, h3, h4, h5, h6, h7, h8, h9, h10, h11, h12, h13, h14, h15, h16, h17, h18, h19, h20⟩ := hagree c
    rw [(h c).1, Cert.ReferenceIdeal.ReadP.val_main_v258_eq, h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
